-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S2x16777216 : Shape := ⟨2, ![2, 16777216]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S2x16777216 : S_.BroadcastsInDim S2x16777216 (![] : Fin 0 → Fin S2x16777216.rank)
  reducesTo_S2x16777216_S_d0_1 : S2x16777216.ReducesTo [0, 1] S_

variable [Facts]

def fn {F : FTy → Type} [FloatOps F] (main_arg0 : FVec F S4096x4096 .f32) (main_arg1 : FVec F S2x16777216 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S2x16777216 .f32 := Host.absf main_arg1
  let main_cst_0 : FVec F S_ .f32 := constant S_ .f32 0x7F800000#32
  let main_v5 : FVec F S2x16777216 .f32 := broadcastInDim S2x16777216 ![] bcast_S_S2x16777216 main_cst_0
  let main_v6 : IVec S2x16777216 1 := cmpf .olt main_v4 main_v5
  let main_c_1 : IVec S_ 1 := constantI S_ 1 1#1
  let main_v7 : IVec S_ 1 := (fun x v => Host.reduce IntOp.andi x v reducesTo_S2x16777216_S_d0_1 h_S_) main_v6 main_c_1
  let main_v8 : IVec S_ 1 := andi main_v3 main_v7
  main_v8
-- ==== Kernel.lean ====
abbrev S4096x4096 : Shape := ⟨2, ![4096, 4096]⟩
abbrev S2x16777216 : Shape := ⟨2, ![2, 16777216]⟩
abbrev S16777216 : Shape := ⟨1, ![16777216]⟩
abbrev S2x262144 : Shape := ⟨2, ![2, 262144]⟩
abbrev S262144 : Shape := ⟨1, ![262144]⟩
abbrev S1x262144 : Shape := ⟨2, ![1, 262144]⟩
abbrev S_ : Shape := ⟨0, ![]⟩
abbrev S16777216x1 : Shape := ⟨2, ![16777216, 1]⟩
abbrev S1 : Shape := ⟨1, ![1]⟩
abbrev S1x1 : Shape := ⟨2, ![1, 1]⟩

abbrev nBuf : Space → Nat
  | .hbm => 112
  | .vmem => 28
  | .smem => 0
  | _ => 0

abbrev bufTy : (tb : Table) → Fin (tcTables nBuf tb) → BufTy
  | .hbm, ⟨0, _⟩ => ⟨S4096x4096, .f32⟩
  | .hbm, ⟨1, _⟩ => ⟨S2x16777216, .f32⟩
  | .hbm, ⟨2, _⟩ => ⟨S16777216, .i32⟩
  | .hbm, ⟨3, _⟩ => ⟨S16777216, .f32⟩
  | .hbm, ⟨4, _⟩ => ⟨S16777216, .f32⟩
  | .hbm, ⟨5, _⟩ => ⟨S16777216, .f32⟩
  | .hbm, ⟨6, _⟩ => ⟨S16777216, .f32⟩
  | .hbm, ⟨7, _⟩ => ⟨S_, .i32⟩
  | .hbm, ⟨8, _⟩ => ⟨S16777216, .i32⟩
  | .hbm, ⟨9, _⟩ => ⟨S16777216, .i32⟩
  | .hbm, ⟨10, _⟩ => ⟨S_, .i32⟩
  | .hbm, ⟨11, _⟩ => ⟨S16777216, .i32⟩
  | .hbm, ⟨12, _⟩ => ⟨S16777216, .i32⟩
  | .hbm, ⟨13, _⟩ => ⟨S_, .i32⟩
  | .hbm, ⟨14, _⟩ => ⟨S16777216, .i32⟩
  | .hbm, ⟨15, _⟩ => ⟨S16777216, .i32⟩
  | .hbm, ⟨16, _⟩ => ⟨S_, .i32⟩
  | .hbm, ⟨17, _⟩ => ⟨S16777216, .i32⟩
  | .hbm, ⟨18, _⟩ => ⟨S16777216, .i32⟩
  | .hbm, ⟨19, _⟩ => ⟨S_, .i32⟩
  | .hbm, ⟨20, _⟩ => ⟨S16777216, .i32⟩
  | .hbm, ⟨21, _⟩ => ⟨S16777216, .i1⟩
  | .hbm, ⟨22, _⟩ => ⟨S_, .i32⟩
  | .hbm, ⟨23, _⟩ => ⟨S16777216, .i32⟩
  | .hbm, ⟨24, _⟩ => ⟨S16777216, .i32⟩
  | .hbm, ⟨25, _⟩ => ⟨S16777216, .i32⟩
  | .hbm, ⟨26, _⟩ => ⟨S16777216x1, .i32⟩
  | .hbm, ⟨27, _⟩ => ⟨S1, .i32⟩
  | .hbm, ⟨28, _⟩ => ⟨S_, .i32⟩
  | .hbm, ⟨29, _⟩ => ⟨S16777216x1, .i32⟩
  | .hbm, ⟨30, _⟩ => ⟨S16777216x1, .i1⟩
  | .hbm, ⟨31, _⟩ => ⟨S1x1, .i32⟩
  | .hbm, ⟨32, _⟩ => ⟨S16777216x1, .i32⟩
  | .hbm, ⟨33, _⟩ => ⟨S16777216x1, .i1⟩
  | .hbm, ⟨34, _⟩ => ⟨S16777216x1, .i1⟩
  | .hbm, ⟨35, _⟩ => ⟨S_, .i1⟩
  | .hbm, ⟨36, _⟩ => ⟨S16777216, .i1⟩
  | .hbm, ⟨37, _⟩ => ⟨S16777216, .f32⟩
  | .hbm, ⟨38, _⟩ => ⟨S_, .f32⟩
  | .hbm, ⟨39, _⟩ => ⟨S16777216, .f32⟩
  | .hbm, ⟨40, _⟩ => ⟨S16777216, .f32⟩
  | .hbm, ⟨41, _⟩ => ⟨S_, .i32⟩
  | .hbm, ⟨42, _⟩ => ⟨S16777216, .i32⟩
  | .hbm, ⟨43, _⟩ => ⟨S16777216, .i1⟩
  | .hbm, ⟨44, _⟩ => ⟨S_, .i32⟩
  | .hbm, ⟨45, _⟩ => ⟨S16777216, .i32⟩
  | .hbm, ⟨46, _⟩ => ⟨S16777216, .i32⟩
  | .hbm, ⟨47, _⟩ => ⟨S16777216, .i32⟩
  | .hbm, ⟨48, _⟩ => ⟨S16777216x1, .i32⟩
  | .hbm, ⟨49, _⟩ => ⟨S1, .i32⟩
  | .hbm, ⟨50, _⟩ => ⟨S_, .i32⟩
  | .hbm, ⟨51, _⟩ => ⟨S16777216x1, .i32⟩
  | .hbm, ⟨52, _⟩ => ⟨S16777216x1, .i1⟩
  | .hbm, ⟨53, _⟩ => ⟨S1x1, .i32⟩
  | .hbm, ⟨54, _⟩ => ⟨S16777216x1, .i32⟩
  | .hbm, ⟨55, _⟩ => ⟨S16777216x1, .i1⟩
  | .hbm, ⟨56, _⟩ => ⟨S16777216x1, .i1⟩
  | .hbm, ⟨57, _⟩ => ⟨S_, .i1⟩
  | .hbm, ⟨58, _⟩ => ⟨S16777216, .i1⟩
  | .hbm, ⟨59, _⟩ => ⟨S16777216, .f32⟩
  | .hbm, ⟨60, _⟩ => ⟨S_, .f32⟩
  | .hbm, ⟨61, _⟩ => ⟨S16777216, .f32⟩
  | .hbm, ⟨62, _⟩ => ⟨S16777216, .f32⟩
  | .hbm, ⟨63, _⟩ => ⟨S_, .i32⟩
  | .hbm, ⟨64, _⟩ => ⟨S16777216, .i32⟩
  | .hbm, ⟨65, _⟩ => ⟨S16777216, .i1⟩
  | .hbm, ⟨66, _⟩ => ⟨S_, .i32⟩
  | .hbm, ⟨67, _⟩ => ⟨S16777216, .i32⟩
  | .hbm, ⟨68, _⟩ => ⟨S16777216, .i32⟩
  | .hbm, ⟨69, _⟩ => ⟨S16777216, .i32⟩
  | .hbm, ⟨70, _⟩ => ⟨S16777216x1, .i32⟩
  | .hbm, ⟨71, _⟩ => ⟨S1, .i32⟩
  | .hbm, ⟨72, _⟩ => ⟨S_, .i32⟩
  | .hbm, ⟨73, _⟩ => ⟨S16777216x1, .i32⟩
  | .hbm, ⟨74, _⟩ => ⟨S16777216x1, .i1⟩
  | .hbm, ⟨75, _⟩ => ⟨S1x1, .i32⟩
  | .hbm, ⟨76, _⟩ => ⟨S16777216x1, .i32⟩
  | .hbm, ⟨77, _⟩ => ⟨S16777216x1, .i1⟩
  | .hbm, ⟨78, _⟩ => ⟨S16777216x1, .i1⟩
  | .hbm, ⟨79, _⟩ => ⟨S_, .i1⟩
  | .hbm, ⟨80, _⟩ => ⟨S16777216, .i1⟩
  | .hbm, ⟨81, _⟩ => ⟨S16777216, .f32⟩
  | .hbm, ⟨82, _⟩ => ⟨S_, .f32⟩
  | .hbm, ⟨83, _⟩ => ⟨S16777216, .f32⟩
  | .hbm, ⟨84, _⟩ => ⟨S16777216, .f32⟩
  | .hbm, ⟨85, _⟩ => ⟨S_, .i32⟩
  | .hbm, ⟨86, _⟩ => ⟨S16777216, .i32⟩
  | .hbm, ⟨87, _⟩ => ⟨S16777216, .i1⟩
  | .hbm, ⟨88, _⟩ => ⟨S_, .i32⟩
  | .hbm, ⟨89, _⟩ => ⟨S16777216, .i32⟩
  | .hbm, ⟨90, _⟩ => ⟨S16777216, .i32⟩
  | .hbm, ⟨91, _⟩ => ⟨S16777216, .i32⟩
  | .hbm, ⟨92, _⟩ => ⟨S16777216x1, .i32⟩
  | .hbm, ⟨93, _⟩ => ⟨S1, .i32⟩
  | .hbm, ⟨94, _⟩ => ⟨S_, .i32⟩
  | .hbm, ⟨95, _⟩ => ⟨S16777216x1, .i32⟩
  | .hbm, ⟨96, _⟩ => ⟨S16777216x1, .i1⟩
  | .hbm, ⟨97, _⟩ => ⟨S1x1, .i32⟩
  | .hbm, ⟨98, _⟩ => ⟨S16777216x1, .i32⟩
  | .hbm, ⟨99, _⟩ => ⟨S16777216x1, .i1⟩
  | .hbm, ⟨100, _⟩ => ⟨S16777216x1, .i1⟩
  | .hbm, ⟨101, _⟩ => ⟨S_, .i1⟩
  | .hbm, ⟨102, _⟩ => ⟨S16777216, .i1⟩
  | .hbm, ⟨103, _⟩ => ⟨S16777216, .f32⟩
  | .hbm, ⟨104, _⟩ => ⟨S_, .f32⟩
  | .hbm, ⟨105, _⟩ => ⟨S16777216, .f32⟩
  | .hbm, ⟨106, _⟩ => ⟨S16777216, .f32⟩
  | .hbm, ⟨107, _⟩ => ⟨S16777216, .f32⟩
  | .hbm, ⟨108, _⟩ => ⟨S16777216, .f32⟩
  | .hbm, ⟨109, _⟩ => ⟨S_, .f32⟩
  | .hbm, ⟨110, _⟩ => ⟨S16777216, .f32⟩
  | .hbm, ⟨111, _⟩ => ⟨S16777216, .i1⟩
  | .local _ .vmem, ⟨0, _⟩ => ⟨S2x262144, .f32⟩
  | .local _ .vmem, ⟨1, _⟩ => ⟨S2x262144, .f32⟩
  | .local _ .vmem, ⟨2, _⟩ => ⟨S262144, .i32⟩
  | .local _ .vmem, ⟨3, _⟩ => ⟨S262144, .i32⟩
  | .local _ .vmem, ⟨4, _⟩ => ⟨S262144, .f32⟩
  | .local _ .vmem, ⟨5, _⟩ => ⟨S262144, .f32⟩
  | .local _ .vmem, ⟨6, _⟩ => ⟨S262144, .f32⟩
  | .local _ .vmem, ⟨7, _⟩ => ⟨S262144, .f32⟩
  | .local _ .vmem, ⟨8, _⟩ => ⟨S262144, .f32⟩
  | .local _ .vmem, ⟨9, _⟩ => ⟨S262144, .f32⟩
  | .local _ .vmem, ⟨10, _⟩ => ⟨S262144, .f32⟩
  | .local _ .vmem, ⟨11, _⟩ => ⟨S262144, .f32⟩
  | .local _ .vmem, ⟨12, _⟩ => ⟨S262144, .f32⟩
  | .local _ .vmem, ⟨13, _⟩ => ⟨S262144, .f32⟩
  | .local _ .vmem, ⟨14, _⟩ => ⟨S262144, .f32⟩
  | .local _ .vmem, ⟨15, _⟩ => ⟨S262144, .f32⟩
  | .local _ .vmem, ⟨16, _⟩ => ⟨S262144, .f32⟩
  | .local _ .vmem, ⟨17, _⟩ => ⟨S262144, .f32⟩
  | .local _ .vmem, ⟨18, _⟩ => ⟨S262144, .f32⟩
  | .local _ .vmem, ⟨19, _⟩ => ⟨S262144, .f32⟩
  | .local _ .vmem, ⟨20, _⟩ => ⟨S262144, .f32⟩
  | .local _ .vmem, ⟨21, _⟩ => ⟨S262144, .f32⟩
  | .local _ .vmem, ⟨22, _⟩ => ⟨S262144, .f32⟩
  | .local _ .vmem, ⟨23, _⟩ => ⟨S262144, .f32⟩
  | .local _ .vmem, ⟨24, _⟩ => ⟨S262144, .f32⟩
  | .local _ .vmem, ⟨25, _⟩ => ⟨S262144, .f32⟩
  | .local _ .vmem, ⟨26, _⟩ => ⟨S262144, .f32⟩
  | .local _ .vmem, ⟨27, _⟩ => ⟨S262144, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v10 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_cst : Ref sig .tc := ⟨.hbm, 60, rfl⟩
abbrev main_call1_v14 : Ref sig .tc := ⟨.hbm, 61, rfl⟩
abbrev main_v11 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_cst : Ref sig .tc := ⟨.hbm, 82, rfl⟩
abbrev main_call2_v14 : Ref sig .tc := ⟨.hbm, 83, rfl⟩
abbrev main_v12 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_c_1 : Ref sig .tc := ⟨.hbm, 93, rfl⟩
abbrev main_call3_c_2 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_3 : Ref sig .tc := ⟨.hbm, 101, rfl⟩
abbrev main_call3_v12 : Ref sig .tc := ⟨.hbm, 102, rfl⟩
abbrev main_call3_v13 : Ref sig .tc := ⟨.hbm, 103, rfl⟩
abbrev main_call3_cst : Ref sig .tc := ⟨.hbm, 104, rfl⟩
abbrev main_call3_v14 : Ref sig .tc := ⟨.hbm, 105, rfl⟩
abbrev main_v13 : Ref sig .tc := ⟨.hbm, 106, rfl⟩
abbrev main_v14_0 : Ref sig .tc := ⟨.hbm, 107, rfl⟩
abbrev main_v14_1 : Ref sig .tc := ⟨.hbm, 108, rfl⟩
abbrev main_cst : Ref sig .tc := ⟨.hbm, 109, rfl⟩
abbrev main_v15 : Ref sig .tc := ⟨.hbm, 110, rfl⟩
abbrev main_v16 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2x262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S262144 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S262144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S262144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S262144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 1 → Nat :=
  let arg0 : BitVec 32 := BitVec.ofNat 32 (i 0).val
  let c0_i32 : BitVec 32 := 0#32
  ![arg0.toNat]

def cc1_transform_5 (i : grid1.Coords) : Fin 1 → Nat :=
  let arg0 : BitVec 32 := BitVec.ofNat 32 (i 0).val
  let c0_i32 : BitVec 32 := 0#32
  ![arg0.toNat]

def cc1_transform_6 (i : grid1.Coords) : Fin 1 → Nat :=
  let arg0 : BitVec 32 := BitVec.ofNat 32 (i 0).val
  let c0_i32 : BitVec 32 := 0#32
  ![arg0.toNat]

def cc1_transform_7 (i : grid1.Coords) : Fin 1 → Nat :=
  let arg0 : BitVec 32 := BitVec.ofNat 32 (i 0).val
  let c0_i32 : BitVec 32 := 0#32
  ![arg0.toNat]

def cc1_transform_8 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S262144 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S262144 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S262144 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S262144 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S262144 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S262144 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S262144 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S262144 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S262144 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  inb_S2x262144_S1x262144_0_0 : ∀ a, (![0, 0] : Fin 2 → Nat) a + S1x262144.size a ≤ S2x262144.size a
  h_S1x262144 : 0 < S1x262144.numel
  shapeCasts_S1x262144_S262144 : S1x262144.ShapeCasts S262144
  inb_S2x262144_S1x262144_1_0 : ∀ a, (![1, 0] : Fin 2 → Nat) a + S1x262144.size a ≤ S2x262144.size a
  inb_S262144_S262144_0 : ∀ a, (![0] : Fin 1 → Nat) a + S262144.size a ≤ S262144.size a
  h_S262144 : 0 < S262144.numel
  natLt_1_32 : 1 < 32
  shapeCasts_S4096x4096_S16777216 : S4096x4096.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S_S16777216x1 : S_.BroadcastsInDim S16777216x1 (![] : Fin 0 → Fin S16777216x1.rank)
  bcast_S1_S1x1_1 : S1.BroadcastsInDim S1x1 (![1] : Fin 1 → Fin S1x1.rank)
  bcast_S1x1_S16777216x1_0_1 : S1x1.BroadcastsInDim S16777216x1 (![0, 1] : Fin 2 → Fin S16777216x1.rank)
  reducesTo_S16777216x1_S16777216_d1 : S16777216x1.ReducesTo [1] S16777216
  h_S_ : 0 < S_.numel
  shapeCasts_S262144_S262144 : S262144.ShapeCasts S262144
  gather_S16777216_S16777216x1_S16777216_n_0_n_n_0_1_1_wf : GatherDims.WF S16777216 S16777216x1 S16777216 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x262144.size a ≤ S2x16777216.size a
  hwx0_0 : ∀ i : grid0.Coords, EltTy.bits .f32 = 32 ∨ (Rect.block (s := S2x16777216) S2x262144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S262144.size a ≤ S16777216.size a
  hwx0_1 : ∀ i : grid0.Coords, EltTy.bits .i32 = 32 ∨ (Rect.block (s := S16777216) S262144.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S262144.size a ≤ S16777216.size a
  hwx0_2 : ∀ i : grid0.Coords, EltTy.bits .f32 = 32 ∨ (Rect.block (s := S16777216) S262144.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S262144.size a ≤ S16777216.size a
  hwx0_3 : ∀ i : grid0.Coords, EltTy.bits .f32 = 32 ∨ (Rect.block (s := S16777216) S262144.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S262144.size a ≤ S16777216.size a
  hwx0_4 : ∀ i : grid0.Coords, EltTy.bits .f32 = 32 ∨ (Rect.block (s := S16777216) S262144.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S262144.size a ≤ S16777216.size a
  hwx1_0 : ∀ i : grid1.Coords, EltTy.bits .f32 = 32 ∨ (Rect.block (s := S16777216) S262144.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S262144.size a ≤ S16777216.size a
  hwx1_1 : ∀ i : grid1.Coords, EltTy.bits .f32 = 32 ∨ (Rect.block (s := S16777216) S262144.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S262144.size a ≤ S16777216.size a
  hwx1_2 : ∀ i : grid1.Coords, EltTy.bits .f32 = 32 ∨ (Rect.block (s := S16777216) S262144.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S262144.size a ≤ S16777216.size a
  hwx1_3 : ∀ i : grid1.Coords, EltTy.bits .f32 = 32 ∨ (Rect.block (s := S16777216) S262144.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S262144.size a ≤ S16777216.size a
  hwx1_4 : ∀ i : grid1.Coords, EltTy.bits .f32 = 32 ∨ (Rect.block (s := S16777216) S262144.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S262144.size a ≤ S16777216.size a
  hwx1_5 : ∀ i : grid1.Coords, EltTy.bits .f32 = 32 ∨ (Rect.block (s := S16777216) S262144.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S262144.size a ≤ S16777216.size a
  hwx1_6 : ∀ i : grid1.Coords, EltTy.bits .f32 = 32 ∨ (Rect.block (s := S16777216) S262144.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S262144.size a ≤ S16777216.size a
  hwx1_7 : ∀ i : grid1.Coords, EltTy.bits .f32 = 32 ∨ (Rect.block (s := S16777216) S262144.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S262144.size a ≤ S16777216.size a
  hwx1_8 : ∀ i : grid1.Coords, EltTy.bits .f32 = 32 ∨ (Rect.block (s := S16777216) S262144.size (cc1_transform_8 i) (hinb1_8 i)).WholeWords (EltTy.packing .f32)

variable [Facts₀]

def gather_S16777216_S16777216x1_S16777216_n_0_n_n_0_1_1 : GatherDims S16777216 S16777216x1 S16777216 where
  offsetDims := []
  collapsedSliceDims := [0]
  operandBatchingDims := []
  startIndicesBatchingDims := []
  startIndexMap := [0]
  indexVectorDim := 1
  sliceSizes := ![1]
  wf := gather_S16777216_S16777216x1_S16777216_n_0_n_n_0_1_1_wf

abbrev win0_0 : Pipeline.Window sig grid0 :=
  Pipeline.Window.ofSpec (Memref.whole main_arg1) S2x262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S262144.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S262144.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S262144.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S262144.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v10) S262144.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S262144.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S262144.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S262144.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_1) S262144.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0_2) S262144.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v0_3) S262144.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v14_0) S262144.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v14_1) S262144.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S2x16777216 : Shape := ⟨2, ![2, 16777216]⟩
abbrev S1x16777216 : Shape := ⟨2, ![1, 16777216]⟩
abbrev S16777216 : Shape := ⟨1, ![16777216]⟩
abbrev S_ : Shape := ⟨0, ![]⟩
abbrev S16777216x1 : Shape := ⟨2, ![16777216, 1]⟩

abbrev nBuf : Space → Nat
  | .hbm => 137
  | .vmem => 0
  | .smem => 0
  | _ => 0

abbrev hbmTy0_0 (i : Nat) : BufTy := match i % 128 with
  | 0 => ⟨S4096x4096, .f32⟩
  | 1 => ⟨S2x16777216, .f32⟩
  | 2 => ⟨S1x16777216, .f32⟩
  | 3 => ⟨S16777216, .f32⟩
  | 4 => ⟨S1x16777216, .f32⟩
  | 5 => ⟨S16777216, .f32⟩
  | 6 => ⟨S16777216, .f32⟩
  | 7 => ⟨S_, .f32⟩
  | 8 => ⟨S16777216, .f32⟩
  | 9 => ⟨S16777216, .f32⟩
  | 10 => ⟨S16777216, .f32⟩
  | 11 => ⟨S_, .f32⟩
  | 12 => ⟨S16777216, .f32⟩
  | 13 => ⟨S16777216, .f32⟩
  | 14 => ⟨S_, .f32⟩
  | 15 => ⟨S16777216, .f32⟩
  | 16 => ⟨S16777216, .i1⟩
  | 17 => ⟨S_, .f32⟩
  | 18 => ⟨S16777216, .f32⟩
  | 19 => ⟨S16777216, .i1⟩
  | 20 => ⟨S16777216, .i1⟩
  | 21 => ⟨S_, .f32⟩
  | 22 => ⟨S16777216, .f32⟩
  | 23 => ⟨S16777216, .i1⟩
  | 24 => ⟨S16777216, .i1⟩
  | 25 => ⟨S_, .f32⟩
  | 26 => ⟨S16777216, .f32⟩
  | 27 => ⟨S16777216, .i1⟩
  | 28 => ⟨S16777216, .i1⟩
  | 29 => ⟨S_, .i32⟩
  | 30 => ⟨S_, .i32⟩
  | 31 => ⟨S_, .f32⟩
  | 32 => ⟨S16777216, .f32⟩
  | 33 => ⟨S16777216, .f32⟩
  | 34 => ⟨S_, .f32⟩
  | 35 => ⟨S16777216, .f32⟩
  | 36 => ⟨S16777216, .f32⟩
  | 37 => ⟨S16777216, .i32⟩
  | 38 => ⟨S_, .i32⟩
  | 39 => ⟨S_, .i32⟩
  | 40 => ⟨S_, .f32⟩
  | 41 => ⟨S16777216, .f32⟩
  | 42 => ⟨S16777216, .f32⟩
  | 43 => ⟨S_, .f32⟩
  | 44 => ⟨S16777216, .f32⟩
  | 45 => ⟨S16777216, .f32⟩
  | 46 => ⟨S16777216, .i32⟩
  | 47 => ⟨S_, .i32⟩
  | 48 => ⟨S_, .i32⟩
  | 49 => ⟨S_, .f32⟩
  | 50 => ⟨S16777216, .f32⟩
  | 51 => ⟨S16777216, .f32⟩
  | 52 => ⟨S_, .f32⟩
  | 53 => ⟨S16777216, .f32⟩
  | 54 => ⟨S16777216, .f32⟩
  | 55 => ⟨S16777216, .i32⟩
  | 56 => ⟨S_, .i32⟩
  | 57 => ⟨S_, .i32⟩
  | 58 => ⟨S_, .f32⟩
  | 59 => ⟨S16777216, .f32⟩
  | 60 => ⟨S16777216, .f32⟩
  | 61 => ⟨S_, .f32⟩
  | 62 => ⟨S16777216, .f32⟩
  | 63 => ⟨S16777216, .f32⟩
  | 64 => ⟨S16777216, .i32⟩
  | 65 => ⟨S16777216, .f32⟩
  | 66 => ⟨S_, .i32⟩
  | 67 => ⟨S16777216, .i32⟩
  | 68 => ⟨S16777216, .i32⟩
  | 69 => ⟨S16777216, .i32⟩
  | 70 => ⟨S_, .i32⟩
  | 71 => ⟨S16777216, .i32⟩
  | 72 => ⟨S16777216, .i1⟩
  | 73 => ⟨S_, .i32⟩
  | 74 => ⟨S16777216, .i32⟩
  | 75 => ⟨S16777216, .i32⟩
  | 76 => ⟨S16777216, .i32⟩
  | 77 => ⟨S16777216x1, .i32⟩
  | 78 => ⟨S16777216, .f32⟩
  | 79 => ⟨S_, .i32⟩
  | 80 => ⟨S16777216, .i32⟩
  | 81 => ⟨S16777216, .i32⟩
  | 82 => ⟨S16777216, .i32⟩
  | 83 => ⟨S_, .i32⟩
  | 84 => ⟨S16777216, .i32⟩
  | 85 => ⟨S16777216, .i1⟩
  | 86 => ⟨S_, .i32⟩
  | 87 => ⟨S16777216, .i32⟩
  | 88 => ⟨S16777216, .i32⟩
  | 89 => ⟨S16777216, .i32⟩
  | 90 => ⟨S16777216x1, .i32⟩
  | 91 => ⟨S16777216, .f32⟩
  | 92 => ⟨S_, .i32⟩
  | 93 => ⟨S16777216, .i32⟩
  | 94 => ⟨S16777216, .i32⟩
  | 95 => ⟨S16777216, .i32⟩
  | 96 => ⟨S_, .i32⟩
  | 97 => ⟨S16777216, .i32⟩
  | 98 => ⟨S16777216, .i1⟩
  | 99 => ⟨S_, .i32⟩
  | 100 => ⟨S16777216, .i32⟩
  | 101 => ⟨S16777216, .i32⟩
  | 102 => ⟨S16777216, .i32⟩
  | 103 => ⟨S16777216x1, .i32⟩
  | 104 => ⟨S16777216, .f32⟩
  | 105 => ⟨S_, .i32⟩
  | 106 => ⟨S16777216, .i32⟩
  | 107 => ⟨S16777216, .i32⟩
  | 108 => ⟨S16777216, .i32⟩
  | 109 => ⟨S_, .i32⟩
  | 110 => ⟨S16777216, .i32⟩
  | 111 => ⟨S16777216, .i1⟩
  | 112 => ⟨S_, .i32⟩
  | 113 => ⟨S16777216, .i32⟩
  | 114 => ⟨S16777216, .i32⟩
  | 115 => ⟨S16777216, .i32⟩
  | 116 => ⟨S16777216x1, .i32⟩
  | 117 => ⟨S16777216, .f32⟩
  | 118 => ⟨S16777216, .f32⟩
  | 119 => ⟨S16777216, .f32⟩
  | 120 => ⟨S16777216, .f32⟩
  | 121 => ⟨S16777216, .f32⟩
  | 122 => ⟨S16777216, .f32⟩
  | 123 => ⟨S16777216, .f32⟩
  | 124 => ⟨S16777216, .f32⟩
  | 125 => ⟨S16777216, .f32⟩
  | 126 => ⟨S16777216, .f32⟩
  | 127 => ⟨S16777216, .f32⟩
  | _ => ⟨S4096x4096, .f32⟩

abbrev hbmTy0_1 (i : Nat) : BufTy := match i % 128 with
  | 0 => ⟨S16777216, .f32⟩
  | 1 => ⟨S16777216, .f32⟩
  | 2 => ⟨S16777216, .f32⟩
  | 3 => ⟨S16777216, .f32⟩
  | 4 => ⟨S16777216, .f32⟩
  | 5 => ⟨S_, .f32⟩
  | 6 => ⟨S_, .f32⟩
  | 7 => ⟨S16777216, .f32⟩
  | 8 => ⟨S16777216, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_c_5 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_c_7 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v23 : Ref sig .tc := ⟨.hbm, 45, rfl⟩
abbrev main_v24 : Ref sig .tc := ⟨.hbm, 46, rfl⟩
abbrev main_c_8 : Ref sig .tc := ⟨.hbm, 47, rfl⟩
abbrev main_c_9 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v25 : Ref sig .tc := ⟨.hbm, 54, rfl⟩
abbrev main_v26 : Ref sig .tc := ⟨.hbm, 55, rfl⟩
abbrev main_c_10 : Ref sig .tc := ⟨.hbm, 56, rfl⟩
abbrev main_c_11 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_c_12 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_c_13 : Ref sig .tc := ⟨.hbm, 70, rfl⟩
abbrev main_v33 : Ref sig .tc := ⟨.hbm, 71, rfl⟩
abbrev main_v34 : Ref sig .tc := ⟨.hbm, 72, rfl⟩
abbrev main_c_14 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_c_15 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_c_16 : Ref sig .tc := ⟨.hbm, 83, rfl⟩
abbrev main_v43 : Ref sig .tc := ⟨.hbm, 84, rfl⟩
abbrev main_v44 : Ref sig .tc := ⟨.hbm, 85, rfl⟩
abbrev main_c_17 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_c_18 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_c_19 : Ref sig .tc := ⟨.hbm, 96, rfl⟩
abbrev main_v53 : Ref sig .tc := ⟨.hbm, 97, rfl⟩
abbrev main_v54 : Ref sig .tc := ⟨.hbm, 98, rfl⟩
abbrev main_c_20 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_c_21 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_c_22 : Ref sig .tc := ⟨.hbm, 109, rfl⟩
abbrev main_v63 : Ref sig .tc := ⟨.hbm, 110, rfl⟩
abbrev main_v64 : Ref sig .tc := ⟨.hbm, 111, rfl⟩
abbrev main_c_23 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_24 : Ref sig .tc := ⟨.hbm, 133, rfl⟩
abbrev main_call4_v0 : Ref sig .tc := ⟨.hbm, 134, rfl⟩
abbrev main_call4_v1 : Ref sig .tc := ⟨.hbm, 135, rfl⟩
abbrev main_v85 : Ref sig .tc := ⟨.hbm, 136, rfl⟩

abbrev nD : Nat := 1
abbrev τ : Topo := Topo.v7x

variable {F : FTy → Type} [FloatOps F]

class Facts₀ : Prop where
  slices_S2x16777216_S1x16777216_0_0 : S2x16777216.Slices ![0, 0] S1x16777216
  shapeCasts_S1x16777216_S16777216 : S1x16777216.ShapeCasts S16777216
  slices_S2x16777216_S1x16777216_1_0 : S2x16777216.Slices ![1, 0] S1x16777216
  bcast_S_S16777216 : S_.BroadcastsInDim S16777216 (![] : Fin 0 → Fin S16777216.rank)
  shapeCasts_S4096x4096_S16777216 : S4096x4096.ShapeCasts S16777216
  bcast_S16777216_S16777216x1_0 : S16777216.BroadcastsInDim S16777216x1 (![0] : Fin 1 → Fin S16777216x1.rank)
  gather_S16777216_S16777216x1_S16777216_n_0_n_n_0_1_1_wf : GatherDims.WF S16777216 S16777216x1 S16777216 [] [0] [] [0] [] 1 ![1]

variable [Facts₀]

def gather_S16777216_S16777216x1_S16777216_n_0_n_n_0_1_1 : GatherDims S16777216 S16777216x1 S16777216 where
  offsetDims := []
  collapsedSliceDims := [0]
  operandBatchingDims := []
  startIndicesBatchingDims := []
  startIndexMap := [0]
  indexVectorDim := 1
  sliceSizes := ![1]
  wf := gather_S16777216_S16777216x1_S16777216_n_0_n_n_0_1_1_wf

class Facts : Prop extends Facts₀ where

variable [Facts]
-- ==== Proof.KRun.lean ====
/-
  The idealized kernel's whole run, with its two result arrays named.

  The program is two pipelined kernels among stretches of host operations.  Every weakly fair execution ends, and
  at the end every unscoped buffer of the TensorCore holds what the fold of the program's segments leaves in it:
  the blended values in the second kernel's first output, and the validity mask in the result of the last host
  comparison.  The two argument arrays end as launched.
-/
import proofs.«108337_j6347961663932_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two result buffers end at the
    contents the fold of the segments gives them, and the arguments are unchanged. -/
theorem run_fold : θ_run defs (onTc (τ := τ) (main (F := F))) ⟨m, fun _ => 0, ρ⟩ (fun r => ∀ c : Dev nD,
      r.2.mem ((c.tc : Thread nD τ).loc main_v14_0) = W8 m ρ c (Proc.devRef .tc main_v14_0)
      ∧ r.2.mem ((c.tc : Thread nD τ).loc main_v16) = W8 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v14_0 (by decide)),
       h c _ (mem_uc main_v16 (by decide)),
       (h c _ (mem_uc main_arg0 (by decide))).trans (W8_main_arg0 m ρ c),
       (h c _ (mem_uc main_arg1 (by decide))).trans (W8_main_arg1 m ρ c)⟩)

end Cert.KernelIdeal.Hand

end
-- ==== Proof.LibGatherScatterRead.lean ====
import Idealize.ShloMosaic.PureOps.Ideal
import Idealize.ShloMosaic.Lib.ValueIdx

/-!
# Row gathers and row scatter-adds read at an index

A gather of rows of a table `[N, C]` (or of entries of a vector `[N]`) by a column `[M, 1]` of
integer start indices reads, at result row `e`, the table's row whose number is the start index
read as a signed integer and clamped into `[0, N - 1]`.  A scatter-add of update rows `[M, C]`
(or update entries `[M]`) into `[N, C]` (or `[N]`) by such a column adds update row `e` to the
row whose number is the index read as a signed integer, and drops it when that number is outside
`[0, N)`; on the extended reals element `(n, j)` of the result is the operand's element plus the
sum of the updates' elements `(e, j)` over the `e` that land in row `n`.

The statements are generic in the extents and in the dimension-number record, which they take
with its fields given by equations, so that they apply to any record with those fields.
-/

noncomputable section

open scoped BigOperators

namespace LibGatherScatterRead

open Idealize.ShloMosaic Idealize.ShloMosaic.ValueIdx

/-! ## The two row functions of an index word -/

/-- The row a gather reads for the start index word `v`: `v` as a signed integer, clamped into
`[0, N - 1]`. -/
def gatherRowOf (N : Nat) (hN : 0 < N) {w : Nat} (v : BitVec w) : Fin N :=
  ⟨min v.toInt.toNat (N - 1), by omega⟩

/-- The row a scatter lands in for the index word `v`: `v` as a signed integer when it is in
`[0, N)`, and no row otherwise (the update is dropped). -/
def scatterRowOf? (N : Nat) {w : Nat} (v : BitVec w) : Option (Fin N) :=
  if h : 0 ≤ v.toInt ∧ v.toInt < (N : Int) then some ⟨v.toInt.toNat, by omega⟩ else none

/-- The value of `gatherRowOf`. -/
theorem gatherRowOf_val (N : Nat) (hN : 0 < N) {w : Nat} (v : BitVec w) :
    (gatherRowOf N hN v).val = min v.toInt.toNat (N - 1) := rfl

/-- `scatterRowOf? N v = some n` says exactly that `v`, read signed, is the number `n`. -/
theorem scatterRowOf?_eq_some_iff {N w : Nat} (v : BitVec w) (n : Fin N) :
    scatterRowOf? N v = some n ↔ v.toInt = (n.val : Int) := by
  unfold scatterRowOf?
  constructor
  · intro h
    split at h
    · rename_i hv
      have := congrArg Fin.val (Option.some.inj h)
      simp only at this
      omega
    · exact absurd h (by simp)
  · intro h
    have hn := n.isLt
    rw [dif_pos (by omega)]
    congr 1
    exact Fin.ext (by simp only; omega)

/-- **A row that a scatter keeps is the row the gather reads.**  If the index word `v` lands in
row `n` of a scatter (so `0 ≤ v < N` as a signed integer) then the gather row of `v` is `n`. -/
theorem gatherRowOf_of_scatterRowOf? {N w : Nat} (hN : 0 < N) (v : BitVec w) (n : Fin N)
    (h : scatterRowOf? N v = some n) : gatherRowOf N hN v = n := by
  have hv := (scatterRowOf?_eq_some_iff v n).mp h
  have hn := n.isLt
  exact Fin.ext (by rw [gatherRowOf_val]; omega)

/-- The negative-index normalisation `select (v <ₛ 0) (v + c) v` leaves a word that is
non-negative as a signed integer unchanged. -/
theorem normalise_of_nonneg {w : Nat} (v c : BitVec w) (hv : 0 ≤ v.toInt) :
    Scalar.select (IntOp.cmpi .slt v 0#w) (IntOp.addi v c) v = v := by
  have hs : v.slt 0#w = false := by
    rw [BitVec.slt_eq_decide, BitVec.toInt_zero]
    exact decide_eq_false (by omega)
  have hc : IntOp.cmpi .slt v 0#w = 0#1 := by
    show BitVec.ofBool (v.slt 0#w) = 0#1
    rw [hs]; rfl
  rw [hc]
  exact select_zero _ _

/-- **The one arithmetic fact of the layer law.**  If the scatter lands the index word `v` in row
`n`, then the gather row of the normalised word `select (v <ₛ 0) (v + c) v` is `n`. -/
theorem gatherRowOf_normalise_of_scatterRowOf? {N w : Nat} (hN : 0 < N) (v c : BitVec w) (n : Fin N)
    (h : scatterRowOf? N v = some n) :
    gatherRowOf N hN (Scalar.select (IntOp.cmpi .slt v 0#w) (IntOp.addi v c) v) = n := by
  have hv := (scatterRowOf?_eq_some_iff v n).mp h
  rw [normalise_of_nonneg v c (by omega)]
  exact gatherRowOf_of_scatterRowOf? hN v n h

/-! ## Sums over a rank-1 index set -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## Gathers read at an index -/

section Gather
variable {α : Type}

/-- The dimension numbers of a row gather of a table `[N, C]` by a column `[M, 1]` of start
indices: offset axis `1`, collapsed axis `0`, start index map `[0]`, index vector axis `1`, slice
sizes `[1, C]`. -/
abbrev rowsGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The dimension numbers of a gather of entries of a vector `[N]` by a column `[M, 1]` of start
indices: no offset axis, collapsed axis `0`, start index map `[0]`, index vector axis `1`, slice
size `[1]`. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

theorem gather_rowsDims_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowsGatherDims N M C wf) x idx (ix2 e j)
      = x (ix2 (gatherRowOf N hN (idx (ix2 e (0 : Fin 1)))) j) := by
  unfold Host.gather
  congr 1
  funext a
  refine Fin.ext ?_
  have h10 : (1 : Fin 2) ∉ ([0] : List (Fin 2)) := by decide
  match a with
  | ⟨0, _⟩ =>
    show GatherDims.start (rowsGatherDims N M C wf) (ix2 e j) idx 0
      + GatherDims.batchCoord (rowsGatherDims N M C wf) (ix2 e j) 0
      + GatherDims.offCoord (rowsGatherDims N M C wf) (ix2 e j) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (rowsGatherDims N M C wf) (ix2 e j)
        ⟨List.idxOf (0 : Fin 2) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
    rfl
  | ⟨1, _⟩ =>
    show GatherDims.start (rowsGatherDims N M C wf) (ix2 e j) idx 1
      + GatherDims.batchCoord (rowsGatherDims N M C wf) (ix2 e j) 1
      + GatherDims.offCoord (rowsGatherDims N M C wf) (ix2 e j) 1 = j.val
    have hst : GatherDims.start (rowsGatherDims N M C wf) (ix2 e j) idx 1 = 0 := by
      unfold GatherDims.start
      exact dif_neg h10
    have hoff : GatherDims.offCoord (rowsGatherDims N M C wf) (ix2 e j) 1 = j.val := by
      unfold GatherDims.offCoord
      rw [dif_pos ((GatherDims.mem_sKept _ _).mpr ⟨h10, List.not_mem_nil⟩)]
      rfl
    rw [GatherDims.batchCoord_eq_zero _ _ _ List.not_mem_nil, hst, hoff]
    omega

/-- **A row gather of a table, read at `(e, j)`**: with offset axis `1`, collapsed axis `0`, start
index map `[0]`, index vector axis `1` and slice sizes `[1, C]`, element `(e, j)` of the result is
the table's element `(g, j)`, `g` the gather row of the start index `idx[e, 0]`. -/
theorem gather_rows_apply {N M C w : Nat} (hN : 0 < N)
    (d : GatherDims ⟨2, ![N, C]⟩ ⟨2, ![M, 1]⟩ ⟨2, ![M, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (j : Fin C) :
    Host.gather d x idx (ix2 e j) = x (ix2 (gatherRowOf N hN (idx (ix2 e (0 : Fin 1)))) j) := by
  obtain ⟨od, cs, ob, sb, sm, iv, ss, wf⟩ := d
  dsimp only at hod hcs hob hsb hsm hiv hss
  subst hod hcs hob hsb hsm hiv hss
  exact gather_rowsDims_apply hN wf x idx e j

theorem gather_flatDims_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (gatherRowOf N hN (idx (ix2 e (0 : Fin 1))))) := by
  unfold Host.gather
  congr 1
  funext a
  obtain rfl : a = 0 := Subsingleton.elim _ _
  refine Fin.ext ?_
  show GatherDims.start (flatGatherDims N M wf) (ix1 e) idx 0
    + GatherDims.batchCoord (flatGatherDims N M wf) (ix1 e) 0
    + GatherDims.offCoord (flatGatherDims N M wf) (ix1 e) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (List.mem_singleton.mpr rfl)]
  have hsi : GatherDims.siIdx (flatGatherDims N M wf) (ix1 e)
      ⟨List.idxOf (0 : Fin 1) [0], List.idxOf_lt_length_iff.2 (List.mem_singleton.mpr rfl)⟩
        = ix2 e (0 : Fin 1) := by
    funext b; refine Fin.ext ?_
    match b with
    | ⟨0, _⟩ => rfl
    | ⟨1, _⟩ => rfl
  rw [hsi]
  rfl

/-- **A gather of entries of a vector, read at `e`**: with no offset axis, collapsed axis `0`,
start index map `[0]`, index vector axis `1` and slice size `[1]`, element `e` of the result is the
vector's entry `g`, `g` the gather row of the start index `idx[e, 0]`. -/
theorem gather_flat_apply {N M w : Nat} (hN : 0 < N)
    (d : GatherDims ⟨1, ![N]⟩ ⟨2, ![M, 1]⟩ ⟨1, ![M]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![M, 1]⟩ w) (e : Fin M) :
    Host.gather d x idx (ix1 e) = x (ix1 (gatherRowOf N hN (idx (ix2 e (0 : Fin 1))))) := by
  obtain ⟨od, cs, ob, sb, sm, iv, ss, wf⟩ := d
  dsimp only at hod hcs hob hsb hsm hiv hss
  subst hod hcs hob hsb hsm hiv hss
  exact gather_flatDims_apply hN wf x idx e

end Gather

/-! ## Scatter-adds read at an index -/

section Scatter

/-- The dimension numbers of a scatter of update rows `[M, C]` into a table `[N, C]` by a column
`[M, 1]` of indices: update window axis `1`, inserted window axis `0`, scatter axis to operand
axis `[0]`, index vector axis `1`. -/
abbrev rowsScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The dimension numbers of a scatter of update entries `[M]` into a vector `[N]` by a column
`[M, 1]` of indices: no update window axis, inserted window axis `0`, scatter axis to operand
axis `[0]`, index vector axis `1`. -/
abbrev flatScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where update `(e, c)` of a row scatter lands: in row `scatterRowOf? (idx[e, 0])`, column `c`. -/
theorem resultIdx?_rowsDims {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) :
    (rowsScatterDims N M C wf).resultIdx? (ix2 e c) idx
      = (scatterRowOf? N (idx (ix2 e (0 : Fin 1)))).map (fun r => ix2 r c) := by
  have h10 : (1 : Fin 2) ∉ ([0] : List (Fin 2)) := by decide
  have hs0 : (rowsScatterDims N M C wf).start (ix2 e c) idx 0 = (idx (ix2 e (0 : Fin 1))).toInt := by
    unfold ScatterDims.start
    rw [dif_pos (List.mem_singleton.mpr rfl)]
    have hsi : ScatterDims.siIdx (rowsScatterDims N M C wf) (ix2 e c)
        ⟨List.idxOf (0 : Fin 2) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
  have hs1 : (rowsScatterDims N M C wf).start (ix2 e c) idx 1 = 0 := by
    unfold ScatterDims.start
    exact dif_neg h10
  have hk0 : (0 : Fin 2) ∉ (rowsScatterDims N M C wf).sKept := fun h => by
    have := (List.mem_filter.mp h).2
    simp at this
  have hk1 : (1 : Fin 2) ∈ (rowsScatterDims N M C wf).sKept :=
    List.mem_filter.mpr ⟨List.mem_finRange _, by simp⟩
  have hw0 : (rowsScatterDims N M C wf).window (ix2 e c) 0 = 0 := by
    unfold ScatterDims.window
    exact dif_neg hk0
  have hw1 : (rowsScatterDims N M C wf).window (ix2 e c) 1 = c.val := by
    unfold ScatterDims.window
    rw [dif_pos hk1]
    rfl
  unfold ScatterDims.resultIdx?
  split
  · rename_i h
    have h0 := h 0
    rw [hs0, hw0] at h0
    have hv : 0 ≤ (idx (ix2 e (0 : Fin 1))).toInt ∧ (idx (ix2 e (0 : Fin 1))).toInt < (N : Int) := by
      have hsz : ((⟨2, ![N, C]⟩ : Shape).size 0 : Nat) = N := rfl
      rw [hsz] at h0
      simpa using h0
    have hrow : scatterRowOf? N (idx (ix2 e (0 : Fin 1)))
        = some ⟨(idx (ix2 e (0 : Fin 1))).toInt.toNat, by omega⟩ := by
      unfold scatterRowOf?; rw [dif_pos hv]
    rw [hrow, Option.map_some]
    congr 1
    funext a; refine Fin.ext ?_
    match a with
    | ⟨0, _⟩ =>
      show ((rowsScatterDims N M C wf).start (ix2 e c) idx 0
        + ((rowsScatterDims N M C wf).window (ix2 e c) 0 : Int)).toNat = (idx (ix2 e (0 : Fin 1))).toInt.toNat
      rw [hs0, hw0]; simp
    | ⟨1, _⟩ =>
      show ((rowsScatterDims N M C wf).start (ix2 e c) idx 1
        + ((rowsScatterDims N M C wf).window (ix2 e c) 1 : Int)).toNat = c.val
      rw [hs1, hw1]; simp
  · rename_i h
    have hv : ¬ (0 ≤ (idx (ix2 e (0 : Fin 1))).toInt ∧ (idx (ix2 e (0 : Fin 1))).toInt < (N : Int)) := by
      intro hv
      apply h
      intro a
      match a with
      | ⟨0, _⟩ =>
        show 0 ≤ (rowsScatterDims N M C wf).start (ix2 e c) idx 0
            + ((rowsScatterDims N M C wf).window (ix2 e c) 0 : Int)
          ∧ (rowsScatterDims N M C wf).start (ix2 e c) idx 0
            + ((rowsScatterDims N M C wf).window (ix2 e c) 0 : Int) < (N : Int)
        rw [hs0, hw0]; simpa using hv
      | ⟨1, _⟩ =>
        show 0 ≤ (rowsScatterDims N M C wf).start (ix2 e c) idx 1
            + ((rowsScatterDims N M C wf).window (ix2 e c) 1 : Int)
          ∧ (rowsScatterDims N M C wf).start (ix2 e c) idx 1
            + ((rowsScatterDims N M C wf).window (ix2 e c) 1 : Int) < (C : Int)
        rw [hs1, hw1]; have := c.isLt; omega
    have hrow : scatterRowOf? N (idx (ix2 e (0 : Fin 1))) = none := by
      unfold scatterRowOf?; rw [dif_neg hv]
    rw [hrow]; rfl

/-- Update `(e, c)` of a row scatter lands at `(n, j)` exactly when `e`'s row is `n` and `c = j`. -/
theorem resultIdx?_rowsDims_eq_some_iff {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (j : Fin C) :
    (rowsScatterDims N M C wf).resultIdx? (ix2 e c) idx = some (ix2 n j)
      ↔ scatterRowOf? N (idx (ix2 e (0 : Fin 1))) = some n ∧ c = j := by
  rw [resultIdx?_rowsDims]
  cases hr : scatterRowOf? N (idx (ix2 e (0 : Fin 1))) with
  | none => simp
  | some r =>
    rw [Option.map_some]
    constructor
    · intro h
      have h' := Option.some.inj h
      have e0 : r = n := congrFun h' 0
      have e1 : c = j := congrFun h' 1
      exact ⟨by rw [e0], e1⟩
    · rintro ⟨h1, h2⟩
      rw [Option.some.inj h1, h2]

/-- The extended-real scatter-add of update rows, for the literal record, read at `(n, j)`. -/
theorem hostScatterAdd_rowsDims_apply {N M C w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (j : Fin C) :
    Ideal.hostScatterAdd (rowsScatterDims N M C wf) x idx upd (ix2 n j)
      = x (ix2 n j) + ∑ e ∈ Finset.univ.filter
          (fun e : Fin M => scatterRowOf? N (idx (ix2 e (0 : Fin 1))) = some n), upd (ix2 e j) := by
  unfold Ideal.hostScatterAdd
  congr 1
  rw [Finset.sum_filter, sum_idx2, Finset.sum_filter]
  refine Finset.sum_congr rfl (fun e _ => ?_)
  by_cases hr : scatterRowOf? N (idx (ix2 e (0 : Fin 1))) = some n
  · rw [if_pos hr, Finset.sum_eq_single j]
    · rw [if_pos ((resultIdx?_rowsDims_eq_some_iff wf idx e j n j).mpr ⟨hr, rfl⟩)]
    · intro b _ hb
      rw [if_neg (fun h => hb ((resultIdx?_rowsDims_eq_some_iff wf idx e b n j).mp h).2)]
    · intro h; exact absurd (Finset.mem_univ j) h
  · rw [if_neg hr]
    exact Finset.sum_eq_zero (fun b _ =>
      if_neg (fun h => hr ((resultIdx?_rowsDims_eq_some_iff wf idx e b n j).mp h).1))

/-- **A scatter-add of update rows into a table, on the extended reals, read at `(n, j)`**: with
update window axis `1`, inserted window axis `0`, scatter axis to operand axis `[0]` and index vector
axis `1`, element `(n, j)` of the result is the operand's element `(n, j)` plus the sum of the
updates' elements `(e, j)` over the rows `e` whose index `idx[e, 0]`, read signed, is `n`. -/
theorem scatterAdd_rows_apply {N M C w : Nat} {φ : FTy}
    (d : ScatterDims ⟨2, ![N, C]⟩ ⟨2, ![M, 1]⟩ ⟨2, ![M, C]⟩)
    (huw : d.updateWindowDims = [1]) (hiw : d.insertedWindowDims = [0])
    (hsd : d.scatterDimsToOperandDims = [0]) (hiv : d.indexVectorDim = 1)
    (x : FVec Ideal ⟨2, ![N, C]⟩ φ) (idx : IVec ⟨2, ![M, 1]⟩ w) (upd : FVec Ideal ⟨2, ![M, C]⟩ φ)
    (n : Fin N) (j : Fin C) :
    Host.scatterAdd (F := Ideal) d x idx upd (ix2 n j)
      = x (ix2 n j) + ∑ e ∈ Finset.univ.filter
          (fun e : Fin M => scatterRowOf? N (idx (ix2 e (0 : Fin 1))) = some n), upd (ix2 e j) := by
  obtain ⟨uw, iw, sd, iv, wf⟩ := d
  dsimp only at huw hiw hsd hiv
  subst huw hiw hsd hiv
  exact hostScatterAdd_rowsDims_apply wf x idx upd n j

/-- Where update `e` of an entry scatter lands: at entry `scatterRowOf? (idx[e, 0])`. -/
theorem resultIdx?_flatDims {N M w : Nat}
    (wf : ScatterDims.WF ⟨1, ![N]⟩ ⟨2, ![M, 1]⟩ ⟨1, ![M]⟩ [] [0] [0] 1)
    (idx : IVec ⟨2, ![M, 1]⟩ w) (e : Fin M) :
    (flatScatterDims N M wf).resultIdx? (ix1 e) idx
      = (scatterRowOf? N (idx (ix2 e (0 : Fin 1)))).map (fun r => ix1 r) := by
  have hs0 : (flatScatterDims N M wf).start (ix1 e) idx 0 = (idx (ix2 e (0 : Fin 1))).toInt := by
    unfold ScatterDims.start
    rw [dif_pos (List.mem_singleton.mpr rfl)]
    have hsi : ScatterDims.siIdx (flatScatterDims N M wf) (ix1 e)
        ⟨List.idxOf (0 : Fin 1) [0], List.idxOf_lt_length_iff.2 (List.mem_singleton.mpr rfl)⟩
          = ix2 e (0 : Fin 1) := by
      funext b; refine Fin.ext ?_
      match b with
      | ⟨0, _⟩ => rfl
      | ⟨1, _⟩ => rfl
    rw [hsi]
  have hk0 : (0 : Fin 1) ∉ (flatScatterDims N M wf).sKept := fun h => by
    have := (List.mem_filter.mp h).2
    simp at this
  have hw0 : (flatScatterDims N M wf).window (ix1 e) 0 = 0 := by
    unfold ScatterDims.window
    exact dif_neg hk0
  unfold ScatterDims.resultIdx?
  split
  · rename_i h
    have h0 := h 0
    rw [hs0, hw0] at h0
    have hv : 0 ≤ (idx (ix2 e (0 : Fin 1))).toInt ∧ (idx (ix2 e (0 : Fin 1))).toInt < (N : Int) := by
      have hsz : ((⟨1, ![N]⟩ : Shape).size 0 : Nat) = N := rfl
      rw [hsz] at h0
      simpa using h0
    have hrow : scatterRowOf? N (idx (ix2 e (0 : Fin 1)))
        = some ⟨(idx (ix2 e (0 : Fin 1))).toInt.toNat, by omega⟩ := by
      unfold scatterRowOf?; rw [dif_pos hv]
    rw [hrow, Option.map_some]
    congr 1
    funext a
    obtain rfl : a = 0 := Subsingleton.elim _ _
    refine Fin.ext ?_
    show ((flatScatterDims N M wf).start (ix1 e) idx 0
      + ((flatScatterDims N M wf).window (ix1 e) 0 : Int)).toNat = (idx (ix2 e (0 : Fin 1))).toInt.toNat
    rw [hs0, hw0]; simp
  · rename_i h
    have hv : ¬ (0 ≤ (idx (ix2 e (0 : Fin 1))).toInt ∧ (idx (ix2 e (0 : Fin 1))).toInt < (N : Int)) := by
      intro hv
      apply h
      intro a
      obtain rfl : a = 0 := Subsingleton.elim _ _
      show 0 ≤ (flatScatterDims N M wf).start (ix1 e) idx 0
          + ((flatScatterDims N M wf).window (ix1 e) 0 : Int)
        ∧ (flatScatterDims N M wf).start (ix1 e) idx 0
          + ((flatScatterDims N M wf).window (ix1 e) 0 : Int) < (N : Int)
      rw [hs0, hw0]; simpa using hv
    have hrow : scatterRowOf? N (idx (ix2 e (0 : Fin 1))) = none := by
      unfold scatterRowOf?; rw [dif_neg hv]
    rw [hrow]; rfl

/-- Update `e` of an entry scatter lands at `n` exactly when `e`'s row is `n`. -/
theorem resultIdx?_flatDims_eq_some_iff {N M w : Nat}
    (wf : ScatterDims.WF ⟨1, ![N]⟩ ⟨2, ![M, 1]⟩ ⟨1, ![M]⟩ [] [0] [0] 1)
    (idx : IVec ⟨2, ![M, 1]⟩ w) (e : Fin M) (n : Fin N) :
    (flatScatterDims N M wf).resultIdx? (ix1 e) idx = some (ix1 n)
      ↔ scatterRowOf? N (idx (ix2 e (0 : Fin 1))) = some n := by
  rw [resultIdx?_flatDims]
  cases hr : scatterRowOf? N (idx (ix2 e (0 : Fin 1))) with
  | none => simp
  | some r =>
    rw [Option.map_some]
    constructor
    · intro h
      have e0 : r = n := congrFun (Option.some.inj h) 0
      rw [e0]
    · intro h
      rw [Option.some.inj h]

/-- The extended-real scatter-add of update entries, for the literal record, read at `n`. -/
theorem hostScatterAdd_flatDims_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (flatScatterDims N M wf) x idx upd (ix1 n)
      = x (ix1 n) + ∑ e ∈ Finset.univ.filter
          (fun e : Fin M => scatterRowOf? N (idx (ix2 e (0 : Fin 1))) = some n), upd (ix1 e) := by
  unfold Ideal.hostScatterAdd
  congr 1
  rw [Finset.sum_filter, sum_idx1, Finset.sum_filter]
  refine Finset.sum_congr rfl (fun e _ => ?_)
  by_cases hr : scatterRowOf? N (idx (ix2 e (0 : Fin 1))) = some n
  · rw [if_pos hr, if_pos ((resultIdx?_flatDims_eq_some_iff wf idx e n).mpr hr)]
  · rw [if_neg hr, if_neg (fun h => hr ((resultIdx?_flatDims_eq_some_iff wf idx e n).mp h))]

/-- **A scatter-add of update entries into a vector, on the extended reals, read at `n`**: with
no update window axis, inserted window axis `0`, scatter axis to operand axis `[0]` and index
vector axis `1`, entry `n` of the result is the operand's entry `n` plus the sum of the updates'
entries `e` over the `e` whose index `idx[e, 0]`, read signed, is `n`. -/
theorem scatterAdd_flat_apply {N M w : Nat} {φ : FTy}
    (d : ScatterDims ⟨1, ![N]⟩ ⟨2, ![M, 1]⟩ ⟨1, ![M]⟩)
    (huw : d.updateWindowDims = []) (hiw : d.insertedWindowDims = [0])
    (hsd : d.scatterDimsToOperandDims = [0]) (hiv : d.indexVectorDim = 1)
    (x : FVec Ideal ⟨1, ![N]⟩ φ) (idx : IVec ⟨2, ![M, 1]⟩ w) (upd : FVec Ideal ⟨1, ![M]⟩ φ)
    (n : Fin N) :
    Host.scatterAdd (F := Ideal) d x idx upd (ix1 n)
      = x (ix1 n) + ∑ e ∈ Finset.univ.filter
          (fun e : Fin M => scatterRowOf? N (idx (ix2 e (0 : Fin 1))) = some n), upd (ix1 e) := by
  obtain ⟨uw, iw, sd, iv, wf⟩ := d
  dsimp only at huw hiw hsd hiv
  subst huw hiw hsd hiv
  exact hostScatterAdd_flatDims_apply wf x idx upd n

end Scatter

end LibGatherScatterRead

end
-- ==== Proof.Lane.lean ====
/-
  One query point of the masked bilinear interpolation, as functions of scalars.

  A query point (xq, yq) has the base corner (⌊xq⌋, ⌊yq⌋).  It is valid when the base corner and the corner
  diagonally opposite lie inside the 4096 × 4096 image: 0 ≤ ⌊xq⌋, ⌊xq⌋ + 1 ≤ 4095, 0 ≤ ⌊yq⌋, ⌊yq⌋ + 1 ≤ 4095.
  The image is read as a flat vector of 4096·4096 entries, entry y·4096 + x for pixel (x, y).  The functions below
  are stated for any float instance, with the operations in the order the programs apply them, so that a program's
  value at one index is one of them by unfolding alone.
-/
import Idealize.ShloMosaic.PureOps.Ideal
import Idealize.ShloMosaic.Lib.ValueIdx
import proofs.«108337_j6347961663932_1_alg».proof.Proof.LibGatherScatterRead

noncomputable section

namespace Bilinear

open Idealize.ShloMosaic Idealize.ShloMosaic.ValueIdx LibGatherScatterRead

variable {F : FTy → Type} [FloatOps F]

/-- The number of image entries. -/
abbrev NN : Nat := 16777216

theorem NN_pos : 0 < NN := by decide

/-- The validity bit of a query point: the four comparisons joined in the order
    ((x₀ ≥ 0 ∧ x₀ + 1 ≤ 4095) ∧ y₀ ≥ 0) ∧ y₀ + 1 ≤ 4095. -/
def valid (xq yq : F .f32) : BitVec 1 :=
  IntOp.andi (IntOp.andi (IntOp.andi
      (FloatOps.cmpf .oge (FloatOps.floor xq) (FloatOps.ofBits .f32 0x00000000#32))
      (FloatOps.cmpf .ole (FloatOps.addf (FloatOps.floor xq) (FloatOps.ofBits .f32 0x3F800000#32)) (FloatOps.ofBits .f32 0x457FF000#32)))
      (FloatOps.cmpf .oge (FloatOps.floor yq) (FloatOps.ofBits .f32 0x00000000#32)))
      (FloatOps.cmpf .ole (FloatOps.addf (FloatOps.floor yq) (FloatOps.ofBits .f32 0x3F800000#32)) (FloatOps.ofBits .f32 0x457FF000#32))

/-- The flat index of the base corner, each coordinate clamped into [0, 4094] before it is converted:
    y·4096 + x in 32-bit arithmetic. -/
def cornerIdx (xq yq : F .f32) : BitVec 32 :=
  IntOp.addi
    (IntOp.muli (FloatOps.fptosi 32 (FloatOps.minimumf (FloatOps.ofBits .f32 0x457FE000#32)
      (FloatOps.maximumf (FloatOps.ofBits .f32 0x00000000#32) (FloatOps.floor yq)))) 4096#32)
    (FloatOps.fptosi 32 (FloatOps.minimumf (FloatOps.ofBits .f32 0x457FE000#32)
      (FloatOps.maximumf (FloatOps.ofBits .f32 0x00000000#32) (FloatOps.floor xq))))

/-- The fractional part q − ⌊q⌋. -/
def frac (q : F .f32) : F .f32 := FloatOps.subf q (FloatOps.floor q)

/-- The validity bit as a float, 0 or 1. -/
def validF (xq yq : F .f32) : F .f32 := FloatOps.sitofp .f32 ((valid xq yq).setWidth 32)

/-- The blend of four corner values with the weights (1 − fx)(1 − fy), fx(1 − fy), (1 − fx)fy, fx·fy, summed left
    to right, kept where the mask value exceeds one half and replaced by zero elsewhere. -/
def blend (fx fy v00 v10 v01 v11 vm : F .f32) : F .f32 :=
  Scalar.select (FloatOps.cmpf .ogt vm (FloatOps.ofBits .f32 0x3F000000#32))
    (FloatOps.addf (FloatOps.addf (FloatOps.addf
      (FloatOps.mulf (FloatOps.mulf (FloatOps.subf (FloatOps.ofBits .f32 0x3F800000#32) fx) (FloatOps.subf (FloatOps.ofBits .f32 0x3F800000#32) fy)) v00)
      (FloatOps.mulf (FloatOps.mulf fx (FloatOps.subf (FloatOps.ofBits .f32 0x3F800000#32) fy)) v10))
      (FloatOps.mulf (FloatOps.mulf (FloatOps.subf (FloatOps.ofBits .f32 0x3F800000#32) fx) fy) v01))
      (FloatOps.mulf (FloatOps.mulf fx fy) v11))
    (FloatOps.ofBits .f32 0x00000000#32)

/-- An index word with a negative value moved up by the number of entries (the wrap of negative indices). -/
def wrap (v : BitVec 32) : BitVec 32 :=
  Scalar.select (IntOp.cmpi .slt v 0#32) (IntOp.addi v 16777216#32) v

/-- Whether a wrapped index word lies in [0, 16777215]. -/
def inRange (v : BitVec 32) : BitVec 1 :=
  IntOp.andi (IntOp.cmpi .sge v 0#32) (IntOp.cmpi .sle v 16777215#32)

/-- The entry of the flat image a clamping gather reads for an index word. -/
def entryAt (flat : (⟨1, ![NN]⟩ : Shape).Idx → F .f32) (v : BitVec 32) : F .f32 :=
  flat (ix1 (gatherRowOf NN NN_pos v))

/-- A take with a fill: the entry at the wrapped index when that is in range, the fill value otherwise. -/
def takeAt (flat : (⟨1, ![NN]⟩ : Shape).Idx → F .f32) (v : BitVec 32) : F .f32 :=
  Scalar.select (IntOp.andi (inRange (wrap v)) 1#1) (entryAt flat (wrap v)) (FloatOps.ofBits .f32 0x7FC00000#32)

/-! ## The two programs' values at one query point -/

/-- The first program's value at a query point: the blend of the four takes at the base index i, i + 1, i + 4096 and
    (i + 4096) + 1, masked by the validity bit carried as a float. -/
def kernelLane (flat : (⟨1, ![NN]⟩ : Shape).Idx → F .f32) (xq yq : F .f32) : F .f32 :=
  blend (frac xq) (frac yq)
    (takeAt flat (cornerIdx xq yq))
    (takeAt flat (IntOp.addi (cornerIdx xq yq) 1#32))
    (takeAt flat (IntOp.addi (cornerIdx xq yq) 4096#32))
    (takeAt flat (IntOp.addi (IntOp.addi (cornerIdx xq yq) 4096#32) 1#32))
    (validF xq yq)

/-- The first program's mask at a query point: the float mask compared against one half. -/
def kernelMask (xq yq : F .f32) : BitVec 1 :=
  FloatOps.cmpf .ogt (validF xq yq) (FloatOps.ofBits .f32 0x3F000000#32)

/-- The second program's validity bit (its floor is the host's). -/
def validH (xq yq : F .f32) : BitVec 1 :=
  IntOp.andi (IntOp.andi (IntOp.andi
      (FloatOps.cmpf .oge (FloatOps.hostUnary .floor xq) (FloatOps.ofBits .f32 0x00000000#32))
      (FloatOps.cmpf .ole (FloatOps.addf (FloatOps.hostUnary .floor xq) (FloatOps.ofBits .f32 0x3F800000#32)) (FloatOps.ofBits .f32 0x457FF000#32)))
      (FloatOps.cmpf .oge (FloatOps.hostUnary .floor yq) (FloatOps.ofBits .f32 0x00000000#32)))
      (FloatOps.cmpf .ole (FloatOps.addf (FloatOps.hostUnary .floor yq) (FloatOps.ofBits .f32 0x3F800000#32)) (FloatOps.ofBits .f32 0x457FF000#32))

/-- The second program's clamp of a corner coordinate into [0, 4095], the bounds converted from integers. -/
def clipH (v : F .f32) : F .f32 :=
  FloatOps.minimumf (FloatOps.sitofp .f32 4095#32) (FloatOps.maximumf (FloatOps.sitofp .f32 0#32) v)

/-- The second program's flat index of the corner (xv, yv): y·4096 + x in 32-bit arithmetic. -/
def refIdx (yv xv : F .f32) : BitVec 32 :=
  IntOp.addi (IntOp.muli (FloatOps.fptosi 32 (clipH yv)) 4096#32) (FloatOps.fptosi 32 (clipH xv))

/-- The second program's weighted sum with the corners x0, x1 = x0 + 1, y0, y1 = y0 + 1 given. -/
def refSum (flat : (⟨1, ![NN]⟩ : Shape).Idx → F .f32) (xq yq x0 x1 y0 y1 : F .f32) : F .f32 :=
  FloatOps.addf (FloatOps.addf (FloatOps.addf
    (FloatOps.mulf (FloatOps.mulf (FloatOps.subf x1 xq) (FloatOps.subf y1 yq)) (entryAt flat (wrap (refIdx y0 x0))))
    (FloatOps.mulf (FloatOps.mulf (FloatOps.subf xq x0) (FloatOps.subf y1 yq)) (entryAt flat (wrap (refIdx y0 x1)))))
    (FloatOps.mulf (FloatOps.mulf (FloatOps.subf x1 xq) (FloatOps.subf yq y0)) (entryAt flat (wrap (refIdx y1 x0)))))
    (FloatOps.mulf (FloatOps.mulf (FloatOps.subf xq x0) (FloatOps.subf yq y0)) (entryAt flat (wrap (refIdx y1 x1))))

/-- The second program's value at a query point. -/
def refLane (flat : (⟨1, ![NN]⟩ : Shape).Idx → F .f32) (xq yq : F .f32) : F .f32 :=
  Scalar.select (validH xq yq)
    (refSum flat xq yq (FloatOps.hostUnary .floor xq)
      (FloatOps.addf (FloatOps.hostUnary .floor xq) (FloatOps.ofBits .f32 0x3F800000#32))
      (FloatOps.hostUnary .floor yq)
      (FloatOps.addf (FloatOps.hostUnary .floor yq) (FloatOps.ofBits .f32 0x3F800000#32)))
    (FloatOps.ofBits .f32 0x00000000#32)

end Bilinear

end
-- ==== Proof.Region0.lean ====
/-
  What the first kernel leaves in its four output arrays.

  The first kernel walks the 16777216 query points in 64 blocks of 262144.  At block t it reads columns
  t·262144 … t·262144 + 262143 of the 2 × 16777216 coordinate array (row 0 the x coordinates, row 1 the y
  coordinates) and writes the same range of four vectors: the clamped flat index of the base corner, the two
  fractional parts, and the validity bit as a float.  Every block is a restriction of one function of the whole
  coordinate array, and the 64 blocks tile each vector, so each vector ends holding that function.
-/
import proofs.«108337_j6347961663932_1_alg».proof.Proof.Gen.KernelIdeal.Frame
import proofs.«108337_j6347961663932_1_alg».proof.Proof.Lane
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem zero_off1 : (![0] : Fin 1 → Nat) = fun _ => 0 := funext fun a => by fin_cases a; rfl

/-- The printed index maps over the 64 grid points: the coordinate block is block (0, t), each output block t. -/
theorem idx_facts0 : ∀ t : Fin cfg0.N, win0_0.index t (0 : Fin 2) = 0 ∧ win0_0.index t (1 : Fin 2) = t.val
    ∧ win0_1.index t (0 : Fin 1) = t.val ∧ win0_2.index t (0 : Fin 1) = t.val
    ∧ win0_3.index t (0 : Fin 1) = t.val ∧ win0_4.index t (0 : Fin 1) = t.val :=
  (by decide +kernel : ∀ t : Fin grid0.N, _)

/-- Row 0 of a 2 × 262144 block, loaded as a 1 × 262144 vector and reshaped to a vector, at lane j. -/
theorem row0_at (x : Vec F S2x262144 .f32) (j : S262144.Idx) :
    k0_pay2 (View.ld x r0_0) j = x (ix2 0 (j 0)) := by
  unfold k0_pay2
  refine (shapeCast_apply (View.ld x r0_0) shapeCasts_S1x262144_S262144 j (ix2 0 (j 0)) ?_).trans ?_
  · rewrite [Shape.rowMajor_val_two, Shape.rowMajor_val_one]
    show 0 * 262144 + (j 0).val = (j 0).val
    omega
  · show x (r0_0.idx (ix2 0 (j 0))) = x (ix2 0 (j 0))
    congr 1
    funext a
    apply Fin.ext
    match a with
    | ⟨0, _⟩ => show 0 + 1 * 0 = 0; rfl
    | ⟨1, _⟩ => show 0 + 1 * (j 0).val = (j 0).val; omega

/-- Row 1 of the block likewise. -/
theorem row1_at (x : Vec F S2x262144 .f32) (j : S262144.Idx) :
    k0_pay3 (View.ld x r0_1) j = x (ix2 1 (j 0)) := by
  unfold k0_pay3
  refine (shapeCast_apply (View.ld x r0_1) shapeCasts_S1x262144_S262144 j (ix2 0 (j 0)) ?_).trans ?_
  · rewrite [Shape.rowMajor_val_two, Shape.rowMajor_val_one]
    show 0 * 262144 + (j 0).val = (j 0).val
    omega
  · show x (r0_1.idx (ix2 0 (j 0))) = x (ix2 1 (j 0))
    congr 1
    funext a
    apply Fin.ext
    match a with
    | ⟨0, _⟩ => show 1 + 1 * 0 = 1; rfl
    | ⟨1, _⟩ => show 0 + 1 * (j 0).val = (j 0).val; omega

/-- The coordinate block at point t is columns t·262144 … of the coordinate array. -/
theorem coordBlock_at (c : Dev nD) (t : Fin cfg0.N) (y : S2x262144.Idx) (k : S2x16777216.Idx)
    (h0 : (k 0).val = (y 0).val) (h1 : (k 1).val = t.val * 262144 + (y 1).val) :
    (iblk0 V c 0 t : Vec F S2x262144 .f32) y = (V c main_arg1 : S2x16777216.Idx → Elt F .f32) k := by
  obtain ⟨e0, e1, -⟩ := idx_facts0 t
  unfold iblk0
  rw [View.read_apply]
  show (V c main_arg1 : S2x16777216.Idx → Elt F .f32) (((cfg0.win 0).blk t).view.emb y) = _
  congr 1
  funext a
  apply Fin.ext
  match a with
  | ⟨0, _⟩ => show win0_0.index t 0 * 2 + 1 * (y 0).val = (k 0).val; rw [e0, h0]; omega
  | ⟨1, _⟩ => show win0_0.index t 1 * 262144 + 1 * (y 1).val = (k 1).val; rw [e1, h1]; omega

/-! ## The four whole-array functions of the coordinate array -/

/-- The clamped flat index of every query point's base corner. -/
def idxArr (A : S2x16777216.Idx → Elt F .f32) : S16777216.Idx → Elt F .i32 :=
  fun n => Bilinear.cornerIdx (A (ix2 0 (n 0))) (A (ix2 1 (n 0)))
/-- The fractional part of every x coordinate. -/
def fxArr (A : S2x16777216.Idx → Elt F .f32) : S16777216.Idx → Elt F .f32 :=
  fun n => Bilinear.frac (A (ix2 0 (n 0)))
/-- The fractional part of every y coordinate. -/
def fyArr (A : S2x16777216.Idx → Elt F .f32) : S16777216.Idx → Elt F .f32 :=
  fun n => Bilinear.frac (A (ix2 1 (n 0)))
/-- The validity bit of every query point, as a float. -/
def maskArr (A : S2x16777216.Idx → Elt F .f32) : S16777216.Idx → Elt F .f32 :=
  fun n => Bilinear.validF (A (ix2 0 (n 0))) (A (ix2 1 (n 0)))

/-! ## The body's four stored vectors at a lane -/

theorem idxPay_at (x : Vec F S2x262144 .f32) (j : S262144.Idx) :
    k0_pay7 (View.ld x r0_0) (View.ld x r0_1) j = Bilinear.cornerIdx (x (ix2 0 (j 0))) (x (ix2 1 (j 0))) := by
  rw [← row0_at x j, ← row1_at x j]; rfl

theorem fxPay_at (x : Vec F S2x262144 .f32) (j : S262144.Idx) :
    k0_pay8 (View.ld x r0_0) j = Bilinear.frac (x (ix2 0 (j 0))) := by
  rw [← row0_at x j]; rfl

theorem fyPay_at (x : Vec F S2x262144 .f32) (j : S262144.Idx) :
    k0_pay9 (View.ld x r0_1) j = Bilinear.frac (x (ix2 1 (j 0))) := by
  rw [← row1_at x j]; rfl

theorem maskPay_at (x : Vec F S2x262144 .f32) (j : S262144.Idx) :
    k0_pay1 (F := F) (k0_pay6 (View.ld x r0_0) (View.ld x r0_1)) j = Bilinear.validF (x (ix2 0 (j 0))) (x (ix2 1 (j 0))) := by
  rw [← row0_at x j, ← row1_at x j]; rfl

/-! ## An output block's place in its vector -/

/-- Lane j of output block t is entry t·262144 + j of the vector, for each of the four output windows. -/
theorem outBlock_at (t : Fin cfg0.N) (j : S262144.Idx) :
    ((((cfg0.win 1).blk t).view.emb j) 0).val = t.val * 262144 + (j 0).val
    ∧ ((((cfg0.win 2).blk t).view.emb j) 0).val = t.val * 262144 + (j 0).val
    ∧ ((((cfg0.win 3).blk t).view.emb j) 0).val = t.val * 262144 + (j 0).val
    ∧ ((((cfg0.win 4).blk t).view.emb j) 0).val = t.val * 262144 + (j 0).val := by
  obtain ⟨-, -, e1, e2, e3, e4⟩ := idx_facts0 t
  refine ⟨?_, ?_, ?_, ?_⟩
  · show win0_1.index t 0 * 262144 + 1 * (j 0).val = _; rw [e1]; omega
  · show win0_2.index t 0 * 262144 + 1 * (j 0).val = _; rw [e2]; omega
  · show win0_3.index t 0 * 262144 + 1 * (j 0).val = _; rw [e3]; omega
  · show win0_4.index t 0 * 262144 + 1 * (j 0).val = _; rw [e4]; omega

/-- What point t writes back of the index vector is block t of `idxArr` of the coordinate array. -/
theorem flushed0_1 (c : Dev nD) (t : Fin cfg0.N) :
    (dat0 V c).flushed 1 t = ((cfg0.win 1).blk t).view.read (Elt F) (idxArr (V c main_arg1)) := by
  show (cfg0.win 1).cut (grid0.coords t) ((dat0 V c).after 1 t) = _
  rw [after0_1]
  unfold out0_1
  rw [View.canon_unit_zero zero_off1]
  funext j
  show k0_pay7 (View.ld (iblk0 V c 0 t) r0_0) (View.ld (iblk0 V c 0 t) r0_1) j
    = idxArr (V c main_arg1) (((cfg0.win 1).blk t).view.emb j)
  refine (idxPay_at (iblk0 V c 0 t) j).trans ?_
  unfold idxArr
  have hb := (outBlock_at t j).1
  exact congrArg₂ Bilinear.cornerIdx
    (coordBlock_at V c t (ix2 0 (j 0)) (ix2 0 ((((cfg0.win 1).blk t).view.emb j) 0)) rfl hb)
    (coordBlock_at V c t (ix2 1 (j 0)) (ix2 1 ((((cfg0.win 1).blk t).view.emb j) 0)) rfl hb)

/-- What point t writes back of the x fractions is block t of `fxArr`. -/
theorem flushed0_2 (c : Dev nD) (t : Fin cfg0.N) :
    (dat0 V c).flushed 2 t = ((cfg0.win 2).blk t).view.read (Elt F) (fxArr (V c main_arg1)) := by
  show (cfg0.win 2).cut (grid0.coords t) ((dat0 V c).after 2 t) = _
  rw [after0_2]
  unfold out0_2
  rw [View.canon_unit_zero zero_off1]
  funext j
  show k0_pay8 (View.ld (iblk0 V c 0 t) r0_0) j = fxArr (V c main_arg1) (((cfg0.win 2).blk t).view.emb j)
  refine (fxPay_at (iblk0 V c 0 t) j).trans ?_
  unfold fxArr
  have hb := (outBlock_at t j).2.1
  exact congrArg Bilinear.frac
    (coordBlock_at V c t (ix2 0 (j 0)) (ix2 0 ((((cfg0.win 2).blk t).view.emb j) 0)) rfl hb)

/-- What point t writes back of the y fractions is block t of `fyArr`. -/
theorem flushed0_3 (c : Dev nD) (t : Fin cfg0.N) :
    (dat0 V c).flushed 3 t = ((cfg0.win 3).blk t).view.read (Elt F) (fyArr (V c main_arg1)) := by
  show (cfg0.win 3).cut (grid0.coords t) ((dat0 V c).after 3 t) = _
  rw [after0_3]
  unfold out0_3
  rw [View.canon_unit_zero zero_off1]
  funext j
  show k0_pay9 (View.ld (iblk0 V c 0 t) r0_1) j = fyArr (V c main_arg1) (((cfg0.win 3).blk t).view.emb j)
  refine (fyPay_at (iblk0 V c 0 t) j).trans ?_
  unfold fyArr
  have hb := (outBlock_at t j).2.2.1
  exact congrArg Bilinear.frac
    (coordBlock_at V c t (ix2 1 (j 0)) (ix2 1 ((((cfg0.win 3).blk t).view.emb j) 0)) rfl hb)

/-- What point t writes back of the mask is block t of `maskArr`. -/
theorem flushed0_4 (c : Dev nD) (t : Fin cfg0.N) :
    (dat0 V c).flushed 4 t = ((cfg0.win 4).blk t).view.read (Elt F) (maskArr (V c main_arg1)) := by
  show (cfg0.win 4).cut (grid0.coords t) ((dat0 V c).after 4 t) = _
  rw [after0_4]
  unfold out0_4
  rw [View.canon_unit_zero zero_off1]
  funext j
  show k0_pay1 (F := F) (k0_pay6 (View.ld (iblk0 V c 0 t) r0_0) (View.ld (iblk0 V c 0 t) r0_1)) j
    = maskArr (V c main_arg1) (((cfg0.win 4).blk t).view.emb j)
  refine (maskPay_at (iblk0 V c 0 t) j).trans ?_
  unfold maskArr
  have hb := (outBlock_at t j).2.2.2
  exact congrArg₂ Bilinear.validF
    (coordBlock_at V c t (ix2 0 (j 0)) (ix2 0 ((((cfg0.win 4).blk t).view.emb j) 0)) rfl hb)
    (coordBlock_at V c t (ix2 1 (j 0)) (ix2 1 ((((cfg0.win 4).blk t).view.emb j) 0)) rfl hb)

/-! ## The 64 blocks tile each vector -/

/-- An entry of the vector lies in block t exactly when it is in [t·262144, t·262144 + 262144). -/
theorem mem_outBlock (t : Fin cfg0.N) (i : S16777216.Idx) :
    (i ∈ ((cfg0.win 1).blk t).view.set ↔ t.val * 262144 ≤ (i 0).val ∧ (i 0).val < t.val * 262144 + 262144)
    ∧ (i ∈ ((cfg0.win 2).blk t).view.set ↔ t.val * 262144 ≤ (i 0).val ∧ (i 0).val < t.val * 262144 + 262144)
    ∧ (i ∈ ((cfg0.win 3).blk t).view.set ↔ t.val * 262144 ≤ (i 0).val ∧ (i 0).val < t.val * 262144 + 262144)
    ∧ (i ∈ ((cfg0.win 4).blk t).view.set ↔ t.val * 262144 ≤ (i 0).val ∧ (i 0).val < t.val * 262144 + 262144) := by
  obtain ⟨-, -, e1, e2, e3, e4⟩ := idx_facts0 t
  refine ⟨?_, ?_, ?_, ?_⟩
  · show i ∈ ((View.whole main_v0_0).slice (win0_1.rect t)).set ↔ _
    rw [View.set_slice_whole, Rect.mem_set_unit]
    constructor
    · intro h; have h0 := h 0
      have h0' : win0_1.index t 0 * 262144 ≤ (i 0).val ∧ (i 0).val < win0_1.index t 0 * 262144 + 262144 := h0
      rw [e1] at h0'; exact h0'
    · intro h a
      match a with
      | ⟨0, _⟩ => show win0_1.index t 0 * 262144 ≤ (i 0).val ∧ (i 0).val < win0_1.index t 0 * 262144 + 262144; rw [e1]; exact h
  · show i ∈ ((View.whole main_v0_1).slice (win0_2.rect t)).set ↔ _
    rw [View.set_slice_whole, Rect.mem_set_unit]
    constructor
    · intro h; have h0 := h 0
      have h0' : win0_2.index t 0 * 262144 ≤ (i 0).val ∧ (i 0).val < win0_2.index t 0 * 262144 + 262144 := h0
      rw [e2] at h0'; exact h0'
    · intro h a
      match a with
      | ⟨0, _⟩ => show win0_2.index t 0 * 262144 ≤ (i 0).val ∧ (i 0).val < win0_2.index t 0 * 262144 + 262144; rw [e2]; exact h
  · show i ∈ ((View.whole main_v0_2).slice (win0_3.rect t)).set ↔ _
    rw [View.set_slice_whole, Rect.mem_set_unit]
    constructor
    · intro h; have h0 := h 0
      have h0' : win0_3.index t 0 * 262144 ≤ (i 0).val ∧ (i 0).val < win0_3.index t 0 * 262144 + 262144 := h0
      rw [e3] at h0'; exact h0'
    · intro h a
      match a with
      | ⟨0, _⟩ => show win0_3.index t 0 * 262144 ≤ (i 0).val ∧ (i 0).val < win0_3.index t 0 * 262144 + 262144; rw [e3]; exact h
  · show i ∈ ((View.whole main_v0_3).slice (win0_4.rect t)).set ↔ _
    rw [View.set_slice_whole, Rect.mem_set_unit]
    constructor
    · intro h; have h0 := h 0
      have h0' : win0_4.index t 0 * 262144 ≤ (i 0).val ∧ (i 0).val < win0_4.index t 0 * 262144 + 262144 := h0
      rw [e4] at h0'; exact h0'
    · intro h a
      match a with
      | ⟨0, _⟩ => show win0_4.index t 0 * 262144 ≤ (i 0).val ∧ (i 0).val < win0_4.index t 0 * 262144 + 262144; rw [e4]; exact h

/-- The point whose block holds entry i: i / 262144. -/
def pointOf0 (i : S16777216.Idx) : Fin cfg0.N :=
  ⟨(i 0).val / 262144, by have h : (i 0).val < 16777216 := (i 0).isLt; show (i 0).val / 262144 < 64; omega⟩

theorem pointOf0_bounds (i : S16777216.Idx) :
    (pointOf0 i).val * 262144 ≤ (i 0).val ∧ (i 0).val < (pointOf0 i).val * 262144 + 262144 := by
  show (i 0).val / 262144 * 262144 ≤ (i 0).val ∧ (i 0).val < (i 0).val / 262144 * 262144 + 262144
  omega

/-! ## The four arrays after the region -/

theorem idx_final (c : Dev nD) : (dat0 V c).arrAt 1 cfg0.N = idxArr (V c main_arg1) :=
  (dat0 V c).arrAt_eq_of_cover 1 (idxArr (V c main_arg1)) (fun t _ => flushed0_1 V c t) fun i =>
    ⟨pointOf0 i, flush0_1 _, ((mem_outBlock (pointOf0 i) i).1).mpr (pointOf0_bounds i)⟩

theorem fx_final (c : Dev nD) : (dat0 V c).arrAt 2 cfg0.N = fxArr (V c main_arg1) :=
  (dat0 V c).arrAt_eq_of_cover 2 (fxArr (V c main_arg1)) (fun t _ => flushed0_2 V c t) fun i =>
    ⟨pointOf0 i, flush0_2 _, ((mem_outBlock (pointOf0 i) i).2.1).mpr (pointOf0_bounds i)⟩

theorem fy_final (c : Dev nD) : (dat0 V c).arrAt 3 cfg0.N = fyArr (V c main_arg1) :=
  (dat0 V c).arrAt_eq_of_cover 3 (fyArr (V c main_arg1)) (fun t _ => flushed0_3 V c t) fun i =>
    ⟨pointOf0 i, flush0_3 _, ((mem_outBlock (pointOf0 i) i).2.2.1).mpr (pointOf0_bounds i)⟩

theorem mask_final (c : Dev nD) : (dat0 V c).arrAt 4 cfg0.N = maskArr (V c main_arg1) :=
  (dat0 V c).arrAt_eq_of_cover 4 (maskArr (V c main_arg1)) (fun t _ => flushed0_4 V c t) fun i =>
    ⟨pointOf0 i, flush0_4 _, ((mem_outBlock (pointOf0 i) i).2.2.2).mpr (pointOf0_bounds i)⟩

end Cert.KernelIdeal.Hand

end
-- ==== Proof.Region1.lean ====
/-
  What the second kernel leaves in its two output arrays.

  The second kernel walks the 16777216 query points in 64 blocks of 262144.  At block t it reads the same range of
  seven vectors — the four gathered corner values, the two fractional parts and the mask — and writes the same
  range of two vectors: the masked blend, and the mask copied through.  Each block is a restriction of one function
  of the seven whole vectors, lane by lane, and the 64 blocks tile each output.
-/
import proofs.«108337_j6347961663932_1_alg».proof.Proof.Gen.KernelIdeal.Frame
import proofs.«108337_j6347961663932_1_alg».proof.Proof.Lane
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem zero_off1' : (![0] : Fin 1 → Nat) = fun _ => 0 := funext fun a => by fin_cases a; rfl

/-- The printed index maps over the 64 grid points: every window is at block t. -/
theorem idx_facts1 : ∀ t : Fin cfg1.N, win1_0.index t (0 : Fin 1) = t.val ∧ win1_1.index t (0 : Fin 1) = t.val
    ∧ win1_2.index t (0 : Fin 1) = t.val ∧ win1_3.index t (0 : Fin 1) = t.val ∧ win1_4.index t (0 : Fin 1) = t.val
    ∧ win1_5.index t (0 : Fin 1) = t.val ∧ win1_6.index t (0 : Fin 1) = t.val ∧ win1_7.index t (0 : Fin 1) = t.val
    ∧ win1_8.index t (0 : Fin 1) = t.val :=
  (by decide +kernel : ∀ t : Fin grid1.N, _)

/-- The blend of the seven vectors, lane by lane. -/
def blendArr (a0 a1 a2 a3 a4 a5 a6 : S16777216.Idx → Elt F .f32) : S16777216.Idx → Elt F .f32 :=
  fun n => Bilinear.blend (a4 n) (a5 n) (a0 n) (a1 n) (a2 n) (a3 n) (a6 n)

/-- The body's blended vector at a lane. -/
theorem blendPay_at (x0 x1 x2 x3 x4 x5 x6 : Vec F S262144 .f32) (j : S262144.Idx) :
    k1_pay2 x4 x5 x0 x1 x2 x3 x6 j = Bilinear.blend (x4 j) (x5 j) (x0 j) (x1 j) (x2 j) (x3 j) (x6 j) := by
  unfold k1_pay2 k1_pay1
  simp only [shapeCast_self]
  rfl

/-- The body's copied mask is the mask. -/
theorem copyPay (x6 : Vec F S262144 .f32) : k1_pay1 x6 = x6 := by
  unfold k1_pay1
  exact shapeCast_self _ _

/-- Lane j of output block t is entry t·262144 + j of the vector, for both output windows. -/
theorem outBlock1_at (t : Fin cfg1.N) (j : S262144.Idx) :
    ((((cfg1.win 7).blk t).view.emb j) 0).val = t.val * 262144 + (j 0).val
    ∧ ((((cfg1.win 8).blk t).view.emb j) 0).val = t.val * 262144 + (j 0).val := by
  obtain ⟨e0, e1, e2, e3, e4, e5, e6, e7, e8⟩ := idx_facts1 t
  refine ⟨?_, ?_⟩
  · show win1_7.index t 0 * 262144 + 1 * (j 0).val = _; rw [e7]; omega
  · show win1_8.index t 0 * 262144 + 1 * (j 0).val = _; rw [e8]; omega

/-- Input window 0's block at point t is the range t·262144 … of its vector. -/
theorem inBlock0_at (c : Dev nD) (t : Fin cfg1.N) (y : S262144.Idx) (k : S16777216.Idx)
    (h : (k 0).val = t.val * 262144 + (y 0).val) :
    (iblk1 V c 0 t : Vec F S262144 .f32) y = (V c main_v10 : S16777216.Idx → Elt F .f32) k := by
  obtain ⟨e0, e1, e2, e3, e4, e5, e6, e7, e8⟩ := idx_facts1 t
  unfold iblk1
  rw [View.read_apply]
  show (V c main_v10 : S16777216.Idx → Elt F .f32) (((cfg1.win 0).blk t).view.emb y) = _
  congr 1
  funext a
  apply Fin.ext
  match a with
  | ⟨0, _⟩ => show win1_0.index t 0 * 262144 + 1 * (y 0).val = (k 0).val; rw [e0, h]; omega

/-- Input window 1's block at point t is the range t·262144 … of its vector. -/
theorem inBlock1_at (c : Dev nD) (t : Fin cfg1.N) (y : S262144.Idx) (k : S16777216.Idx)
    (h : (k 0).val = t.val * 262144 + (y 0).val) :
    (iblk1 V c 1 t : Vec F S262144 .f32) y = (V c main_v11 : S16777216.Idx → Elt F .f32) k := by
  obtain ⟨e0, e1, e2, e3, e4, e5, e6, e7, e8⟩ := idx_facts1 t
  unfold iblk1
  rw [View.read_apply]
  show (V c main_v11 : S16777216.Idx → Elt F .f32) (((cfg1.win 1).blk t).view.emb y) = _
  congr 1
  funext a
  apply Fin.ext
  match a with
  | ⟨0, _⟩ => show win1_1.index t 0 * 262144 + 1 * (y 0).val = (k 0).val; rw [e1, h]; omega

/-- Input window 2's block at point t is the range t·262144 … of its vector. -/
theorem inBlock2_at (c : Dev nD) (t : Fin cfg1.N) (y : S262144.Idx) (k : S16777216.Idx)
    (h : (k 0).val = t.val * 262144 + (y 0).val) :
    (iblk1 V c 2 t : Vec F S262144 .f32) y = (V c main_v12 : S16777216.Idx → Elt F .f32) k := by
  obtain ⟨e0, e1, e2, e3, e4, e5, e6, e7, e8⟩ := idx_facts1 t
  unfold iblk1
  rw [View.read_apply]
  show (V c main_v12 : S16777216.Idx → Elt F .f32) (((cfg1.win 2).blk t).view.emb y) = _
  congr 1
  funext a
  apply Fin.ext
  match a with
  | ⟨0, _⟩ => show win1_2.index t 0 * 262144 + 1 * (y 0).val = (k 0).val; rw [e2, h]; omega

/-- Input window 3's block at point t is the range t·262144 … of its vector. -/
theorem inBlock3_at (c : Dev nD) (t : Fin cfg1.N) (y : S262144.Idx) (k : S16777216.Idx)
    (h : (k 0).val = t.val * 262144 + (y 0).val) :
    (iblk1 V c 3 t : Vec F S262144 .f32) y = (V c main_v13 : S16777216.Idx → Elt F .f32) k := by
  obtain ⟨e0, e1, e2, e3, e4, e5, e6, e7, e8⟩ := idx_facts1 t
  unfold iblk1
  rw [View.read_apply]
  show (V c main_v13 : S16777216.Idx → Elt F .f32) (((cfg1.win 3).blk t).view.emb y) = _
  congr 1
  funext a
  apply Fin.ext
  match a with
  | ⟨0, _⟩ => show win1_3.index t 0 * 262144 + 1 * (y 0).val = (k 0).val; rw [e3, h]; omega

/-- Input window 4's block at point t is the range t·262144 … of its vector. -/
theorem inBlock4_at (c : Dev nD) (t : Fin cfg1.N) (y : S262144.Idx) (k : S16777216.Idx)
    (h : (k 0).val = t.val * 262144 + (y 0).val) :
    (iblk1 V c 4 t : Vec F S262144 .f32) y = (V c main_v0_1 : S16777216.Idx → Elt F .f32) k := by
  obtain ⟨e0, e1, e2, e3, e4, e5, e6, e7, e8⟩ := idx_facts1 t
  unfold iblk1
  rw [View.read_apply]
  show (V c main_v0_1 : S16777216.Idx → Elt F .f32) (((cfg1.win 4).blk t).view.emb y) = _
  congr 1
  funext a
  apply Fin.ext
  match a with
  | ⟨0, _⟩ => show win1_4.index t 0 * 262144 + 1 * (y 0).val = (k 0).val; rw [e4, h]; omega

/-- Input window 5's block at point t is the range t·262144 … of its vector. -/
theorem inBlock5_at (c : Dev nD) (t : Fin cfg1.N) (y : S262144.Idx) (k : S16777216.Idx)
    (h : (k 0).val = t.val * 262144 + (y 0).val) :
    (iblk1 V c 5 t : Vec F S262144 .f32) y = (V c main_v0_2 : S16777216.Idx → Elt F .f32) k := by
  obtain ⟨e0, e1, e2, e3, e4, e5, e6, e7, e8⟩ := idx_facts1 t
  unfold iblk1
  rw [View.read_apply]
  show (V c main_v0_2 : S16777216.Idx → Elt F .f32) (((cfg1.win 5).blk t).view.emb y) = _
  congr 1
  funext a
  apply Fin.ext
  match a with
  | ⟨0, _⟩ => show win1_5.index t 0 * 262144 + 1 * (y 0).val = (k 0).val; rw [e5, h]; omega

/-- Input window 6's block at point t is the range t·262144 … of its vector. -/
theorem inBlock6_at (c : Dev nD) (t : Fin cfg1.N) (y : S262144.Idx) (k : S16777216.Idx)
    (h : (k 0).val = t.val * 262144 + (y 0).val) :
    (iblk1 V c 6 t : Vec F S262144 .f32) y = (V c main_v0_3 : S16777216.Idx → Elt F .f32) k := by
  obtain ⟨e0, e1, e2, e3, e4, e5, e6, e7, e8⟩ := idx_facts1 t
  unfold iblk1
  rw [View.read_apply]
  show (V c main_v0_3 : S16777216.Idx → Elt F .f32) (((cfg1.win 6).blk t).view.emb y) = _
  congr 1
  funext a
  apply Fin.ext
  match a with
  | ⟨0, _⟩ => show win1_6.index t 0 * 262144 + 1 * (y 0).val = (k 0).val; rw [e6, h]; omega

/-- What point t writes back of the blended vector is block t of `blendArr` of the seven operand vectors. -/
theorem flushed1_7 (c : Dev nD) (t : Fin cfg1.N) :
    (dat1 V c).flushed 7 t = ((cfg1.win 7).blk t).view.read (Elt F)
      (blendArr (V c main_v10) (V c main_v11) (V c main_v12) (V c main_v13) (V c main_v0_1) (V c main_v0_2) (V c main_v0_3)) := by
  show (cfg1.win 7).cut (grid1.coords t) ((dat1 V c).after 7 t) = _
  rw [after1_7]
  unfold out1_7
  rw [View.canon_unit_zero zero_off1']
  simp only [View.ld_unit_zero (S := S262144) zero_off1']
  funext j
  show k1_pay2 (iblk1 V c 4 t) (iblk1 V c 5 t) (iblk1 V c 0 t) (iblk1 V c 1 t) (iblk1 V c 2 t) (iblk1 V c 3 t) (iblk1 V c 6 t) j
    = blendArr (V c main_v10) (V c main_v11) (V c main_v12) (V c main_v13) (V c main_v0_1) (V c main_v0_2) (V c main_v0_3)
        (((cfg1.win 7).blk t).view.emb j)
  refine (blendPay_at (iblk1 V c 0 t) (iblk1 V c 1 t) (iblk1 V c 2 t) (iblk1 V c 3 t) (iblk1 V c 4 t) (iblk1 V c 5 t) (iblk1 V c 6 t) j).trans ?_
  unfold blendArr
  have hb := (outBlock1_at t j).1
  have r0 := inBlock0_at V c t j (((cfg1.win 7).blk t).view.emb j) hb
  have r1 := inBlock1_at V c t j (((cfg1.win 7).blk t).view.emb j) hb
  have r2 := inBlock2_at V c t j (((cfg1.win 7).blk t).view.emb j) hb
  have r3 := inBlock3_at V c t j (((cfg1.win 7).blk t).view.emb j) hb
  have r4 := inBlock4_at V c t j (((cfg1.win 7).blk t).view.emb j) hb
  have r5 := inBlock5_at V c t j (((cfg1.win 7).blk t).view.emb j) hb
  have r6 := inBlock6_at V c t j (((cfg1.win 7).blk t).view.emb j) hb
  rw [r0, r1, r2, r3, r4, r5, r6]

/-- What point t writes back of the copied mask is block t of the mask vector. -/
theorem flushed1_8 (c : Dev nD) (t : Fin cfg1.N) :
    (dat1 V c).flushed 8 t = ((cfg1.win 8).blk t).view.read (Elt F) (V c main_v0_3 : S16777216.Idx → Elt F .f32) := by
  show (cfg1.win 8).cut (grid1.coords t) ((dat1 V c).after 8 t) = _
  rw [after1_8]
  unfold out1_8
  rw [View.canon_unit_zero zero_off1']
  simp only [View.ld_unit_zero (S := S262144) zero_off1']
  rw [copyPay]
  funext j
  show (iblk1 V c 6 t : Vec F S262144 .f32) j = (V c main_v0_3 : S16777216.Idx → Elt F .f32) (((cfg1.win 8).blk t).view.emb j)
  exact inBlock6_at V c t j (((cfg1.win 8).blk t).view.emb j) (outBlock1_at t j).2

/-! ## The 64 blocks tile each output vector -/

theorem mem_outBlock1 (t : Fin cfg1.N) (i : S16777216.Idx) :
    (i ∈ ((cfg1.win 7).blk t).view.set ↔ t.val * 262144 ≤ (i 0).val ∧ (i 0).val < t.val * 262144 + 262144)
    ∧ (i ∈ ((cfg1.win 8).blk t).view.set ↔ t.val * 262144 ≤ (i 0).val ∧ (i 0).val < t.val * 262144 + 262144) := by
  obtain ⟨e0, e1, e2, e3, e4, e5, e6, e7, e8⟩ := idx_facts1 t
  refine ⟨?_, ?_⟩
  · show i ∈ ((View.whole main_v14_0).slice (win1_7.rect t)).set ↔ _
    rw [View.set_slice_whole, Rect.mem_set_unit]
    constructor
    · intro h; have h0 := h 0
      have h0' : win1_7.index t 0 * 262144 ≤ (i 0).val ∧ (i 0).val < win1_7.index t 0 * 262144 + 262144 := h0
      rw [e7] at h0'; exact h0'
    · intro h a
      match a with
      | ⟨0, _⟩ => show win1_7.index t 0 * 262144 ≤ (i 0).val ∧ (i 0).val < win1_7.index t 0 * 262144 + 262144; rw [e7]; exact h
  · show i ∈ ((View.whole main_v14_1).slice (win1_8.rect t)).set ↔ _
    rw [View.set_slice_whole, Rect.mem_set_unit]
    constructor
    · intro h; have h0 := h 0
      have h0' : win1_8.index t 0 * 262144 ≤ (i 0).val ∧ (i 0).val < win1_8.index t 0 * 262144 + 262144 := h0
      rw [e8] at h0'; exact h0'
    · intro h a
      match a with
      | ⟨0, _⟩ => show win1_8.index t 0 * 262144 ≤ (i 0).val ∧ (i 0).val < win1_8.index t 0 * 262144 + 262144; rw [e8]; exact h

/-- The point whose block holds entry i: i / 262144. -/
def pointOf1 (i : S16777216.Idx) : Fin cfg1.N :=
  ⟨(i 0).val / 262144, by have h : (i 0).val < 16777216 := (i 0).isLt; show (i 0).val / 262144 < 64; omega⟩

theorem pointOf1_bounds (i : S16777216.Idx) :
    (pointOf1 i).val * 262144 ≤ (i 0).val ∧ (i 0).val < (pointOf1 i).val * 262144 + 262144 := by
  show (i 0).val / 262144 * 262144 ≤ (i 0).val ∧ (i 0).val < (i 0).val / 262144 * 262144 + 262144
  omega

/-! ## The two arrays after the region -/

theorem blend_final (c : Dev nD) : (dat1 V c).arrAt 7 cfg1.N
    = blendArr (V c main_v10) (V c main_v11) (V c main_v12) (V c main_v13) (V c main_v0_1) (V c main_v0_2) (V c main_v0_3) :=
  (dat1 V c).arrAt_eq_of_cover 7 _ (fun t _ => flushed1_7 V c t) fun i =>
    ⟨pointOf1 i, flush1_7 _, ((mem_outBlock1 (pointOf1 i) i).1).mpr (pointOf1_bounds i)⟩

theorem maskCopy_final (c : Dev nD) : (dat1 V c).arrAt 8 cfg1.N = (V c main_v0_3 : S16777216.Idx → Elt F .f32) :=
  (dat1 V c).arrAt_eq_of_cover 8 _ (fun t _ => flushed1_8 V c t) fun i =>
    ⟨pointOf1 i, flush1_8 _, ((mem_outBlock1 (pointOf1 i) i).2).mpr (pointOf1_bounds i)⟩

end Cert.KernelIdeal.Hand

end
-- ==== Proof.Host.lean ====
/-
  The host operations between and after the two kernels, read as functions of what they are given.

  Between the kernels the host flattens the image, forms the three neighbouring flat indices i + 1, i + 4096 and
  (i + 4096) + 1 of the base index vector, and takes the flat image at each of the four index vectors.  A take wraps a
  negative index word by the number of entries, gathers with clamping, and replaces the gathered value by a fill value
  where the wrapped index is outside [0, 16777215].  After the second kernel the host compares the copied mask
  against one half.
-/
import proofs.«108337_j6347961663932_1_alg».proof.Proof.Gen.KernelIdeal.Frame
import proofs.«108337_j6347961663932_1_alg».proof.Proof.Lane
import Idealize.ShloMosaic.Lib.StableHlo.Run
import Idealize.ShloMosaic.PureOps.Reduce
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.StableHlo
open Cert.KernelIdeal Cert.KernelIdeal.Gen

variable {F : FTy → Type} [FloatOps F]

/-- An index vector with its negative words moved up by the number of entries, as a column. -/
def wrapCol (idx : S16777216.Idx → Elt F .i32) : S16777216x1.Idx → Elt F .i32 :=
  broadcastInDim S16777216x1 ![0] Facts₀.bcast_S16777216_S16777216x1_0
    (select (cmpi .slt idx (broadcastInDim S16777216 ![] Facts₀.bcast_S_S16777216 (constantI S_ 32 0#32)))
      (addi idx (broadcastInDim S16777216 ![] Facts₀.bcast_S_S16777216 (constantI S_ 32 16777216#32))) idx)

/-- A take of the flat image at an index vector: the composition of its operations. -/
def takeTerm (flat : S16777216.Idx → Elt F .f32) (idx : S16777216.Idx → Elt F .i32) : S16777216.Idx → Elt F .f32 :=
  select
    (Host.reduce IntOp.andi
      (andi (cmpi .sge (wrapCol (F := F) idx) (broadcastInDim S16777216x1 ![] Facts₀.bcast_S_S16777216x1 (constantI S_ 32 0#32)))
        (cmpi .sle (wrapCol (F := F) idx) (broadcastInDim S16777216x1 ![0, 1] Facts₀.bcast_S1x1_S16777216x1_0_1
          (broadcastInDim S1x1 ![1] Facts₀.bcast_S1_S1x1_1 (constantI S1 32 16777215#32)))))
      (constantI S_ 1 1#1) Facts₀.reducesTo_S16777216x1_S16777216_d1 Facts₀.h_S_)
    (Host.gather Cert.KernelIdeal.gather_S16777216_S16777216x1_S16777216_n_0_n_n_0_1_1 flat (wrapCol (F := F) idx))
    (broadcastInDim S16777216 ![] Facts₀.bcast_S_S16777216 (constant S_ .f32 0x7FC00000#32))

/-! ## A typed-reference operation is the plain operation -/

/-- A two-operand operation over typed references whose types are the buffers' own is the plain operation. -/
theorem tref_binary_rfl {Val : EltTy → Type} (a b y : Ref sig .tc) (oa : a.space ≠ .host) (ua : a.isScoped = false)
    (ob : b.space ≠ .host) (ub : b.isScoped = false) (oy : y.space ≠ .host) (uy : y.isScoped = false)
    (f : a.ty.Contents Val → b.ty.Contents Val → y.ty.Contents Val) :
    (StableHlo.TRef.binary (τ := τ) (StableHlo.TRef.of (T := a.ty) a rfl oa ua) (StableHlo.TRef.of (T := b.ty) b rfl ob ub)
        (StableHlo.TRef.of (T := y.ty) y rfl oy uy) f : HloOp τ sig Val)
      = StableHlo.binary a b y f (StableHlo.TRef.of (T := a.ty) a rfl oa ua).dev (StableHlo.TRef.of (T := b.ty) b rfl ob ub).dev
          (StableHlo.TRef.of (T := y.ty) y rfl oy uy).dev := rfl

/-! ## The four takes -/

/-- Take 1's and-reduction over the unit axis, over the plain buffers. -/
theorem take1_reduce_op : (StableHlo.TRef.binary (.of main_call0_v11 : StableHlo.TRef sig ⟨S16777216x1, .i1⟩) (.of main_call0_c_3 : StableHlo.TRef sig ⟨S_, .i1⟩) (.of main_call0_v12 : StableHlo.TRef sig ⟨S16777216, .i1⟩) (fun x v => Host.reduce IntOp.andi x v Facts₀.reducesTo_S16777216x1_S16777216_d1 Facts₀.h_S_) : HloOp τ sig (Elt F)) = StableHlo.binary main_call0_v11 main_call0_c_3 main_call0_v12 ((fun x v => Host.reduce IntOp.andi x v Facts₀.reducesTo_S16777216x1_S16777216_d1 Facts₀.h_S_) : (⟨S16777216x1, .i1⟩ : BufTy).Contents (Elt F) → (⟨S_, .i1⟩ : BufTy).Contents (Elt F) → (⟨S16777216, .i1⟩ : BufTy).Contents (Elt F)) :=
  tref_binary_rfl main_call0_v11 main_call0_c_3 main_call0_v12 _ _ _ _ _ _ _

/-- Take 1's operations, written over the plain buffers. -/
abbrev takeOps1 : List (HloOp τ sig (Elt F)) :=
  [ StableHlo.nullary main_call0_c (constantI S_ 32 0#32),
    StableHlo.unary main_call0_c main_call0_v0 ((broadcastInDim S16777216 ![] Facts₀.bcast_S_S16777216) : (⟨S_, .i32⟩ : BufTy).Contents (Elt F) → (⟨S16777216, .i32⟩ : BufTy).Contents (Elt F)),
    StableHlo.binary main_v0_0 main_call0_v0 main_call0_v1 ((cmpi .slt) : (⟨S16777216, .i32⟩ : BufTy).Contents (Elt F) → (⟨S16777216, .i32⟩ : BufTy).Contents (Elt F) → (⟨S16777216, .i1⟩ : BufTy).Contents (Elt F)),
    StableHlo.nullary main_call0_c_0 (constantI S_ 32 16777216#32),
    StableHlo.unary main_call0_c_0 main_call0_v2 ((broadcastInDim S16777216 ![] Facts₀.bcast_S_S16777216) : (⟨S_, .i32⟩ : BufTy).Contents (Elt F) → (⟨S16777216, .i32⟩ : BufTy).Contents (Elt F)),
    StableHlo.binary main_v0_0 main_call0_v2 main_call0_v3 (addi : (⟨S16777216, .i32⟩ : BufTy).Contents (Elt F) → (⟨S16777216, .i32⟩ : BufTy).Contents (Elt F) → (⟨S16777216, .i32⟩ : BufTy).Contents (Elt F)),
    StableHlo.ternary main_call0_v1 main_call0_v3 main_v0_0 main_call0_v4 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_call0_v4 main_call0_v5 ((broadcastInDim S16777216x1 ![0] Facts₀.bcast_S16777216_S16777216x1_0) : (⟨S16777216, .i32⟩ : BufTy).Contents (Elt F) → (⟨S16777216x1, .i32⟩ : BufTy).Contents (Elt F)),
    StableHlo.nullary main_call0_c_1 (constantI S1 32 16777215#32),
    StableHlo.nullary main_call0_c_2 (constantI S_ 32 0#32),
    StableHlo.unary main_call0_c_2 main_call0_v6 ((broadcastInDim S16777216x1 ![] Facts₀.bcast_S_S16777216x1) : (⟨S_, .i32⟩ : BufTy).Contents (Elt F) → (⟨S16777216x1, .i32⟩ : BufTy).Contents (Elt F)),
    StableHlo.binary main_call0_v5 main_call0_v6 main_call0_v7 ((cmpi .sge) : (⟨S16777216x1, .i32⟩ : BufTy).Contents (Elt F) → (⟨S16777216x1, .i32⟩ : BufTy).Contents (Elt F) → (⟨S16777216x1, .i1⟩ : BufTy).Contents (Elt F)),
    StableHlo.unary main_call0_c_1 main_call0_v8 ((broadcastInDim S1x1 ![1] Facts₀.bcast_S1_S1x1_1) : (⟨S1, .i32⟩ : BufTy).Contents (Elt F) → (⟨S1x1, .i32⟩ : BufTy).Contents (Elt F)),
    StableHlo.unary main_call0_v8 main_call0_v9 ((broadcastInDim S16777216x1 ![0, 1] Facts₀.bcast_S1x1_S16777216x1_0_1) : (⟨S1x1, .i32⟩ : BufTy).Contents (Elt F) → (⟨S16777216x1, .i32⟩ : BufTy).Contents (Elt F)),
    StableHlo.binary main_call0_v5 main_call0_v9 main_call0_v10 ((cmpi .sle) : (⟨S16777216x1, .i32⟩ : BufTy).Contents (Elt F) → (⟨S16777216x1, .i32⟩ : BufTy).Contents (Elt F) → (⟨S16777216x1, .i1⟩ : BufTy).Contents (Elt F)),
    StableHlo.binary main_call0_v7 main_call0_v10 main_call0_v11 (andi : (⟨S16777216x1, .i1⟩ : BufTy).Contents (Elt F) → (⟨S16777216x1, .i1⟩ : BufTy).Contents (Elt F) → (⟨S16777216x1, .i1⟩ : BufTy).Contents (Elt F)),
    StableHlo.nullary main_call0_c_3 (constantI S_ 1 1#1),
    StableHlo.binary main_call0_v11 main_call0_c_3 main_call0_v12 ((fun x v => Host.reduce IntOp.andi x v Facts₀.reducesTo_S16777216x1_S16777216_d1 Facts₀.h_S_) : (⟨S16777216x1, .i1⟩ : BufTy).Contents (Elt F) → (⟨S_, .i1⟩ : BufTy).Contents (Elt F) → (⟨S16777216, .i1⟩ : BufTy).Contents (Elt F)),
    StableHlo.binary main_v1 main_call0_v5 main_call0_v13 ((fun x i => Host.gather Cert.KernelIdeal.gather_S16777216_S16777216x1_S16777216_n_0_n_n_0_1_1 x i) : (⟨S16777216, .f32⟩ : BufTy).Contents (Elt F) → (⟨S16777216x1, .i32⟩ : BufTy).Contents (Elt F) → (⟨S16777216, .f32⟩ : BufTy).Contents (Elt F)),
    StableHlo.nullary main_call0_cst (constant S_ .f32 0x7FC00000#32),
    StableHlo.unary main_call0_cst main_call0_v14 ((broadcastInDim S16777216 ![] Facts₀.bcast_S_S16777216) : (⟨S_, .f32⟩ : BufTy).Contents (Elt F) → (⟨S16777216, .f32⟩ : BufTy).Contents (Elt F)),
    StableHlo.ternary main_call0_v12 main_call0_v13 main_call0_v14 main_v10 (select : (⟨S16777216, .i1⟩ : BufTy).Contents (Elt F) → (⟨S16777216, .f32⟩ : BufTy).Contents (Elt F) → (⟨S16777216, .f32⟩ : BufTy).Contents (Elt F) → (⟨S16777216, .f32⟩ : BufTy).Contents (Elt F)) ]

set_option maxHeartbeats 4000000 in
theorem takeOps1_eq : (hostOps1_1 (F := F)) = takeOps1 := by
  show ([ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S16777216, .i32⟩) (broadcastInDim S16777216 ![] Facts₀.bcast_S_S16777216),
    StableHlo.TRef.binary (.of main_v0_0 : StableHlo.TRef sig ⟨S16777216, .i32⟩) (.of main_call0_v0 : StableHlo.TRef sig ⟨S16777216, .i32⟩) (.of main_call0_v1 : StableHlo.TRef sig ⟨S16777216, .i1⟩) (cmpi .slt),
    StableHlo.TRef.nullary (.of main_call0_c_0 : StableHlo.TRef sig ⟨S_, .i32⟩) (constantI S_ 32 16777216#32),
    StableHlo.TRef.unary (.of main_call0_c_0 : StableHlo.TRef sig ⟨S_, .i32⟩) (.of main_call0_v2 : StableHlo.TRef sig ⟨S16777216, .i32⟩) (broadcastInDim S16777216 ![] Facts₀.bcast_S_S16777216),
    StableHlo.TRef.binary (.of main_v0_0 : StableHlo.TRef sig ⟨S16777216, .i32⟩) (.of main_call0_v2 : StableHlo.TRef sig ⟨S16777216, .i32⟩) (.of main_call0_v3 : StableHlo.TRef sig ⟨S16777216, .i32⟩) addi,
    StableHlo.TRef.ternary (.of main_call0_v1 : StableHlo.TRef sig ⟨S16777216, .i1⟩) (.of main_call0_v3 : StableHlo.TRef sig ⟨S16777216, .i32⟩) (.of main_v0_0 : StableHlo.TRef sig ⟨S16777216, .i32⟩) (.of main_call0_v4 : StableHlo.TRef sig ⟨S16777216, .i32⟩) select,
    StableHlo.TRef.unary main_call0_call0.v0 (.of main_call0_v5 : StableHlo.TRef sig ⟨S16777216x1, .i32⟩) (broadcastInDim S16777216x1 ![0] Facts₀.bcast_S16777216_S16777216x1_0),
    StableHlo.TRef.nullary (.of main_call0_c_1 : StableHlo.TRef sig ⟨S1, .i32⟩) (constantI S1 32 16777215#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S16777216x1, .i32⟩) (broadcastInDim S16777216x1 ![] Facts₀.bcast_S_S16777216x1),
    StableHlo.TRef.binary (.of main_call0_v5 : StableHlo.TRef sig ⟨S16777216x1, .i32⟩) (.of main_call0_v6 : StableHlo.TRef sig ⟨S16777216x1, .i32⟩) (.of main_call0_v7 : StableHlo.TRef sig ⟨S16777216x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] Facts₀.bcast_S1_S1x1_1),
    StableHlo.TRef.unary (.of main_call0_v8 : StableHlo.TRef sig ⟨S1x1, .i32⟩) (.of main_call0_v9 : StableHlo.TRef sig ⟨S16777216x1, .i32⟩) (broadcastInDim S16777216x1 ![0, 1] Facts₀.bcast_S1x1_S16777216x1_0_1),
    StableHlo.TRef.binary (.of main_call0_v5 : StableHlo.TRef sig ⟨S16777216x1, .i32⟩) (.of main_call0_v9 : StableHlo.TRef sig ⟨S16777216x1, .i32⟩) (.of main_call0_v10 : StableHlo.TRef sig ⟨S16777216x1, .i1⟩) (cmpi .sle),
    StableHlo.TRef.binary (.of main_call0_v7 : StableHlo.TRef sig ⟨S16777216x1, .i1⟩) (.of main_call0_v10 : StableHlo.TRef sig ⟨S16777216x1, .i1⟩) (.of main_call0_v11 : StableHlo.TRef sig ⟨S16777216x1, .i1⟩) andi,
    StableHlo.TRef.nullary (.of main_call0_c_3 : StableHlo.TRef sig ⟨S_, .i1⟩) (constantI S_ 1 1#1),
    StableHlo.TRef.binary (.of main_call0_v11 : StableHlo.TRef sig ⟨S16777216x1, .i1⟩) (.of main_call0_c_3 : StableHlo.TRef sig ⟨S_, .i1⟩) (.of main_call0_v12 : StableHlo.TRef sig ⟨S16777216, .i1⟩) (fun x v => Host.reduce IntOp.andi x v Facts₀.reducesTo_S16777216x1_S16777216_d1 Facts₀.h_S_),
    StableHlo.TRef.binary (.of main_v1 : StableHlo.TRef sig ⟨S16777216, .f32⟩) (.of main_call0_v5 : StableHlo.TRef sig ⟨S16777216x1, .i32⟩) (.of main_call0_v13 : StableHlo.TRef sig ⟨S16777216, .f32⟩) (fun x i => Host.gather Cert.KernelIdeal.gather_S16777216_S16777216x1_S16777216_n_0_n_n_0_1_1 x i),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v14 : StableHlo.TRef sig ⟨S16777216, .f32⟩) (broadcastInDim S16777216 ![] Facts₀.bcast_S_S16777216),
    StableHlo.TRef.ternary (.of main_call0_v12 : StableHlo.TRef sig ⟨S16777216, .i1⟩) (.of main_call0_v13 : StableHlo.TRef sig ⟨S16777216, .f32⟩) (.of main_call0_v14 : StableHlo.TRef sig ⟨S16777216, .f32⟩) (.of main_v10 : StableHlo.TRef sig ⟨S16777216, .f32⟩) select ] : List (HloOp τ sig (Elt F))) = _
  rw [take1_reduce_op]
  rfl

set_option maxHeartbeats 4000000 in
/-- Take 1 writes the take of the flat image at its index vector. -/
theorem take1_result (W : Valuation τ sig (Elt F)) :
    StableHlo.after (hostOps1_1 (F := F)) W (Proc.devRef .tc main_v10)
      = takeTerm (F := F) (W (Proc.devRef .tc main_v1)) (W (Proc.devRef .tc main_v0_0)) := by
  rw [takeOps1_eq]
  generalize hX : takeTerm (F := F) (W (Proc.devRef .tc main_v1)) (W (Proc.devRef .tc main_v0_0)) = X
  after_results_simp
  rw [← hX]
  rfl

/-- Take 2's and-reduction over the unit axis, over the plain buffers. -/
theorem take2_reduce_op : (StableHlo.TRef.binary (.of main_call1_v11 : StableHlo.TRef sig ⟨S16777216x1, .i1⟩) (.of main_call1_c_3 : StableHlo.TRef sig ⟨S_, .i1⟩) (.of main_call1_v12 : StableHlo.TRef sig ⟨S16777216, .i1⟩) (fun x v => Host.reduce IntOp.andi x v Facts₀.reducesTo_S16777216x1_S16777216_d1 Facts₀.h_S_) : HloOp τ sig (Elt F)) = StableHlo.binary main_call1_v11 main_call1_c_3 main_call1_v12 ((fun x v => Host.reduce IntOp.andi x v Facts₀.reducesTo_S16777216x1_S16777216_d1 Facts₀.h_S_) : (⟨S16777216x1, .i1⟩ : BufTy).Contents (Elt F) → (⟨S_, .i1⟩ : BufTy).Contents (Elt F) → (⟨S16777216, .i1⟩ : BufTy).Contents (Elt F)) :=
  tref_binary_rfl main_call1_v11 main_call1_c_3 main_call1_v12 _ _ _ _ _ _ _

/-- Take 2's operations, written over the plain buffers. -/
abbrev takeOps2 : List (HloOp τ sig (Elt F)) :=
  [ StableHlo.nullary main_call1_c (constantI S_ 32 0#32),
    StableHlo.unary main_call1_c main_call1_v0 ((broadcastInDim S16777216 ![] Facts₀.bcast_S_S16777216) : (⟨S_, .i32⟩ : BufTy).Contents (Elt F) → (⟨S16777216, .i32⟩ : BufTy).Contents (Elt F)),
    StableHlo.binary main_v3 main_call1_v0 main_call1_v1 ((cmpi .slt) : (⟨S16777216, .i32⟩ : BufTy).Contents (Elt F) → (⟨S16777216, .i32⟩ : BufTy).Contents (Elt F) → (⟨S16777216, .i1⟩ : BufTy).Contents (Elt F)),
    StableHlo.nullary main_call1_c_0 (constantI S_ 32 16777216#32),
    StableHlo.unary main_call1_c_0 main_call1_v2 ((broadcastInDim S16777216 ![] Facts₀.bcast_S_S16777216) : (⟨S_, .i32⟩ : BufTy).Contents (Elt F) → (⟨S16777216, .i32⟩ : BufTy).Contents (Elt F)),
    StableHlo.binary main_v3 main_call1_v2 main_call1_v3 (addi : (⟨S16777216, .i32⟩ : BufTy).Contents (Elt F) → (⟨S16777216, .i32⟩ : BufTy).Contents (Elt F) → (⟨S16777216, .i32⟩ : BufTy).Contents (Elt F)),
    StableHlo.ternary main_call1_v1 main_call1_v3 main_v3 main_call1_v4 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_call1_v4 main_call1_v5 ((broadcastInDim S16777216x1 ![0] Facts₀.bcast_S16777216_S16777216x1_0) : (⟨S16777216, .i32⟩ : BufTy).Contents (Elt F) → (⟨S16777216x1, .i32⟩ : BufTy).Contents (Elt F)),
    StableHlo.nullary main_call1_c_1 (constantI S1 32 16777215#32),
    StableHlo.nullary main_call1_c_2 (constantI S_ 32 0#32),
    StableHlo.unary main_call1_c_2 main_call1_v6 ((broadcastInDim S16777216x1 ![] Facts₀.bcast_S_S16777216x1) : (⟨S_, .i32⟩ : BufTy).Contents (Elt F) → (⟨S16777216x1, .i32⟩ : BufTy).Contents (Elt F)),
    StableHlo.binary main_call1_v5 main_call1_v6 main_call1_v7 ((cmpi .sge) : (⟨S16777216x1, .i32⟩ : BufTy).Contents (Elt F) → (⟨S16777216x1, .i32⟩ : BufTy).Contents (Elt F) → (⟨S16777216x1, .i1⟩ : BufTy).Contents (Elt F)),
    StableHlo.unary main_call1_c_1 main_call1_v8 ((broadcastInDim S1x1 ![1] Facts₀.bcast_S1_S1x1_1) : (⟨S1, .i32⟩ : BufTy).Contents (Elt F) → (⟨S1x1, .i32⟩ : BufTy).Contents (Elt F)),
    StableHlo.unary main_call1_v8 main_call1_v9 ((broadcastInDim S16777216x1 ![0, 1] Facts₀.bcast_S1x1_S16777216x1_0_1) : (⟨S1x1, .i32⟩ : BufTy).Contents (Elt F) → (⟨S16777216x1, .i32⟩ : BufTy).Contents (Elt F)),
    StableHlo.binary main_call1_v5 main_call1_v9 main_call1_v10 ((cmpi .sle) : (⟨S16777216x1, .i32⟩ : BufTy).Contents (Elt F) → (⟨S16777216x1, .i32⟩ : BufTy).Contents (Elt F) → (⟨S16777216x1, .i1⟩ : BufTy).Contents (Elt F)),
    StableHlo.binary main_call1_v7 main_call1_v10 main_call1_v11 (andi : (⟨S16777216x1, .i1⟩ : BufTy).Contents (Elt F) → (⟨S16777216x1, .i1⟩ : BufTy).Contents (Elt F) → (⟨S16777216x1, .i1⟩ : BufTy).Contents (Elt F)),
    StableHlo.nullary main_call1_c_3 (constantI S_ 1 1#1),
    StableHlo.binary main_call1_v11 main_call1_c_3 main_call1_v12 ((fun x v => Host.reduce IntOp.andi x v Facts₀.reducesTo_S16777216x1_S16777216_d1 Facts₀.h_S_) : (⟨S16777216x1, .i1⟩ : BufTy).Contents (Elt F) → (⟨S_, .i1⟩ : BufTy).Contents (Elt F) → (⟨S16777216, .i1⟩ : BufTy).Contents (Elt F)),
    StableHlo.binary main_v1 main_call1_v5 main_call1_v13 ((fun x i => Host.gather Cert.KernelIdeal.gather_S16777216_S16777216x1_S16777216_n_0_n_n_0_1_1 x i) : (⟨S16777216, .f32⟩ : BufTy).Contents (Elt F) → (⟨S16777216x1, .i32⟩ : BufTy).Contents (Elt F) → (⟨S16777216, .f32⟩ : BufTy).Contents (Elt F)),
    StableHlo.nullary main_call1_cst (constant S_ .f32 0x7FC00000#32),
    StableHlo.unary main_call1_cst main_call1_v14 ((broadcastInDim S16777216 ![] Facts₀.bcast_S_S16777216) : (⟨S_, .f32⟩ : BufTy).Contents (Elt F) → (⟨S16777216, .f32⟩ : BufTy).Contents (Elt F)),
    StableHlo.ternary main_call1_v12 main_call1_v13 main_call1_v14 main_v11 (select : (⟨S16777216, .i1⟩ : BufTy).Contents (Elt F) → (⟨S16777216, .f32⟩ : BufTy).Contents (Elt F) → (⟨S16777216, .f32⟩ : BufTy).Contents (Elt F) → (⟨S16777216, .f32⟩ : BufTy).Contents (Elt F)) ]

set_option maxHeartbeats 4000000 in
theorem takeOps2_eq : (hostOps1_2 (F := F)) = takeOps2 := by
  show ([ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S16777216, .i32⟩) (broadcastInDim S16777216 ![] Facts₀.bcast_S_S16777216),
    StableHlo.TRef.binary (.of main_v3 : StableHlo.TRef sig ⟨S16777216, .i32⟩) (.of main_call1_v0 : StableHlo.TRef sig ⟨S16777216, .i32⟩) (.of main_call1_v1 : StableHlo.TRef sig ⟨S16777216, .i1⟩) (cmpi .slt),
    StableHlo.TRef.nullary (.of main_call1_c_0 : StableHlo.TRef sig ⟨S_, .i32⟩) (constantI S_ 32 16777216#32),
    StableHlo.TRef.unary (.of main_call1_c_0 : StableHlo.TRef sig ⟨S_, .i32⟩) (.of main_call1_v2 : StableHlo.TRef sig ⟨S16777216, .i32⟩) (broadcastInDim S16777216 ![] Facts₀.bcast_S_S16777216),
    StableHlo.TRef.binary (.of main_v3 : StableHlo.TRef sig ⟨S16777216, .i32⟩) (.of main_call1_v2 : StableHlo.TRef sig ⟨S16777216, .i32⟩) (.of main_call1_v3 : StableHlo.TRef sig ⟨S16777216, .i32⟩) addi,
    StableHlo.TRef.ternary (.of main_call1_v1 : StableHlo.TRef sig ⟨S16777216, .i1⟩) (.of main_call1_v3 : StableHlo.TRef sig ⟨S16777216, .i32⟩) (.of main_v3 : StableHlo.TRef sig ⟨S16777216, .i32⟩) (.of main_call1_v4 : StableHlo.TRef sig ⟨S16777216, .i32⟩) select,
    StableHlo.TRef.unary main_call1_call0.v0 (.of main_call1_v5 : StableHlo.TRef sig ⟨S16777216x1, .i32⟩) (broadcastInDim S16777216x1 ![0] Facts₀.bcast_S16777216_S16777216x1_0),
    StableHlo.TRef.nullary (.of main_call1_c_1 : StableHlo.TRef sig ⟨S1, .i32⟩) (constantI S1 32 16777215#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S16777216x1, .i32⟩) (broadcastInDim S16777216x1 ![] Facts₀.bcast_S_S16777216x1),
    StableHlo.TRef.binary (.of main_call1_v5 : StableHlo.TRef sig ⟨S16777216x1, .i32⟩) (.of main_call1_v6 : StableHlo.TRef sig ⟨S16777216x1, .i32⟩) (.of main_call1_v7 : StableHlo.TRef sig ⟨S16777216x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] Facts₀.bcast_S1_S1x1_1),
    StableHlo.TRef.unary (.of main_call1_v8 : StableHlo.TRef sig ⟨S1x1, .i32⟩) (.of main_call1_v9 : StableHlo.TRef sig ⟨S16777216x1, .i32⟩) (broadcastInDim S16777216x1 ![0, 1] Facts₀.bcast_S1x1_S16777216x1_0_1),
    StableHlo.TRef.binary (.of main_call1_v5 : StableHlo.TRef sig ⟨S16777216x1, .i32⟩) (.of main_call1_v9 : StableHlo.TRef sig ⟨S16777216x1, .i32⟩) (.of main_call1_v10 : StableHlo.TRef sig ⟨S16777216x1, .i1⟩) (cmpi .sle),
    StableHlo.TRef.binary (.of main_call1_v7 : StableHlo.TRef sig ⟨S16777216x1, .i1⟩) (.of main_call1_v10 : StableHlo.TRef sig ⟨S16777216x1, .i1⟩) (.of main_call1_v11 : StableHlo.TRef sig ⟨S16777216x1, .i1⟩) andi,
    StableHlo.TRef.nullary (.of main_call1_c_3 : StableHlo.TRef sig ⟨S_, .i1⟩) (constantI S_ 1 1#1),
    StableHlo.TRef.binary (.of main_call1_v11 : StableHlo.TRef sig ⟨S16777216x1, .i1⟩) (.of main_call1_c_3 : StableHlo.TRef sig ⟨S_, .i1⟩) (.of main_call1_v12 : StableHlo.TRef sig ⟨S16777216, .i1⟩) (fun x v => Host.reduce IntOp.andi x v Facts₀.reducesTo_S16777216x1_S16777216_d1 Facts₀.h_S_),
    StableHlo.TRef.binary (.of main_v1 : StableHlo.TRef sig ⟨S16777216, .f32⟩) (.of main_call1_v5 : StableHlo.TRef sig ⟨S16777216x1, .i32⟩) (.of main_call1_v13 : StableHlo.TRef sig ⟨S16777216, .f32⟩) (fun x i => Host.gather Cert.KernelIdeal.gather_S16777216_S16777216x1_S16777216_n_0_n_n_0_1_1 x i),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v14 : StableHlo.TRef sig ⟨S16777216, .f32⟩) (broadcastInDim S16777216 ![] Facts₀.bcast_S_S16777216),
    StableHlo.TRef.ternary (.of main_call1_v12 : StableHlo.TRef sig ⟨S16777216, .i1⟩) (.of main_call1_v13 : StableHlo.TRef sig ⟨S16777216, .f32⟩) (.of main_call1_v14 : StableHlo.TRef sig ⟨S16777216, .f32⟩) (.of main_v11 : StableHlo.TRef sig ⟨S16777216, .f32⟩) select ] : List (HloOp τ sig (Elt F))) = _
  rw [take2_reduce_op]
  rfl

set_option maxHeartbeats 4000000 in
/-- Take 2 writes the take of the flat image at its index vector. -/
theorem take2_result (W : Valuation τ sig (Elt F)) :
    StableHlo.after (hostOps1_2 (F := F)) W (Proc.devRef .tc main_v11)
      = takeTerm (F := F) (W (Proc.devRef .tc main_v1)) (W (Proc.devRef .tc main_v3)) := by
  rw [takeOps2_eq]
  generalize hX : takeTerm (F := F) (W (Proc.devRef .tc main_v1)) (W (Proc.devRef .tc main_v3)) = X
  after_results_simp
  rw [← hX]
  rfl

/-- Take 3's and-reduction over the unit axis, over the plain buffers. -/
theorem take3_reduce_op : (StableHlo.TRef.binary (.of main_call2_v11 : StableHlo.TRef sig ⟨S16777216x1, .i1⟩) (.of main_call2_c_3 : StableHlo.TRef sig ⟨S_, .i1⟩) (.of main_call2_v12 : StableHlo.TRef sig ⟨S16777216, .i1⟩) (fun x v => Host.reduce IntOp.andi x v Facts₀.reducesTo_S16777216x1_S16777216_d1 Facts₀.h_S_) : HloOp τ sig (Elt F)) = StableHlo.binary main_call2_v11 main_call2_c_3 main_call2_v12 ((fun x v => Host.reduce IntOp.andi x v Facts₀.reducesTo_S16777216x1_S16777216_d1 Facts₀.h_S_) : (⟨S16777216x1, .i1⟩ : BufTy).Contents (Elt F) → (⟨S_, .i1⟩ : BufTy).Contents (Elt F) → (⟨S16777216, .i1⟩ : BufTy).Contents (Elt F)) :=
  tref_binary_rfl main_call2_v11 main_call2_c_3 main_call2_v12 _ _ _ _ _ _ _

/-- Take 3's operations, written over the plain buffers. -/
abbrev takeOps3 : List (HloOp τ sig (Elt F)) :=
  [ StableHlo.nullary main_call2_c (constantI S_ 32 0#32),
    StableHlo.unary main_call2_c main_call2_v0 ((broadcastInDim S16777216 ![] Facts₀.bcast_S_S16777216) : (⟨S_, .i32⟩ : BufTy).Contents (Elt F) → (⟨S16777216, .i32⟩ : BufTy).Contents (Elt F)),
    StableHlo.binary main_v5 main_call2_v0 main_call2_v1 ((cmpi .slt) : (⟨S16777216, .i32⟩ : BufTy).Contents (Elt F) → (⟨S16777216, .i32⟩ : BufTy).Contents (Elt F) → (⟨S16777216, .i1⟩ : BufTy).Contents (Elt F)),
    StableHlo.nullary main_call2_c_0 (constantI S_ 32 16777216#32),
    StableHlo.unary main_call2_c_0 main_call2_v2 ((broadcastInDim S16777216 ![] Facts₀.bcast_S_S16777216) : (⟨S_, .i32⟩ : BufTy).Contents (Elt F) → (⟨S16777216, .i32⟩ : BufTy).Contents (Elt F)),
    StableHlo.binary main_v5 main_call2_v2 main_call2_v3 (addi : (⟨S16777216, .i32⟩ : BufTy).Contents (Elt F) → (⟨S16777216, .i32⟩ : BufTy).Contents (Elt F) → (⟨S16777216, .i32⟩ : BufTy).Contents (Elt F)),
    StableHlo.ternary main_call2_v1 main_call2_v3 main_v5 main_call2_v4 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_call2_v4 main_call2_v5 ((broadcastInDim S16777216x1 ![0] Facts₀.bcast_S16777216_S16777216x1_0) : (⟨S16777216, .i32⟩ : BufTy).Contents (Elt F) → (⟨S16777216x1, .i32⟩ : BufTy).Contents (Elt F)),
    StableHlo.nullary main_call2_c_1 (constantI S1 32 16777215#32),
    StableHlo.nullary main_call2_c_2 (constantI S_ 32 0#32),
    StableHlo.unary main_call2_c_2 main_call2_v6 ((broadcastInDim S16777216x1 ![] Facts₀.bcast_S_S16777216x1) : (⟨S_, .i32⟩ : BufTy).Contents (Elt F) → (⟨S16777216x1, .i32⟩ : BufTy).Contents (Elt F)),
    StableHlo.binary main_call2_v5 main_call2_v6 main_call2_v7 ((cmpi .sge) : (⟨S16777216x1, .i32⟩ : BufTy).Contents (Elt F) → (⟨S16777216x1, .i32⟩ : BufTy).Contents (Elt F) → (⟨S16777216x1, .i1⟩ : BufTy).Contents (Elt F)),
    StableHlo.unary main_call2_c_1 main_call2_v8 ((broadcastInDim S1x1 ![1] Facts₀.bcast_S1_S1x1_1) : (⟨S1, .i32⟩ : BufTy).Contents (Elt F) → (⟨S1x1, .i32⟩ : BufTy).Contents (Elt F)),
    StableHlo.unary main_call2_v8 main_call2_v9 ((broadcastInDim S16777216x1 ![0, 1] Facts₀.bcast_S1x1_S16777216x1_0_1) : (⟨S1x1, .i32⟩ : BufTy).Contents (Elt F) → (⟨S16777216x1, .i32⟩ : BufTy).Contents (Elt F)),
    StableHlo.binary main_call2_v5 main_call2_v9 main_call2_v10 ((cmpi .sle) : (⟨S16777216x1, .i32⟩ : BufTy).Contents (Elt F) → (⟨S16777216x1, .i32⟩ : BufTy).Contents (Elt F) → (⟨S16777216x1, .i1⟩ : BufTy).Contents (Elt F)),
    StableHlo.binary main_call2_v7 main_call2_v10 main_call2_v11 (andi : (⟨S16777216x1, .i1⟩ : BufTy).Contents (Elt F) → (⟨S16777216x1, .i1⟩ : BufTy).Contents (Elt F) → (⟨S16777216x1, .i1⟩ : BufTy).Contents (Elt F)),
    StableHlo.nullary main_call2_c_3 (constantI S_ 1 1#1),
    StableHlo.binary main_call2_v11 main_call2_c_3 main_call2_v12 ((fun x v => Host.reduce IntOp.andi x v Facts₀.reducesTo_S16777216x1_S16777216_d1 Facts₀.h_S_) : (⟨S16777216x1, .i1⟩ : BufTy).Contents (Elt F) → (⟨S_, .i1⟩ : BufTy).Contents (Elt F) → (⟨S16777216, .i1⟩ : BufTy).Contents (Elt F)),
    StableHlo.binary main_v1 main_call2_v5 main_call2_v13 ((fun x i => Host.gather Cert.KernelIdeal.gather_S16777216_S16777216x1_S16777216_n_0_n_n_0_1_1 x i) : (⟨S16777216, .f32⟩ : BufTy).Contents (Elt F) → (⟨S16777216x1, .i32⟩ : BufTy).Contents (Elt F) → (⟨S16777216, .f32⟩ : BufTy).Contents (Elt F)),
    StableHlo.nullary main_call2_cst (constant S_ .f32 0x7FC00000#32),
    StableHlo.unary main_call2_cst main_call2_v14 ((broadcastInDim S16777216 ![] Facts₀.bcast_S_S16777216) : (⟨S_, .f32⟩ : BufTy).Contents (Elt F) → (⟨S16777216, .f32⟩ : BufTy).Contents (Elt F)),
    StableHlo.ternary main_call2_v12 main_call2_v13 main_call2_v14 main_v12 (select : (⟨S16777216, .i1⟩ : BufTy).Contents (Elt F) → (⟨S16777216, .f32⟩ : BufTy).Contents (Elt F) → (⟨S16777216, .f32⟩ : BufTy).Contents (Elt F) → (⟨S16777216, .f32⟩ : BufTy).Contents (Elt F)) ]

set_option maxHeartbeats 4000000 in
theorem takeOps3_eq : (hostOps1_3 (F := F)) = takeOps3 := by
  show ([ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S16777216, .i32⟩) (broadcastInDim S16777216 ![] Facts₀.bcast_S_S16777216),
    StableHlo.TRef.binary (.of main_v5 : StableHlo.TRef sig ⟨S16777216, .i32⟩) (.of main_call2_v0 : StableHlo.TRef sig ⟨S16777216, .i32⟩) (.of main_call2_v1 : StableHlo.TRef sig ⟨S16777216, .i1⟩) (cmpi .slt),
    StableHlo.TRef.nullary (.of main_call2_c_0 : StableHlo.TRef sig ⟨S_, .i32⟩) (constantI S_ 32 16777216#32),
    StableHlo.TRef.unary (.of main_call2_c_0 : StableHlo.TRef sig ⟨S_, .i32⟩) (.of main_call2_v2 : StableHlo.TRef sig ⟨S16777216, .i32⟩) (broadcastInDim S16777216 ![] Facts₀.bcast_S_S16777216),
    StableHlo.TRef.binary (.of main_v5 : StableHlo.TRef sig ⟨S16777216, .i32⟩) (.of main_call2_v2 : StableHlo.TRef sig ⟨S16777216, .i32⟩) (.of main_call2_v3 : StableHlo.TRef sig ⟨S16777216, .i32⟩) addi,
    StableHlo.TRef.ternary (.of main_call2_v1 : StableHlo.TRef sig ⟨S16777216, .i1⟩) (.of main_call2_v3 : StableHlo.TRef sig ⟨S16777216, .i32⟩) (.of main_v5 : StableHlo.TRef sig ⟨S16777216, .i32⟩) (.of main_call2_v4 : StableHlo.TRef sig ⟨S16777216, .i32⟩) select,
    StableHlo.TRef.unary main_call2_call0.v0 (.of main_call2_v5 : StableHlo.TRef sig ⟨S16777216x1, .i32⟩) (broadcastInDim S16777216x1 ![0] Facts₀.bcast_S16777216_S16777216x1_0),
    StableHlo.TRef.nullary (.of main_call2_c_1 : StableHlo.TRef sig ⟨S1, .i32⟩) (constantI S1 32 16777215#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S16777216x1, .i32⟩) (broadcastInDim S16777216x1 ![] Facts₀.bcast_S_S16777216x1),
    StableHlo.TRef.binary (.of main_call2_v5 : StableHlo.TRef sig ⟨S16777216x1, .i32⟩) (.of main_call2_v6 : StableHlo.TRef sig ⟨S16777216x1, .i32⟩) (.of main_call2_v7 : StableHlo.TRef sig ⟨S16777216x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] Facts₀.bcast_S1_S1x1_1),
    StableHlo.TRef.unary (.of main_call2_v8 : StableHlo.TRef sig ⟨S1x1, .i32⟩) (.of main_call2_v9 : StableHlo.TRef sig ⟨S16777216x1, .i32⟩) (broadcastInDim S16777216x1 ![0, 1] Facts₀.bcast_S1x1_S16777216x1_0_1),
    StableHlo.TRef.binary (.of main_call2_v5 : StableHlo.TRef sig ⟨S16777216x1, .i32⟩) (.of main_call2_v9 : StableHlo.TRef sig ⟨S16777216x1, .i32⟩) (.of main_call2_v10 : StableHlo.TRef sig ⟨S16777216x1, .i1⟩) (cmpi .sle),
    StableHlo.TRef.binary (.of main_call2_v7 : StableHlo.TRef sig ⟨S16777216x1, .i1⟩) (.of main_call2_v10 : StableHlo.TRef sig ⟨S16777216x1, .i1⟩) (.of main_call2_v11 : StableHlo.TRef sig ⟨S16777216x1, .i1⟩) andi,
    StableHlo.TRef.nullary (.of main_call2_c_3 : StableHlo.TRef sig ⟨S_, .i1⟩) (constantI S_ 1 1#1),
    StableHlo.TRef.binary (.of main_call2_v11 : StableHlo.TRef sig ⟨S16777216x1, .i1⟩) (.of main_call2_c_3 : StableHlo.TRef sig ⟨S_, .i1⟩) (.of main_call2_v12 : StableHlo.TRef sig ⟨S16777216, .i1⟩) (fun x v => Host.reduce IntOp.andi x v Facts₀.reducesTo_S16777216x1_S16777216_d1 Facts₀.h_S_),
    StableHlo.TRef.binary (.of main_v1 : StableHlo.TRef sig ⟨S16777216, .f32⟩) (.of main_call2_v5 : StableHlo.TRef sig ⟨S16777216x1, .i32⟩) (.of main_call2_v13 : StableHlo.TRef sig ⟨S16777216, .f32⟩) (fun x i => Host.gather Cert.KernelIdeal.gather_S16777216_S16777216x1_S16777216_n_0_n_n_0_1_1 x i),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S16777216, .f32⟩) (broadcastInDim S16777216 ![] Facts₀.bcast_S_S16777216),
    StableHlo.TRef.ternary (.of main_call2_v12 : StableHlo.TRef sig ⟨S16777216, .i1⟩) (.of main_call2_v13 : StableHlo.TRef sig ⟨S16777216, .f32⟩) (.of main_call2_v14 : StableHlo.TRef sig ⟨S16777216, .f32⟩) (.of main_v12 : StableHlo.TRef sig ⟨S16777216, .f32⟩) select ] : List (HloOp τ sig (Elt F))) = _
  rw [take3_reduce_op]
  rfl

set_option maxHeartbeats 4000000 in
/-- Take 3 writes the take of the flat image at its index vector. -/
theorem take3_result (W : Valuation τ sig (Elt F)) :
    StableHlo.after (hostOps1_3 (F := F)) W (Proc.devRef .tc main_v12)
      = takeTerm (F := F) (W (Proc.devRef .tc main_v1)) (W (Proc.devRef .tc main_v5)) := by
  rw [takeOps3_eq]
  generalize hX : takeTerm (F := F) (W (Proc.devRef .tc main_v1)) (W (Proc.devRef .tc main_v5)) = X
  after_results_simp
  rw [← hX]
  rfl

/-- Take 4's and-reduction over the unit axis, over the plain buffers. -/
theorem take4_reduce_op : (StableHlo.TRef.binary (.of main_call3_v11 : StableHlo.TRef sig ⟨S16777216x1, .i1⟩) (.of main_call3_c_3 : StableHlo.TRef sig ⟨S_, .i1⟩) (.of main_call3_v12 : StableHlo.TRef sig ⟨S16777216, .i1⟩) (fun x v => Host.reduce IntOp.andi x v Facts₀.reducesTo_S16777216x1_S16777216_d1 Facts₀.h_S_) : HloOp τ sig (Elt F)) = StableHlo.binary main_call3_v11 main_call3_c_3 main_call3_v12 ((fun x v => Host.reduce IntOp.andi x v Facts₀.reducesTo_S16777216x1_S16777216_d1 Facts₀.h_S_) : (⟨S16777216x1, .i1⟩ : BufTy).Contents (Elt F) → (⟨S_, .i1⟩ : BufTy).Contents (Elt F) → (⟨S16777216, .i1⟩ : BufTy).Contents (Elt F)) :=
  tref_binary_rfl main_call3_v11 main_call3_c_3 main_call3_v12 _ _ _ _ _ _ _

/-- Take 4's operations, written over the plain buffers. -/
abbrev takeOps4 : List (HloOp τ sig (Elt F)) :=
  [ StableHlo.nullary main_call3_c (constantI S_ 32 0#32),
    StableHlo.unary main_call3_c main_call3_v0 ((broadcastInDim S16777216 ![] Facts₀.bcast_S_S16777216) : (⟨S_, .i32⟩ : BufTy).Contents (Elt F) → (⟨S16777216, .i32⟩ : BufTy).Contents (Elt F)),
    StableHlo.binary main_v9 main_call3_v0 main_call3_v1 ((cmpi .slt) : (⟨S16777216, .i32⟩ : BufTy).Contents (Elt F) → (⟨S16777216, .i32⟩ : BufTy).Contents (Elt F) → (⟨S16777216, .i1⟩ : BufTy).Contents (Elt F)),
    StableHlo.nullary main_call3_c_0 (constantI S_ 32 16777216#32),
    StableHlo.unary main_call3_c_0 main_call3_v2 ((broadcastInDim S16777216 ![] Facts₀.bcast_S_S16777216) : (⟨S_, .i32⟩ : BufTy).Contents (Elt F) → (⟨S16777216, .i32⟩ : BufTy).Contents (Elt F)),
    StableHlo.binary main_v9 main_call3_v2 main_call3_v3 (addi : (⟨S16777216, .i32⟩ : BufTy).Contents (Elt F) → (⟨S16777216, .i32⟩ : BufTy).Contents (Elt F) → (⟨S16777216, .i32⟩ : BufTy).Contents (Elt F)),
    StableHlo.ternary main_call3_v1 main_call3_v3 main_v9 main_call3_v4 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_call3_v4 main_call3_v5 ((broadcastInDim S16777216x1 ![0] Facts₀.bcast_S16777216_S16777216x1_0) : (⟨S16777216, .i32⟩ : BufTy).Contents (Elt F) → (⟨S16777216x1, .i32⟩ : BufTy).Contents (Elt F)),
    StableHlo.nullary main_call3_c_1 (constantI S1 32 16777215#32),
    StableHlo.nullary main_call3_c_2 (constantI S_ 32 0#32),
    StableHlo.unary main_call3_c_2 main_call3_v6 ((broadcastInDim S16777216x1 ![] Facts₀.bcast_S_S16777216x1) : (⟨S_, .i32⟩ : BufTy).Contents (Elt F) → (⟨S16777216x1, .i32⟩ : BufTy).Contents (Elt F)),
    StableHlo.binary main_call3_v5 main_call3_v6 main_call3_v7 ((cmpi .sge) : (⟨S16777216x1, .i32⟩ : BufTy).Contents (Elt F) → (⟨S16777216x1, .i32⟩ : BufTy).Contents (Elt F) → (⟨S16777216x1, .i1⟩ : BufTy).Contents (Elt F)),
    StableHlo.unary main_call3_c_1 main_call3_v8 ((broadcastInDim S1x1 ![1] Facts₀.bcast_S1_S1x1_1) : (⟨S1, .i32⟩ : BufTy).Contents (Elt F) → (⟨S1x1, .i32⟩ : BufTy).Contents (Elt F)),
    StableHlo.unary main_call3_v8 main_call3_v9 ((broadcastInDim S16777216x1 ![0, 1] Facts₀.bcast_S1x1_S16777216x1_0_1) : (⟨S1x1, .i32⟩ : BufTy).Contents (Elt F) → (⟨S16777216x1, .i32⟩ : BufTy).Contents (Elt F)),
    StableHlo.binary main_call3_v5 main_call3_v9 main_call3_v10 ((cmpi .sle) : (⟨S16777216x1, .i32⟩ : BufTy).Contents (Elt F) → (⟨S16777216x1, .i32⟩ : BufTy).Contents (Elt F) → (⟨S16777216x1, .i1⟩ : BufTy).Contents (Elt F)),
    StableHlo.binary main_call3_v7 main_call3_v10 main_call3_v11 (andi : (⟨S16777216x1, .i1⟩ : BufTy).Contents (Elt F) → (⟨S16777216x1, .i1⟩ : BufTy).Contents (Elt F) → (⟨S16777216x1, .i1⟩ : BufTy).Contents (Elt F)),
    StableHlo.nullary main_call3_c_3 (constantI S_ 1 1#1),
    StableHlo.binary main_call3_v11 main_call3_c_3 main_call3_v12 ((fun x v => Host.reduce IntOp.andi x v Facts₀.reducesTo_S16777216x1_S16777216_d1 Facts₀.h_S_) : (⟨S16777216x1, .i1⟩ : BufTy).Contents (Elt F) → (⟨S_, .i1⟩ : BufTy).Contents (Elt F) → (⟨S16777216, .i1⟩ : BufTy).Contents (Elt F)),
    StableHlo.binary main_v1 main_call3_v5 main_call3_v13 ((fun x i => Host.gather Cert.KernelIdeal.gather_S16777216_S16777216x1_S16777216_n_0_n_n_0_1_1 x i) : (⟨S16777216, .f32⟩ : BufTy).Contents (Elt F) → (⟨S16777216x1, .i32⟩ : BufTy).Contents (Elt F) → (⟨S16777216, .f32⟩ : BufTy).Contents (Elt F)),
    StableHlo.nullary main_call3_cst (constant S_ .f32 0x7FC00000#32),
    StableHlo.unary main_call3_cst main_call3_v14 ((broadcastInDim S16777216 ![] Facts₀.bcast_S_S16777216) : (⟨S_, .f32⟩ : BufTy).Contents (Elt F) → (⟨S16777216, .f32⟩ : BufTy).Contents (Elt F)),
    StableHlo.ternary main_call3_v12 main_call3_v13 main_call3_v14 main_v13 (select : (⟨S16777216, .i1⟩ : BufTy).Contents (Elt F) → (⟨S16777216, .f32⟩ : BufTy).Contents (Elt F) → (⟨S16777216, .f32⟩ : BufTy).Contents (Elt F) → (⟨S16777216, .f32⟩ : BufTy).Contents (Elt F)) ]

set_option maxHeartbeats 4000000 in
theorem takeOps4_eq : (hostOps1_4 (F := F)) = takeOps4 := by
  show ([ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S16777216, .i32⟩) (broadcastInDim S16777216 ![] Facts₀.bcast_S_S16777216),
    StableHlo.TRef.binary (.of main_v9 : StableHlo.TRef sig ⟨S16777216, .i32⟩) (.of main_call3_v0 : StableHlo.TRef sig ⟨S16777216, .i32⟩) (.of main_call3_v1 : StableHlo.TRef sig ⟨S16777216, .i1⟩) (cmpi .slt),
    StableHlo.TRef.nullary (.of main_call3_c_0 : StableHlo.TRef sig ⟨S_, .i32⟩) (constantI S_ 32 16777216#32),
    StableHlo.TRef.unary (.of main_call3_c_0 : StableHlo.TRef sig ⟨S_, .i32⟩) (.of main_call3_v2 : StableHlo.TRef sig ⟨S16777216, .i32⟩) (broadcastInDim S16777216 ![] Facts₀.bcast_S_S16777216),
    StableHlo.TRef.binary (.of main_v9 : StableHlo.TRef sig ⟨S16777216, .i32⟩) (.of main_call3_v2 : StableHlo.TRef sig ⟨S16777216, .i32⟩) (.of main_call3_v3 : StableHlo.TRef sig ⟨S16777216, .i32⟩) addi,
    StableHlo.TRef.ternary (.of main_call3_v1 : StableHlo.TRef sig ⟨S16777216, .i1⟩) (.of main_call3_v3 : StableHlo.TRef sig ⟨S16777216, .i32⟩) (.of main_v9 : StableHlo.TRef sig ⟨S16777216, .i32⟩) (.of main_call3_v4 : StableHlo.TRef sig ⟨S16777216, .i32⟩) select,
    StableHlo.TRef.unary main_call3_call0.v0 (.of main_call3_v5 : StableHlo.TRef sig ⟨S16777216x1, .i32⟩) (broadcastInDim S16777216x1 ![0] Facts₀.bcast_S16777216_S16777216x1_0),
    StableHlo.TRef.nullary (.of main_call3_c_1 : StableHlo.TRef sig ⟨S1, .i32⟩) (constantI S1 32 16777215#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S16777216x1, .i32⟩) (broadcastInDim S16777216x1 ![] Facts₀.bcast_S_S16777216x1),
    StableHlo.TRef.binary (.of main_call3_v5 : StableHlo.TRef sig ⟨S16777216x1, .i32⟩) (.of main_call3_v6 : StableHlo.TRef sig ⟨S16777216x1, .i32⟩) (.of main_call3_v7 : StableHlo.TRef sig ⟨S16777216x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] Facts₀.bcast_S1_S1x1_1),
    StableHlo.TRef.unary (.of main_call3_v8 : StableHlo.TRef sig ⟨S1x1, .i32⟩) (.of main_call3_v9 : StableHlo.TRef sig ⟨S16777216x1, .i32⟩) (broadcastInDim S16777216x1 ![0, 1] Facts₀.bcast_S1x1_S16777216x1_0_1),
    StableHlo.TRef.binary (.of main_call3_v5 : StableHlo.TRef sig ⟨S16777216x1, .i32⟩) (.of main_call3_v9 : StableHlo.TRef sig ⟨S16777216x1, .i32⟩) (.of main_call3_v10 : StableHlo.TRef sig ⟨S16777216x1, .i1⟩) (cmpi .sle),
    StableHlo.TRef.binary (.of main_call3_v7 : StableHlo.TRef sig ⟨S16777216x1, .i1⟩) (.of main_call3_v10 : StableHlo.TRef sig ⟨S16777216x1, .i1⟩) (.of main_call3_v11 : StableHlo.TRef sig ⟨S16777216x1, .i1⟩) andi,
    StableHlo.TRef.nullary (.of main_call3_c_3 : StableHlo.TRef sig ⟨S_, .i1⟩) (constantI S_ 1 1#1),
    StableHlo.TRef.binary (.of main_call3_v11 : StableHlo.TRef sig ⟨S16777216x1, .i1⟩) (.of main_call3_c_3 : StableHlo.TRef sig ⟨S_, .i1⟩) (.of main_call3_v12 : StableHlo.TRef sig ⟨S16777216, .i1⟩) (fun x v => Host.reduce IntOp.andi x v Facts₀.reducesTo_S16777216x1_S16777216_d1 Facts₀.h_S_),
    StableHlo.TRef.binary (.of main_v1 : StableHlo.TRef sig ⟨S16777216, .f32⟩) (.of main_call3_v5 : StableHlo.TRef sig ⟨S16777216x1, .i32⟩) (.of main_call3_v13 : StableHlo.TRef sig ⟨S16777216, .f32⟩) (fun x i => Host.gather Cert.KernelIdeal.gather_S16777216_S16777216x1_S16777216_n_0_n_n_0_1_1 x i),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v14 : StableHlo.TRef sig ⟨S16777216, .f32⟩) (broadcastInDim S16777216 ![] Facts₀.bcast_S_S16777216),
    StableHlo.TRef.ternary (.of main_call3_v12 : StableHlo.TRef sig ⟨S16777216, .i1⟩) (.of main_call3_v13 : StableHlo.TRef sig ⟨S16777216, .f32⟩) (.of main_call3_v14 : StableHlo.TRef sig ⟨S16777216, .f32⟩) (.of main_v13 : StableHlo.TRef sig ⟨S16777216, .f32⟩) select ] : List (HloOp τ sig (Elt F))) = _
  rw [take4_reduce_op]
  rfl

set_option maxHeartbeats 4000000 in
/-- Take 4 writes the take of the flat image at its index vector. -/
theorem take4_result (W : Valuation τ sig (Elt F)) :
    StableHlo.after (hostOps1_4 (F := F)) W (Proc.devRef .tc main_v13)
      = takeTerm (F := F) (W (Proc.devRef .tc main_v1)) (W (Proc.devRef .tc main_v9)) := by
  rw [takeOps4_eq]
  generalize hX : takeTerm (F := F) (W (Proc.devRef .tc main_v1)) (W (Proc.devRef .tc main_v9)) = X
  after_results_simp
  rw [← hX]
  rfl

/-! ## Buffers a stretch does not write keep their contents -/

theorem keep_hostOps2_main_v14_0 (W : Valuation τ sig (Elt F)) :
    StableHlo.after (hostOps2 (F := F)) W (Proc.devRef .tc main_v14_0) = W (Proc.devRef .tc main_v14_0) :=
  StableHlo.after_of_forall_not_mem (b := Proc.devRef .tc main_v14_0) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_4_main_v10 (W : Valuation τ sig (Elt F)) :
    StableHlo.after (hostOps1_4 (F := F)) W (Proc.devRef .tc main_v10) = W (Proc.devRef .tc main_v10) :=
  StableHlo.after_of_forall_not_mem (b := Proc.devRef .tc main_v10) _ _ (List.forall_iff_forall_mem.mp (by
    simp only [hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_4_main_v11 (W : Valuation τ sig (Elt F)) :
    StableHlo.after (hostOps1_4 (F := F)) W (Proc.devRef .tc main_v11) = W (Proc.devRef .tc main_v11) :=
  StableHlo.after_of_forall_not_mem (b := Proc.devRef .tc main_v11) _ _ (List.forall_iff_forall_mem.mp (by
    simp only [hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_4_main_v12 (W : Valuation τ sig (Elt F)) :
    StableHlo.after (hostOps1_4 (F := F)) W (Proc.devRef .tc main_v12) = W (Proc.devRef .tc main_v12) :=
  StableHlo.after_of_forall_not_mem (b := Proc.devRef .tc main_v12) _ _ (List.forall_iff_forall_mem.mp (by
    simp only [hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_4_main_v0_1 (W : Valuation τ sig (Elt F)) :
    StableHlo.after (hostOps1_4 (F := F)) W (Proc.devRef .tc main_v0_1) = W (Proc.devRef .tc main_v0_1) :=
  StableHlo.after_of_forall_not_mem (b := Proc.devRef .tc main_v0_1) _ _ (List.forall_iff_forall_mem.mp (by
    simp only [hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_4_main_v0_2 (W : Valuation τ sig (Elt F)) :
    StableHlo.after (hostOps1_4 (F := F)) W (Proc.devRef .tc main_v0_2) = W (Proc.devRef .tc main_v0_2) :=
  StableHlo.after_of_forall_not_mem (b := Proc.devRef .tc main_v0_2) _ _ (List.forall_iff_forall_mem.mp (by
    simp only [hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_4_main_v0_3 (W : Valuation τ sig (Elt F)) :
    StableHlo.after (hostOps1_4 (F := F)) W (Proc.devRef .tc main_v0_3) = W (Proc.devRef .tc main_v0_3) :=
  StableHlo.after_of_forall_not_mem (b := Proc.devRef .tc main_v0_3) _ _ (List.forall_iff_forall_mem.mp (by
    simp only [hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_3_main_v10 (W : Valuation τ sig (Elt F)) :
    StableHlo.after (hostOps1_3 (F := F)) W (Proc.devRef .tc main_v10) = W (Proc.devRef .tc main_v10) :=
  StableHlo.after_of_forall_not_mem (b := Proc.devRef .tc main_v10) _ _ (List.forall_iff_forall_mem.mp (by
    simp only [hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_3_main_v11 (W : Valuation τ sig (Elt F)) :
    StableHlo.after (hostOps1_3 (F := F)) W (Proc.devRef .tc main_v11) = W (Proc.devRef .tc main_v11) :=
  StableHlo.after_of_forall_not_mem (b := Proc.devRef .tc main_v11) _ _ (List.forall_iff_forall_mem.mp (by
    simp only [hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_3_main_v0_1 (W : Valuation τ sig (Elt F)) :
    StableHlo.after (hostOps1_3 (F := F)) W (Proc.devRef .tc main_v0_1) = W (Proc.devRef .tc main_v0_1) :=
  StableHlo.after_of_forall_not_mem (b := Proc.devRef .tc main_v0_1) _ _ (List.forall_iff_forall_mem.mp (by
    simp only [hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_3_main_v0_2 (W : Valuation τ sig (Elt F)) :
    StableHlo.after (hostOps1_3 (F := F)) W (Proc.devRef .tc main_v0_2) = W (Proc.devRef .tc main_v0_2) :=
  StableHlo.after_of_forall_not_mem (b := Proc.devRef .tc main_v0_2) _ _ (List.forall_iff_forall_mem.mp (by
    simp only [hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_3_main_v0_3 (W : Valuation τ sig (Elt F)) :
    StableHlo.after (hostOps1_3 (F := F)) W (Proc.devRef .tc main_v0_3) = W (Proc.devRef .tc main_v0_3) :=
  StableHlo.after_of_forall_not_mem (b := Proc.devRef .tc main_v0_3) _ _ (List.forall_iff_forall_mem.mp (by
    simp only [hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_3_main_v1 (W : Valuation τ sig (Elt F)) :
    StableHlo.after (hostOps1_3 (F := F)) W (Proc.devRef .tc main_v1) = W (Proc.devRef .tc main_v1) :=
  StableHlo.after_of_forall_not_mem (b := Proc.devRef .tc main_v1) _ _ (List.forall_iff_forall_mem.mp (by
    simp only [hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_3_main_v9 (W : Valuation τ sig (Elt F)) :
    StableHlo.after (hostOps1_3 (F := F)) W (Proc.devRef .tc main_v9) = W (Proc.devRef .tc main_v9) :=
  StableHlo.after_of_forall_not_mem (b := Proc.devRef .tc main_v9) _ _ (List.forall_iff_forall_mem.mp (by
    simp only [hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_2_main_v10 (W : Valuation τ sig (Elt F)) :
    StableHlo.after (hostOps1_2 (F := F)) W (Proc.devRef .tc main_v10) = W (Proc.devRef .tc main_v10) :=
  StableHlo.after_of_forall_not_mem (b := Proc.devRef .tc main_v10) _ _ (List.forall_iff_forall_mem.mp (by
    simp only [hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_2_main_v0_1 (W : Valuation τ sig (Elt F)) :
    StableHlo.after (hostOps1_2 (F := F)) W (Proc.devRef .tc main_v0_1) = W (Proc.devRef .tc main_v0_1) :=
  StableHlo.after_of_forall_not_mem (b := Proc.devRef .tc main_v0_1) _ _ (List.forall_iff_forall_mem.mp (by
    simp only [hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_2_main_v0_2 (W : Valuation τ sig (Elt F)) :
    StableHlo.after (hostOps1_2 (F := F)) W (Proc.devRef .tc main_v0_2) = W (Proc.devRef .tc main_v0_2) :=
  StableHlo.after_of_forall_not_mem (b := Proc.devRef .tc main_v0_2) _ _ (List.forall_iff_forall_mem.mp (by
    simp only [hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_2_main_v0_3 (W : Valuation τ sig (Elt F)) :
    StableHlo.after (hostOps1_2 (F := F)) W (Proc.devRef .tc main_v0_3) = W (Proc.devRef .tc main_v0_3) :=
  StableHlo.after_of_forall_not_mem (b := Proc.devRef .tc main_v0_3) _ _ (List.forall_iff_forall_mem.mp (by
    simp only [hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_2_main_v1 (W : Valuation τ sig (Elt F)) :
    StableHlo.after (hostOps1_2 (F := F)) W (Proc.devRef .tc main_v1) = W (Proc.devRef .tc main_v1) :=
  StableHlo.after_of_forall_not_mem (b := Proc.devRef .tc main_v1) _ _ (List.forall_iff_forall_mem.mp (by
    simp only [hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_2_main_v5 (W : Valuation τ sig (Elt F)) :
    StableHlo.after (hostOps1_2 (F := F)) W (Proc.devRef .tc main_v5) = W (Proc.devRef .tc main_v5) :=
  StableHlo.after_of_forall_not_mem (b := Proc.devRef .tc main_v5) _ _ (List.forall_iff_forall_mem.mp (by
    simp only [hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_2_main_v9 (W : Valuation τ sig (Elt F)) :
    StableHlo.after (hostOps1_2 (F := F)) W (Proc.devRef .tc main_v9) = W (Proc.devRef .tc main_v9) :=
  StableHlo.after_of_forall_not_mem (b := Proc.devRef .tc main_v9) _ _ (List.forall_iff_forall_mem.mp (by
    simp only [hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_1_main_v0_1 (W : Valuation τ sig (Elt F)) :
    StableHlo.after (hostOps1_1 (F := F)) W (Proc.devRef .tc main_v0_1) = W (Proc.devRef .tc main_v0_1) :=
  StableHlo.after_of_forall_not_mem (b := Proc.devRef .tc main_v0_1) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_1_main_v0_2 (W : Valuation τ sig (Elt F)) :
    StableHlo.after (hostOps1_1 (F := F)) W (Proc.devRef .tc main_v0_2) = W (Proc.devRef .tc main_v0_2) :=
  StableHlo.after_of_forall_not_mem (b := Proc.devRef .tc main_v0_2) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_1_main_v0_3 (W : Valuation τ sig (Elt F)) :
    StableHlo.after (hostOps1_1 (F := F)) W (Proc.devRef .tc main_v0_3) = W (Proc.devRef .tc main_v0_3) :=
  StableHlo.after_of_forall_not_mem (b := Proc.devRef .tc main_v0_3) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_1_main_v1 (W : Valuation τ sig (Elt F)) :
    StableHlo.after (hostOps1_1 (F := F)) W (Proc.devRef .tc main_v1) = W (Proc.devRef .tc main_v1) :=
  StableHlo.after_of_forall_not_mem (b := Proc.devRef .tc main_v1) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_1_main_v3 (W : Valuation τ sig (Elt F)) :
    StableHlo.after (hostOps1_1 (F := F)) W (Proc.devRef .tc main_v3) = W (Proc.devRef .tc main_v3) :=
  StableHlo.after_of_forall_not_mem (b := Proc.devRef .tc main_v3) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_1_main_v5 (W : Valuation τ sig (Elt F)) :
    StableHlo.after (hostOps1_1 (F := F)) W (Proc.devRef .tc main_v5) = W (Proc.devRef .tc main_v5) :=
  StableHlo.after_of_forall_not_mem (b := Proc.devRef .tc main_v5) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_1_main_v9 (W : Valuation τ sig (Elt F)) :
    StableHlo.after (hostOps1_1 (F := F)) W (Proc.devRef .tc main_v9) = W (Proc.devRef .tc main_v9) :=
  StableHlo.after_of_forall_not_mem (b := Proc.devRef .tc main_v9) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_main_v0_0 (W : Valuation τ sig (Elt F)) :
    StableHlo.after (hostOps1 (F := F)) W (Proc.devRef .tc main_v0_0) = W (Proc.devRef .tc main_v0_0) :=
  StableHlo.after_of_forall_not_mem (b := Proc.devRef .tc main_v0_0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_main_v0_1 (W : Valuation τ sig (Elt F)) :
    StableHlo.after (hostOps1 (F := F)) W (Proc.devRef .tc main_v0_1) = W (Proc.devRef .tc main_v0_1) :=
  StableHlo.after_of_forall_not_mem (b := Proc.devRef .tc main_v0_1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_main_v0_2 (W : Valuation τ sig (Elt F)) :
    StableHlo.after (hostOps1 (F := F)) W (Proc.devRef .tc main_v0_2) = W (Proc.devRef .tc main_v0_2) :=
  StableHlo.after_of_forall_not_mem (b := Proc.devRef .tc main_v0_2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_hostOps1_main_v0_3 (W : Valuation τ sig (Elt F)) :
    StableHlo.after (hostOps1 (F := F)) W (Proc.devRef .tc main_v0_3) = W (Proc.devRef .tc main_v0_3) :=
  StableHlo.after_of_forall_not_mem (b := Proc.devRef .tc main_v0_3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The first host stretch: the flattened image and the three neighbouring index vectors -/

theorem flat_result (W : Valuation τ sig (Elt F)) :
    StableHlo.after (hostOps1 (F := F)) W (Proc.devRef .tc main_v1)
      = (shapeCast S16777216 (W (Proc.devRef .tc main_arg0) : S4096x4096.Idx → Elt F .f32) Facts₀.shapeCasts_S4096x4096_S16777216 : S16777216.Idx → Elt F .f32) := by
  after_results
  try rfl

theorem idxRight_result (W : Valuation τ sig (Elt F)) :
    StableHlo.after (hostOps1 (F := F)) W (Proc.devRef .tc main_v3)
      = addi (W (Proc.devRef .tc main_v0_0)) (broadcastInDim S16777216 ![] Facts₀.bcast_S_S16777216 (constantI S_ 32 1#32)) := by
  after_results
  try rfl

theorem idxDown_result (W : Valuation τ sig (Elt F)) :
    StableHlo.after (hostOps1 (F := F)) W (Proc.devRef .tc main_v5)
      = addi (W (Proc.devRef .tc main_v0_0)) (broadcastInDim S16777216 ![] Facts₀.bcast_S_S16777216 (constantI S_ 32 4096#32)) := by
  after_results
  try rfl

theorem idxDiag_result (W : Valuation τ sig (Elt F)) :
    StableHlo.after (hostOps1 (F := F)) W (Proc.devRef .tc main_v9)
      = addi (addi (W (Proc.devRef .tc main_v0_0)) (broadcastInDim S16777216 ![] Facts₀.bcast_S_S16777216 (constantI S_ 32 4096#32)))
          (broadcastInDim S16777216 ![] Facts₀.bcast_S_S16777216 (constantI S_ 32 1#32)) := by
  after_results
  try rfl

/-! ## The last host stretch: the mask compared against one half -/

theorem maskOut_result (W : Valuation τ sig (Elt F)) :
    StableHlo.after (hostOps2 (F := F)) W (Proc.devRef .tc main_v16)
      = cmpf .ogt (W (Proc.devRef .tc main_v14_1) : S16777216.Idx → Elt F .f32)
          (broadcastInDim S16777216 ![] Facts₀.bcast_S_S16777216 (constant S_ .f32 0x3F000000#32)) := by
  after_results
  try rfl

/-! ## A take read at an entry -/

/-- A fold over an index set of one element is the operation at that element and the start value. -/
theorem fold_fin_one {α : Type} (op : α → α → α) [Std.Commutative op] [Std.Associative op] (b : α) (k : Nat) (hk : k = 1)
    (f : Fin k → α) : (Finset.univ : Finset (Fin k)).fold op b f = op (f ⟨0, by omega⟩) b := by
  subst hk
  rw [Finset.univ_unique, Finset.fold_singleton]
  rfl

/-- An and-reduction over the unit axis of a column, from 1, at entry n: the column's word at (n, 0) and 1. -/
theorem reduce_unit_at (x : S16777216x1.Idx → BitVec 1) (n : Fin 16777216) :
    Host.reduce IntOp.andi x (constantI S_ 1 1#1) Facts₀.reducesTo_S16777216x1_S16777216_d1 Facts₀.h_S_ (ix1 n)
      = IntOp.andi (x (ix2 n (0 : Fin 1))) 1#1 := by
  have h : S16777216x1.Reduces [(1 : Fin 2)] S16777216 := by decide
  rw [Host.reduce_eq_fold_single IntOp.andi x _ _ h Facts₀.h_S_ (ix1 n)]
  refine (fold_fin_one (IntOp.andi (w := 1)) (constantI S_ 1 1#1 (Shape.Idx.first Facts₀.h_S_)) (S16777216x1.size 1) rfl
    (x ∘ h.lift (ix1 n))).trans ?_
  show IntOp.andi (x (h.lift (ix1 n) ⟨0, by decide⟩)) 1#1 = _
  congr 2
  funext a
  apply Fin.ext
  match a with
  | ⟨0, _⟩ => rw [h.lift_val]; unfold Shape.Reduces.liftVal; simp
  | ⟨1, _⟩ => rw [h.lift_val]; unfold Shape.Reduces.liftVal; simp

/-- The wrapped index column at (n, 0) is the wrapped index word of entry n. -/
theorem wrapCol_at (idx : S16777216.Idx → Elt F .i32) (n : Fin 16777216) :
    wrapCol (F := F) idx (ix2 n (0 : Fin 1)) = Bilinear.wrap (idx (ix1 n)) :=
  (broadcastInDim_apply _ Facts₀.bcast_S16777216_S16777216x1_0 _ (ix2 n (0 : Fin 1)) (ix1 n) (fun a => match a with
    | ⟨0, _⟩ => by show n.val = if (16777216 : Nat) = 1 then 0 else n.val; rw [if_neg (by decide)])).trans rfl

/-- A take read at entry n is the take of the index word of entry n. -/
theorem takeTerm_at (flat : S16777216.Idx → Elt F .f32) (idx : S16777216.Idx → Elt F .i32) (n : Fin 16777216) :
    takeTerm (F := F) flat idx (ix1 n) = Bilinear.takeAt flat (idx (ix1 n)) := by
  unfold takeTerm Bilinear.takeAt
  show Scalar.select (Host.reduce IntOp.andi _ (constantI S_ 1 1#1) Facts₀.reducesTo_S16777216x1_S16777216_d1 Facts₀.h_S_ (ix1 n))
    (Host.gather Cert.KernelIdeal.gather_S16777216_S16777216x1_S16777216_n_0_n_n_0_1_1 flat (wrapCol (F := F) idx) (ix1 n)) _ = _
  rw [reduce_unit_at]
  have hg : Host.gather Cert.KernelIdeal.gather_S16777216_S16777216x1_S16777216_n_0_n_n_0_1_1 flat (wrapCol (F := F) idx) (ix1 n)
      = Bilinear.entryAt flat (wrapCol (F := F) idx (ix2 n (0 : Fin 1))) :=
    LibGatherScatterRead.gather_flat_apply (N := 16777216) (M := 16777216) Bilinear.NN_pos
      Cert.KernelIdeal.gather_S16777216_S16777216x1_S16777216_n_0_n_n_0_1_1 rfl rfl rfl rfl rfl rfl rfl flat (wrapCol (F := F) idx) n
  rw [hg]
  show Scalar.select (IntOp.andi (IntOp.andi (IntOp.cmpi .sge (wrapCol (F := F) idx (ix2 n (0 : Fin 1))) 0#32)
      (IntOp.cmpi .sle (wrapCol (F := F) idx (ix2 n (0 : Fin 1))) 16777215#32)) 1#1) _ _ = _
  rw [wrapCol_at]
  rfl

end Cert.KernelIdeal.Hand

end
-- ==== Proof.Bridge.lean ====
/-
  The first program's two results as functions of its arguments.

  Following the fold of the program's segments back from the two result buffers: the blended values are the second
  kernel's first output, a function of the four taken vectors, the two fraction vectors and the mask; each of those is
  reached through the host stretches that do not write it, back to the take that wrote it or to the first kernel's
  output.  The result is one function of the coordinate array and the flattened image, entry by entry.
-/
import proofs.«108337_j6347961663932_1_alg».proof.Proof.KRun
import proofs.«108337_j6347961663932_1_alg».proof.Proof.Region0
import proofs.«108337_j6347961663932_1_alg».proof.Proof.Region1
import proofs.«108337_j6347961663932_1_alg».proof.Proof.Host

set_option maxRecDepth 16384

noncomputable section

namespace Cert.KernelIdeal.Hand

open Idealize.ShloMosaic Idealize.ShloMosaic.TcCoe Idealize.SL.Sem Idealize.ShloMosaic.ValueIdx
open Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The coordinate array as launched. -/
abbrev coords (c : Dev nD) : S2x16777216.Idx → Elt F .f32 := m ((c.tc : Thread nD τ).loc main_arg1)
/-- The image as launched, flattened. -/
abbrev flatImg (c : Dev nD) : S16777216.Idx → Elt F .f32 :=
  shapeCast S16777216 (m ((c.tc : Thread nD τ).loc main_arg0) : S4096x4096.Idx → Elt F .f32) Facts₀.shapeCasts_S4096x4096_S16777216

/-- The three neighbouring index vectors. -/
abbrev idxRight (c : Dev nD) : S16777216.Idx → Elt F .i32 :=
  addi (idxArr (coords m c)) (broadcastInDim S16777216 ![] Facts₀.bcast_S_S16777216 (constantI S_ 32 1#32))
abbrev idxDown (c : Dev nD) : S16777216.Idx → Elt F .i32 :=
  addi (idxArr (coords m c)) (broadcastInDim S16777216 ![] Facts₀.bcast_S_S16777216 (constantI S_ 32 4096#32))
abbrev idxDiag (c : Dev nD) : S16777216.Idx → Elt F .i32 :=
  addi (addi (idxArr (coords m c)) (broadcastInDim S16777216 ![] Facts₀.bcast_S_S16777216 (constantI S_ 32 4096#32)))
    (broadcastInDim S16777216 ![] Facts₀.bcast_S_S16777216 (constantI S_ 32 1#32))

/-! ## After the first kernel -/

theorem W1_image (c : Dev nD) : W1 m ρ c (Proc.devRef .tc main_arg0) = m ((c.tc : Thread nD τ).loc main_arg0) :=
  (W1_of_ne m ρ c main_arg0 (by decide)).trans rfl

theorem W1_idx (c : Dev nD) : W1 m ρ c (Proc.devRef .tc main_v0_0) = idxArr (coords m c) :=
  (W1_arr m ρ c 1).trans (idx_final (V0 m ρ) c)
theorem W1_fx (c : Dev nD) : W1 m ρ c (Proc.devRef .tc main_v0_1) = fxArr (coords m c) :=
  (W1_arr m ρ c 2).trans (fx_final (V0 m ρ) c)
theorem W1_fy (c : Dev nD) : W1 m ρ c (Proc.devRef .tc main_v0_2) = fyArr (coords m c) :=
  (W1_arr m ρ c 3).trans (fy_final (V0 m ρ) c)
theorem W1_mask (c : Dev nD) : W1 m ρ c (Proc.devRef .tc main_v0_3) = maskArr (coords m c) :=
  (W1_arr m ρ c 4).trans (mask_final (V0 m ρ) c)

/-! ## After the first host stretch -/

theorem W2_flat (c : Dev nD) : W2 m ρ c (Proc.devRef .tc main_v1) = flatImg m c :=
  (flat_result (W1 m ρ c)).trans (congrArg (fun x => shapeCast S16777216 (x : S4096x4096.Idx → Elt F .f32) Facts₀.shapeCasts_S4096x4096_S16777216) (W1_image m ρ c))
theorem W2_idx (c : Dev nD) : W2 m ρ c (Proc.devRef .tc main_v0_0) = idxArr (coords m c) :=
  (keep_hostOps1_main_v0_0 (W1 m ρ c)).trans (W1_idx m ρ c)
theorem W2_idxRight (c : Dev nD) : W2 m ρ c (Proc.devRef .tc main_v3) = idxRight m c :=
  (idxRight_result (W1 m ρ c)).trans (congrArg (fun x => addi (x : S16777216.Idx → Elt F .i32) (broadcastInDim S16777216 ![] Facts₀.bcast_S_S16777216 (constantI S_ 32 1#32))) (W1_idx m ρ c))
theorem W2_idxDown (c : Dev nD) : W2 m ρ c (Proc.devRef .tc main_v5) = idxDown m c :=
  (idxDown_result (W1 m ρ c)).trans (congrArg (fun x => addi (x : S16777216.Idx → Elt F .i32) (broadcastInDim S16777216 ![] Facts₀.bcast_S_S16777216 (constantI S_ 32 4096#32))) (W1_idx m ρ c))
theorem W2_idxDiag (c : Dev nD) : W2 m ρ c (Proc.devRef .tc main_v9) = idxDiag m c :=
  (idxDiag_result (W1 m ρ c)).trans (congrArg (fun x => addi (addi (x : S16777216.Idx → Elt F .i32) (broadcastInDim S16777216 ![] Facts₀.bcast_S_S16777216 (constantI S_ 32 4096#32))) (broadcastInDim S16777216 ![] Facts₀.bcast_S_S16777216 (constantI S_ 32 1#32))) (W1_idx m ρ c))
theorem W2_fx (c : Dev nD) : W2 m ρ c (Proc.devRef .tc main_v0_1) = fxArr (coords m c) :=
  (keep_hostOps1_main_v0_1 (W1 m ρ c)).trans (W1_fx m ρ c)
theorem W2_fy (c : Dev nD) : W2 m ρ c (Proc.devRef .tc main_v0_2) = fyArr (coords m c) :=
  (keep_hostOps1_main_v0_2 (W1 m ρ c)).trans (W1_fy m ρ c)
theorem W2_mask (c : Dev nD) : W2 m ρ c (Proc.devRef .tc main_v0_3) = maskArr (coords m c) :=
  (keep_hostOps1_main_v0_3 (W1 m ρ c)).trans (W1_mask m ρ c)

/-! ## The four takes -/

theorem W3_take (c : Dev nD) : W3 m ρ c (Proc.devRef .tc main_v10) = takeTerm (flatImg m c) (idxArr (coords m c)) := by
  refine (take1_result (W2 m ρ c)).trans ?_
  rw [W2_flat, W2_idx]

theorem W3_flat (c : Dev nD) : W3 m ρ c (Proc.devRef .tc main_v1) = flatImg m c :=
  (keep_hostOps1_1_main_v1 (W2 m ρ c)).trans (W2_flat m ρ c)

theorem W4_take (c : Dev nD) : W4 m ρ c (Proc.devRef .tc main_v11) = takeTerm (flatImg m c) (idxRight m c) := by
  refine (take2_result (W3 m ρ c)).trans ?_
  rw [W3_flat, show W3 m ρ c (Proc.devRef .tc main_v3) = idxRight m c from
    (keep_hostOps1_1_main_v3 (W2 m ρ c)).trans (W2_idxRight m ρ c)]

theorem W4_flat (c : Dev nD) : W4 m ρ c (Proc.devRef .tc main_v1) = flatImg m c :=
  (keep_hostOps1_2_main_v1 (W3 m ρ c)).trans (W3_flat m ρ c)

theorem W5_take (c : Dev nD) : W5 m ρ c (Proc.devRef .tc main_v12) = takeTerm (flatImg m c) (idxDown m c) := by
  refine (take3_result (W4 m ρ c)).trans ?_
  rw [W4_flat, show W4 m ρ c (Proc.devRef .tc main_v5) = idxDown m c from
    (keep_hostOps1_2_main_v5 (W3 m ρ c)).trans ((keep_hostOps1_1_main_v5 (W2 m ρ c)).trans (W2_idxDown m ρ c))]

theorem W5_flat (c : Dev nD) : W5 m ρ c (Proc.devRef .tc main_v1) = flatImg m c :=
  (keep_hostOps1_3_main_v1 (W4 m ρ c)).trans (W4_flat m ρ c)

theorem W6_take (c : Dev nD) : W6 m ρ c (Proc.devRef .tc main_v13) = takeTerm (flatImg m c) (idxDiag m c) := by
  refine (take4_result (W5 m ρ c)).trans ?_
  rw [W5_flat, show W5 m ρ c (Proc.devRef .tc main_v9) = idxDiag m c from
    (keep_hostOps1_3_main_v9 (W4 m ρ c)).trans ((keep_hostOps1_2_main_v9 (W3 m ρ c)).trans
      ((keep_hostOps1_1_main_v9 (W2 m ρ c)).trans (W2_idxDiag m ρ c)))]

/-! ## What the second kernel is given -/

theorem V6_take0 (c : Dev nD) : V6 m ρ c main_v10 = takeTerm (flatImg m c) (idxArr (coords m c)) :=
  (keep_hostOps1_4_main_v10 (W5 m ρ c)).trans ((keep_hostOps1_3_main_v10 (W4 m ρ c)).trans
    ((keep_hostOps1_2_main_v10 (W3 m ρ c)).trans (W3_take m ρ c)))
theorem V6_take1 (c : Dev nD) : V6 m ρ c main_v11 = takeTerm (flatImg m c) (idxRight m c) :=
  (keep_hostOps1_4_main_v11 (W5 m ρ c)).trans ((keep_hostOps1_3_main_v11 (W4 m ρ c)).trans (W4_take m ρ c))
theorem V6_take2 (c : Dev nD) : V6 m ρ c main_v12 = takeTerm (flatImg m c) (idxDown m c) :=
  (keep_hostOps1_4_main_v12 (W5 m ρ c)).trans (W5_take m ρ c)
theorem V6_take3 (c : Dev nD) : V6 m ρ c main_v13 = takeTerm (flatImg m c) (idxDiag m c) :=
  W6_take m ρ c
theorem V6_fx (c : Dev nD) : V6 m ρ c main_v0_1 = fxArr (coords m c) :=
  (keep_hostOps1_4_main_v0_1 (W5 m ρ c)).trans ((keep_hostOps1_3_main_v0_1 (W4 m ρ c)).trans
    ((keep_hostOps1_2_main_v0_1 (W3 m ρ c)).trans ((keep_hostOps1_1_main_v0_1 (W2 m ρ c)).trans (W2_fx m ρ c))))
theorem V6_fy (c : Dev nD) : V6 m ρ c main_v0_2 = fyArr (coords m c) :=
  (keep_hostOps1_4_main_v0_2 (W5 m ρ c)).trans ((keep_hostOps1_3_main_v0_2 (W4 m ρ c)).trans
    ((keep_hostOps1_2_main_v0_2 (W3 m ρ c)).trans ((keep_hostOps1_1_main_v0_2 (W2 m ρ c)).trans (W2_fy m ρ c))))
theorem V6_mask (c : Dev nD) : V6 m ρ c main_v0_3 = maskArr (coords m c) :=
  (keep_hostOps1_4_main_v0_3 (W5 m ρ c)).trans ((keep_hostOps1_3_main_v0_3 (W4 m ρ c)).trans
    ((keep_hostOps1_2_main_v0_3 (W3 m ρ c)).trans ((keep_hostOps1_1_main_v0_3 (W2 m ρ c)).trans (W2_mask m ρ c))))

/-! ## The two results -/

/-- The blended values: one function of the coordinate array and the flattened image. -/
def valuesArr (c : Dev nD) : S16777216.Idx → Elt F .f32 :=
  blendArr (takeTerm (flatImg m c) (idxArr (coords m c))) (takeTerm (flatImg m c) (idxRight m c))
    (takeTerm (flatImg m c) (idxDown m c)) (takeTerm (flatImg m c) (idxDiag m c))
    (fxArr (coords m c)) (fyArr (coords m c)) (maskArr (coords m c))

/-- The validity mask. -/
def maskOutArr (c : Dev nD) : S16777216.Idx → Elt F .i1 :=
  cmpf .ogt (maskArr (coords m c)) (broadcastInDim S16777216 ![] Facts₀.bcast_S_S16777216 (constant S_ .f32 0x3F000000#32))

theorem W8_values (c : Dev nD) : W8 m ρ c (Proc.devRef .tc main_v14_0) = valuesArr m c := by
  refine (keep_hostOps2_main_v14_0 (W7 m ρ c)).trans ?_
  refine (W7_arr m ρ c 7).trans ?_
  refine (blend_final (V6 m ρ) c).trans ?_
  unfold valuesArr
  rw [V6_take0, V6_take1, V6_take2, V6_take3, V6_fx, V6_fy, V6_mask]

theorem W8_maskOut (c : Dev nD) : W8 m ρ c (Proc.devRef .tc main_v16) = maskOutArr m c := by
  refine (maskOut_result (W7 m ρ c)).trans ?_
  unfold maskOutArr
  have h : (W7 m ρ c (Proc.devRef .tc main_v14_1) : S16777216.Idx → Elt F .f32) = maskArr (coords m c) :=
    (W7_arr m ρ c 8).trans ((maskCopy_final (V6 m ρ) c).trans (V6_mask m ρ c))
  rw [h]

/-- The whole run with its results named. -/
theorem run_values : θ_run defs (onTc (τ := τ) (main (F := F))) ⟨m, fun _ => 0, ρ⟩ (fun r => ∀ c : Dev nD,
      r.2.mem ((c.tc : Thread nD τ).loc main_v14_0) = valuesArr m c
      ∧ r.2.mem ((c.tc : Thread nD τ).loc main_v16) = maskOutArr m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (W8_values m ρ c), (h c).2.1.trans (W8_maskOut m ρ c), (h c).2.2.1, (h c).2.2.2⟩)
    (run_fold m ρ)

/-! ## The results at one query point -/

theorem valuesArr_at (c : Dev nD) (n : Fin 16777216) :
    valuesArr m c (ix1 n) = Bilinear.kernelLane (flatImg m c) (coords m c (ix2 0 n)) (coords m c (ix2 1 n)) := by
  unfold valuesArr blendArr
  show Bilinear.blend _ _ (takeTerm (flatImg m c) (idxArr (coords m c)) (ix1 n)) (takeTerm (flatImg m c) (idxRight m c) (ix1 n))
    (takeTerm (flatImg m c) (idxDown m c) (ix1 n)) (takeTerm (flatImg m c) (idxDiag m c) (ix1 n)) _ = _
  rw [takeTerm_at, takeTerm_at, takeTerm_at, takeTerm_at]
  rfl

theorem maskOutArr_at (c : Dev nD) (n : Fin 16777216) :
    maskOutArr m c (ix1 n) = Bilinear.kernelMask (coords m c (ix2 0 n)) (coords m c (ix2 1 n)) := rfl

end Cert.KernelIdeal.Hand

end
-- ==== Proof.Ref.lean ====
/-
  The reference program read at one query point.

  The reference slices the two coordinate rows out of the 2 × 16777216 array, floors them, forms the validity bit,
  clamps the four corner coordinates into [0, 4095], gathers the flattened image at the four flat indices y·4096 + x
  (negative index words wrapped, the gather clamping), blends the four entries with the weights
  (x₁ − x)(y₁ − y), (x − x₀)(y₁ − y), (x₁ − x)(y − y₀), (x − x₀)(y − y₀), and keeps the blend where the point is
  valid, zero elsewhere.  Read at entry n, all of it is a function of the two coordinates (x, y) of point n and of
  the flattened image.
-/
import proofs.«108337_j6347961663932_1_alg».proof.Proof.Gen.ReferenceIdeal.Read
import proofs.«108337_j6347961663932_1_alg».proof.Proof.Lane
import Idealize.ShloMosaic.Lib.Pipeline.Value
import Idealize.ShloMosaic.Lib.ValueIdx

set_option maxRecDepth 16384

noncomputable section

namespace Cert.ReferenceIdeal.Hand

open Idealize.ShloMosaic Idealize.ShloMosaic.TcCoe Idealize.SL.Sem Idealize.ShloMosaic.ValueIdx LibGatherScatterRead
open Cert.ReferenceIdeal Cert.ReferenceIdeal.Read

variable {F : FTy → Type} [FloatOps F]

/-- Entry n of the sliced and reshaped first row is the x coordinate of point n. -/
theorem xrow_at (x1 : (⟨S2x16777216, .f32⟩ : BufTy).Contents (Elt F)) (n : Fin 16777216) :
    val_main_v1 (F := F) x1 (ix1 n) = x1 (ix2 0 n) := by
  rw [val_main_v1_apply, val_main_v0_apply]
  congr 1
  funext a
  apply Fin.ext
  match a with
  | ⟨0, _⟩ => rfl
  | ⟨1, _⟩ => show n.val % 16777216 = n.val; exact Nat.mod_eq_of_lt n.isLt

/-- Entry n of the sliced and reshaped second row is the y coordinate of point n. -/
theorem yrow_at (x1 : (⟨S2x16777216, .f32⟩ : BufTy).Contents (Elt F)) (n : Fin 16777216) :
    val_main_v3 (F := F) x1 (ix1 n) = x1 (ix2 1 n) := by
  rw [val_main_v3_apply, val_main_v2_apply]
  congr 1
  funext a
  apply Fin.ext
  match a with
  | ⟨0, _⟩ => rfl
  | ⟨1, _⟩ => show n.val % 16777216 = n.val; exact Nat.mod_eq_of_lt n.isLt

/-- A gather of the flattened image by a column of index words, read at entry n. -/
theorem gather_at (flat : S16777216.Idx → Elt F .f32) (col : S16777216x1.Idx → Elt F .i32) (n : Fin 16777216) :
    Host.gather gather_S16777216_S16777216x1_S16777216_n_0_n_n_0_1_1 flat col (ix1 n)
      = Bilinear.entryAt flat (col (ix2 n (0 : Fin 1))) :=
  gather_flat_apply (N := 16777216) (M := 16777216) Bilinear.NN_pos
    gather_S16777216_S16777216x1_S16777216_n_0_n_n_0_1_1 rfl rfl rfl rfl rfl rfl rfl flat col n

/-- The column broadcast of an index vector read at (n, 0) is entry n. -/
theorem col_at (v : S16777216.Idx → Elt F .i32) (n : Fin 16777216) :
    broadcastInDim S16777216x1 ![0] Facts₀.bcast_S16777216_S16777216x1_0 v (ix2 n (0 : Fin 1)) = v (ix1 n) :=
  broadcastInDim_apply _ Facts₀.bcast_S16777216_S16777216x1_0 v (ix2 n (0 : Fin 1)) (ix1 n) (fun a => match a with
    | ⟨0, _⟩ => by show n.val = if (16777216 : Nat) = 1 then 0 else n.val; rw [if_neg (by decide)])

/-- The four corner index words at a query point, in terms of its coordinates. -/
theorem idx00_at (x1 : (⟨S2x16777216, .f32⟩ : BufTy).Contents (Elt F)) (n : Fin 16777216) :
    val_main_v37 (F := F) x1 (ix1 n) = Bilinear.wrap (Bilinear.refIdx
      (FloatOps.hostUnary .floor (x1 (ix2 1 n))) (FloatOps.hostUnary .floor (x1 (ix2 0 n)))) := by
  simp only [val_main_v4_apply, val_main_cst_apply, val_main_v6_apply, val_main_v7_apply, val_main_cst_0_apply, val_main_v9_apply, val_main_cst_1_apply, val_main_v11_apply, val_main_cst_2_apply, val_main_v13_apply, val_main_v14_apply, val_main_cst_3_apply, val_main_v16_apply, val_main_v17_apply, val_main_cst_4_apply, val_main_v19_apply, val_main_v20_apply, val_main_c_apply, val_main_c_5_apply, val_main_call0_v0_apply, val_main_call0_v2_apply, val_main_call0_v3_apply, val_main_v21_apply, val_main_v22_apply, val_main_c_6_apply, val_main_c_7_apply, val_main_call1_v0_apply, val_main_call1_v2_apply, val_main_call1_v3_apply, val_main_v23_apply, val_main_v24_apply, val_main_c_8_apply, val_main_c_9_apply, val_main_call2_v0_apply, val_main_call2_v2_apply, val_main_call2_v3_apply, val_main_v25_apply, val_main_v26_apply, val_main_c_10_apply, val_main_c_11_apply, val_main_call3_v0_apply, val_main_call3_v2_apply, val_main_call3_v3_apply, val_main_v27_apply, val_main_v28_apply, val_main_c_12_apply, val_main_v31_apply, val_main_v32_apply, val_main_c_13_apply, val_main_v34_apply, val_main_c_14_apply, val_main_v36_apply, val_main_v37_apply, val_main_c_15_apply, val_main_v41_apply, val_main_v42_apply, val_main_c_16_apply, val_main_v44_apply, val_main_c_17_apply, val_main_v46_apply, val_main_v47_apply, val_main_c_18_apply, val_main_v51_apply, val_main_v52_apply, val_main_c_19_apply, val_main_v54_apply, val_main_c_20_apply, val_main_v56_apply, val_main_v57_apply, val_main_c_21_apply, val_main_v61_apply, val_main_v62_apply, val_main_c_22_apply, val_main_v64_apply, val_main_c_23_apply, val_main_v66_apply, val_main_v67_apply, val_main_v70_apply, val_main_v71_apply, val_main_v72_apply, val_main_v73_apply, val_main_v74_apply, val_main_v75_apply, val_main_v76_apply, val_main_v77_apply, val_main_v78_apply, val_main_v79_apply, val_main_v80_apply, val_main_v81_apply, val_main_v82_apply, val_main_v83_apply, val_main_v84_apply, val_main_cst_24_apply, val_main_call4_v0_apply, val_main_v85_apply]
  rw [xrow_at, yrow_at]
  rfl

theorem idx10_at (x1 : (⟨S2x16777216, .f32⟩ : BufTy).Contents (Elt F)) (n : Fin 16777216) :
    val_main_v47 (F := F) x1 (ix1 n) = Bilinear.wrap (Bilinear.refIdx
      (FloatOps.hostUnary .floor (x1 (ix2 1 n)))
      (FloatOps.addf (FloatOps.hostUnary .floor (x1 (ix2 0 n))) (FloatOps.ofBits .f32 0x3F800000#32))) := by
  simp only [val_main_v4_apply, val_main_cst_apply, val_main_v6_apply, val_main_v7_apply, val_main_cst_0_apply, val_main_v9_apply, val_main_cst_1_apply, val_main_v11_apply, val_main_cst_2_apply, val_main_v13_apply, val_main_v14_apply, val_main_cst_3_apply, val_main_v16_apply, val_main_v17_apply, val_main_cst_4_apply, val_main_v19_apply, val_main_v20_apply, val_main_c_apply, val_main_c_5_apply, val_main_call0_v0_apply, val_main_call0_v2_apply, val_main_call0_v3_apply, val_main_v21_apply, val_main_v22_apply, val_main_c_6_apply, val_main_c_7_apply, val_main_call1_v0_apply, val_main_call1_v2_apply, val_main_call1_v3_apply, val_main_v23_apply, val_main_v24_apply, val_main_c_8_apply, val_main_c_9_apply, val_main_call2_v0_apply, val_main_call2_v2_apply, val_main_call2_v3_apply, val_main_v25_apply, val_main_v26_apply, val_main_c_10_apply, val_main_c_11_apply, val_main_call3_v0_apply, val_main_call3_v2_apply, val_main_call3_v3_apply, val_main_v27_apply, val_main_v28_apply, val_main_c_12_apply, val_main_v31_apply, val_main_v32_apply, val_main_c_13_apply, val_main_v34_apply, val_main_c_14_apply, val_main_v36_apply, val_main_v37_apply, val_main_c_15_apply, val_main_v41_apply, val_main_v42_apply, val_main_c_16_apply, val_main_v44_apply, val_main_c_17_apply, val_main_v46_apply, val_main_v47_apply, val_main_c_18_apply, val_main_v51_apply, val_main_v52_apply, val_main_c_19_apply, val_main_v54_apply, val_main_c_20_apply, val_main_v56_apply, val_main_v57_apply, val_main_c_21_apply, val_main_v61_apply, val_main_v62_apply, val_main_c_22_apply, val_main_v64_apply, val_main_c_23_apply, val_main_v66_apply, val_main_v67_apply, val_main_v70_apply, val_main_v71_apply, val_main_v72_apply, val_main_v73_apply, val_main_v74_apply, val_main_v75_apply, val_main_v76_apply, val_main_v77_apply, val_main_v78_apply, val_main_v79_apply, val_main_v80_apply, val_main_v81_apply, val_main_v82_apply, val_main_v83_apply, val_main_v84_apply, val_main_cst_24_apply, val_main_call4_v0_apply, val_main_v85_apply]
  rw [xrow_at, yrow_at]
  rfl

theorem idx01_at (x1 : (⟨S2x16777216, .f32⟩ : BufTy).Contents (Elt F)) (n : Fin 16777216) :
    val_main_v57 (F := F) x1 (ix1 n) = Bilinear.wrap (Bilinear.refIdx
      (FloatOps.addf (FloatOps.hostUnary .floor (x1 (ix2 1 n))) (FloatOps.ofBits .f32 0x3F800000#32))
      (FloatOps.hostUnary .floor (x1 (ix2 0 n)))) := by
  simp only [val_main_v4_apply, val_main_cst_apply, val_main_v6_apply, val_main_v7_apply, val_main_cst_0_apply, val_main_v9_apply, val_main_cst_1_apply, val_main_v11_apply, val_main_cst_2_apply, val_main_v13_apply, val_main_v14_apply, val_main_cst_3_apply, val_main_v16_apply, val_main_v17_apply, val_main_cst_4_apply, val_main_v19_apply, val_main_v20_apply, val_main_c_apply, val_main_c_5_apply, val_main_call0_v0_apply, val_main_call0_v2_apply, val_main_call0_v3_apply, val_main_v21_apply, val_main_v22_apply, val_main_c_6_apply, val_main_c_7_apply, val_main_call1_v0_apply, val_main_call1_v2_apply, val_main_call1_v3_apply, val_main_v23_apply, val_main_v24_apply, val_main_c_8_apply, val_main_c_9_apply, val_main_call2_v0_apply, val_main_call2_v2_apply, val_main_call2_v3_apply, val_main_v25_apply, val_main_v26_apply, val_main_c_10_apply, val_main_c_11_apply, val_main_call3_v0_apply, val_main_call3_v2_apply, val_main_call3_v3_apply, val_main_v27_apply, val_main_v28_apply, val_main_c_12_apply, val_main_v31_apply, val_main_v32_apply, val_main_c_13_apply, val_main_v34_apply, val_main_c_14_apply, val_main_v36_apply, val_main_v37_apply, val_main_c_15_apply, val_main_v41_apply, val_main_v42_apply, val_main_c_16_apply, val_main_v44_apply, val_main_c_17_apply, val_main_v46_apply, val_main_v47_apply, val_main_c_18_apply, val_main_v51_apply, val_main_v52_apply, val_main_c_19_apply, val_main_v54_apply, val_main_c_20_apply, val_main_v56_apply, val_main_v57_apply, val_main_c_21_apply, val_main_v61_apply, val_main_v62_apply, val_main_c_22_apply, val_main_v64_apply, val_main_c_23_apply, val_main_v66_apply, val_main_v67_apply, val_main_v70_apply, val_main_v71_apply, val_main_v72_apply, val_main_v73_apply, val_main_v74_apply, val_main_v75_apply, val_main_v76_apply, val_main_v77_apply, val_main_v78_apply, val_main_v79_apply, val_main_v80_apply, val_main_v81_apply, val_main_v82_apply, val_main_v83_apply, val_main_v84_apply, val_main_cst_24_apply, val_main_call4_v0_apply, val_main_v85_apply]
  rw [xrow_at, yrow_at]
  rfl

theorem idx11_at (x1 : (⟨S2x16777216, .f32⟩ : BufTy).Contents (Elt F)) (n : Fin 16777216) :
    val_main_v67 (F := F) x1 (ix1 n) = Bilinear.wrap (Bilinear.refIdx
      (FloatOps.addf (FloatOps.hostUnary .floor (x1 (ix2 1 n))) (FloatOps.ofBits .f32 0x3F800000#32))
      (FloatOps.addf (FloatOps.hostUnary .floor (x1 (ix2 0 n))) (FloatOps.ofBits .f32 0x3F800000#32))) := by
  simp only [val_main_v4_apply, val_main_cst_apply, val_main_v6_apply, val_main_v7_apply, val_main_cst_0_apply, val_main_v9_apply, val_main_cst_1_apply, val_main_v11_apply, val_main_cst_2_apply, val_main_v13_apply, val_main_v14_apply, val_main_cst_3_apply, val_main_v16_apply, val_main_v17_apply, val_main_cst_4_apply, val_main_v19_apply, val_main_v20_apply, val_main_c_apply, val_main_c_5_apply, val_main_call0_v0_apply, val_main_call0_v2_apply, val_main_call0_v3_apply, val_main_v21_apply, val_main_v22_apply, val_main_c_6_apply, val_main_c_7_apply, val_main_call1_v0_apply, val_main_call1_v2_apply, val_main_call1_v3_apply, val_main_v23_apply, val_main_v24_apply, val_main_c_8_apply, val_main_c_9_apply, val_main_call2_v0_apply, val_main_call2_v2_apply, val_main_call2_v3_apply, val_main_v25_apply, val_main_v26_apply, val_main_c_10_apply, val_main_c_11_apply, val_main_call3_v0_apply, val_main_call3_v2_apply, val_main_call3_v3_apply, val_main_v27_apply, val_main_v28_apply, val_main_c_12_apply, val_main_v31_apply, val_main_v32_apply, val_main_c_13_apply, val_main_v34_apply, val_main_c_14_apply, val_main_v36_apply, val_main_v37_apply, val_main_c_15_apply, val_main_v41_apply, val_main_v42_apply, val_main_c_16_apply, val_main_v44_apply, val_main_c_17_apply, val_main_v46_apply, val_main_v47_apply, val_main_c_18_apply, val_main_v51_apply, val_main_v52_apply, val_main_c_19_apply, val_main_v54_apply, val_main_c_20_apply, val_main_v56_apply, val_main_v57_apply, val_main_c_21_apply, val_main_v61_apply, val_main_v62_apply, val_main_c_22_apply, val_main_v64_apply, val_main_c_23_apply, val_main_v66_apply, val_main_v67_apply, val_main_v70_apply, val_main_v71_apply, val_main_v72_apply, val_main_v73_apply, val_main_v74_apply, val_main_v75_apply, val_main_v76_apply, val_main_v77_apply, val_main_v78_apply, val_main_v79_apply, val_main_v80_apply, val_main_v81_apply, val_main_v82_apply, val_main_v83_apply, val_main_v84_apply, val_main_cst_24_apply, val_main_call4_v0_apply, val_main_v85_apply]
  rw [xrow_at, yrow_at]
  rfl

/-- The four gathered corner entries at a query point. -/
theorem corner00_at (x0 : (⟨S4096x4096, .f32⟩ : BufTy).Contents (Elt F)) (x1 : (⟨S2x16777216, .f32⟩ : BufTy).Contents (Elt F)) (n : Fin 16777216) :
    val_main_v39 (F := F) x0 x1 (ix1 n) = Bilinear.entryAt (val_main_v29 (F := F) x0) (val_main_v37 (F := F) x1 (ix1 n)) := by
  unfold val_main_v39 val_main_v38
  rw [gather_at, col_at]
theorem corner10_at (x0 : (⟨S4096x4096, .f32⟩ : BufTy).Contents (Elt F)) (x1 : (⟨S2x16777216, .f32⟩ : BufTy).Contents (Elt F)) (n : Fin 16777216) :
    val_main_v49 (F := F) x0 x1 (ix1 n) = Bilinear.entryAt (val_main_v29 (F := F) x0) (val_main_v47 (F := F) x1 (ix1 n)) := by
  unfold val_main_v49 val_main_v48
  rw [gather_at, col_at]
theorem corner01_at (x0 : (⟨S4096x4096, .f32⟩ : BufTy).Contents (Elt F)) (x1 : (⟨S2x16777216, .f32⟩ : BufTy).Contents (Elt F)) (n : Fin 16777216) :
    val_main_v59 (F := F) x0 x1 (ix1 n) = Bilinear.entryAt (val_main_v29 (F := F) x0) (val_main_v57 (F := F) x1 (ix1 n)) := by
  unfold val_main_v59 val_main_v58
  rw [gather_at, col_at]
theorem corner11_at (x0 : (⟨S4096x4096, .f32⟩ : BufTy).Contents (Elt F)) (x1 : (⟨S2x16777216, .f32⟩ : BufTy).Contents (Elt F)) (n : Fin 16777216) :
    val_main_v69 (F := F) x0 x1 (ix1 n) = Bilinear.entryAt (val_main_v29 (F := F) x0) (val_main_v67 (F := F) x1 (ix1 n)) := by
  unfold val_main_v69 val_main_v68
  rw [gather_at, col_at]

/-- The reference's mask at a query point. -/
theorem mask_at (x1 : (⟨S2x16777216, .f32⟩ : BufTy).Contents (Elt F)) (n : Fin 16777216) :
    val_main_v20 (F := F) x1 (ix1 n) = Bilinear.validH (x1 (ix2 0 n)) (x1 (ix2 1 n)) := by
  simp only [val_main_v4_apply, val_main_cst_apply, val_main_v6_apply, val_main_v7_apply, val_main_cst_0_apply, val_main_v9_apply, val_main_cst_1_apply, val_main_v11_apply, val_main_cst_2_apply, val_main_v13_apply, val_main_v14_apply, val_main_cst_3_apply, val_main_v16_apply, val_main_v17_apply, val_main_cst_4_apply, val_main_v19_apply, val_main_v20_apply, val_main_c_apply, val_main_c_5_apply, val_main_call0_v0_apply, val_main_call0_v2_apply, val_main_call0_v3_apply, val_main_v21_apply, val_main_v22_apply, val_main_c_6_apply, val_main_c_7_apply, val_main_call1_v0_apply, val_main_call1_v2_apply, val_main_call1_v3_apply, val_main_v23_apply, val_main_v24_apply, val_main_c_8_apply, val_main_c_9_apply, val_main_call2_v0_apply, val_main_call2_v2_apply, val_main_call2_v3_apply, val_main_v25_apply, val_main_v26_apply, val_main_c_10_apply, val_main_c_11_apply, val_main_call3_v0_apply, val_main_call3_v2_apply, val_main_call3_v3_apply, val_main_v27_apply, val_main_v28_apply, val_main_c_12_apply, val_main_v31_apply, val_main_v32_apply, val_main_c_13_apply, val_main_v34_apply, val_main_c_14_apply, val_main_v36_apply, val_main_v37_apply, val_main_c_15_apply, val_main_v41_apply, val_main_v42_apply, val_main_c_16_apply, val_main_v44_apply, val_main_c_17_apply, val_main_v46_apply, val_main_v47_apply, val_main_c_18_apply, val_main_v51_apply, val_main_v52_apply, val_main_c_19_apply, val_main_v54_apply, val_main_c_20_apply, val_main_v56_apply, val_main_v57_apply, val_main_c_21_apply, val_main_v61_apply, val_main_v62_apply, val_main_c_22_apply, val_main_v64_apply, val_main_c_23_apply, val_main_v66_apply, val_main_v67_apply, val_main_v70_apply, val_main_v71_apply, val_main_v72_apply, val_main_v73_apply, val_main_v74_apply, val_main_v75_apply, val_main_v76_apply, val_main_v77_apply, val_main_v78_apply, val_main_v79_apply, val_main_v80_apply, val_main_v81_apply, val_main_v82_apply, val_main_v83_apply, val_main_v84_apply, val_main_cst_24_apply, val_main_call4_v0_apply, val_main_v85_apply]
  rw [xrow_at, yrow_at]
  rfl

/-- The reference's value at a query point. -/
theorem value_at (x0 : (⟨S4096x4096, .f32⟩ : BufTy).Contents (Elt F)) (x1 : (⟨S2x16777216, .f32⟩ : BufTy).Contents (Elt F)) (n : Fin 16777216) :
    val_main_v85 (F := F) x0 x1 (ix1 n) = Bilinear.refLane (val_main_v29 (F := F) x0) (x1 (ix2 0 n)) (x1 (ix2 1 n)) := by
  rw [val_main_v85_apply, mask_at]
  simp only [val_main_v84_apply, val_main_v83_apply, val_main_v82_apply, val_main_v81_apply, val_main_v80_apply,
    val_main_v79_apply, val_main_v78_apply, val_main_v77_apply, val_main_v76_apply, val_main_v75_apply, val_main_v74_apply,
    val_main_v73_apply, val_main_v72_apply, val_main_v71_apply, val_main_v70_apply, val_main_v9_apply, val_main_v7_apply,
    val_main_v6_apply, val_main_v4_apply]
  rw [corner00_at, corner10_at, corner01_at, corner11_at, idx00_at, idx10_at, idx01_at, idx11_at, xrow_at, yrow_at]
  rfl

end Cert.ReferenceIdeal.Hand

end
-- ==== Proof.LaneIdeal.lean ====
/-
  One query point at the exact instance: the two programs' values agree when the coordinates are real numbers.

  On the extended reals the floor of a real a is the integer ⌊a⌋, a comparison is the order's, a conversion of an
  integer-valued real to a 32-bit integer is that integer (when it fits), and a conversion of a 32-bit integer to a
  float is its value.  A query point with real coordinates (a, b) is valid exactly when 0 ≤ ⌊a⌋ ≤ 4094 and
  0 ≤ ⌊b⌋ ≤ 4094.  Then the clamps of both programs leave the corner coordinates unchanged, the four flat indices are
  ⌊b⌋·4096 + ⌊a⌋ plus 0, 1, 4096 and 4097 in both programs, they lie in [0, 16777215] (so a take is the plain entry),
  and the weight 1 − (a − ⌊a⌋) is (⌊a⌋ + 1) − a.  An invalid point yields zero in both programs.
-/
import proofs.«108337_j6347961663932_1_alg».proof.Proof.Lane
import Idealize.ShloMosaic.PureOps.Ideal.Laws
import Idealize.ShloMosaic.Lib.Affine
import Mathlib.Tactic

noncomputable section

namespace Bilinear

open Idealize.ShloMosaic Idealize.ShloMosaic.ValueIdx LibGatherScatterRead

/-! ## The five constants -/

theorem word_zero : Ideal.ofBits .f32 0x00000000#32 = ((0 : ℝ) : EReal) := by
  simp [Ideal.ofBits, Ideal.ieee]
theorem word_one : Ideal.ofBits .f32 0x3F800000#32 = ((1 : ℝ) : EReal) := by
  simp [Ideal.ofBits, Ideal.ieee, -EReal.coe_mul]; norm_num
theorem word_4095 : Ideal.ofBits .f32 0x457FF000#32 = ((4095 : ℝ) : EReal) := by
  simp [Ideal.ofBits, Ideal.ieee, -EReal.coe_mul]; norm_num
theorem word_4094 : Ideal.ofBits .f32 0x457FE000#32 = ((4094 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num

/-! ## Comparisons -/

theorem cmp_oge_iff (x y : EReal) : Ideal.cmp .oge x y = 1#1 ↔ y ≤ x := by
  unfold Ideal.cmp
  by_cases h : y ≤ x <;> simp [h]
theorem cmp_ole_iff (x y : EReal) : Ideal.cmp .ole x y = 1#1 ↔ x ≤ y := by
  unfold Ideal.cmp
  by_cases h : x ≤ y <;> simp [h]
theorem cmp_ogt_iff (x y : EReal) : Ideal.cmp .ogt x y = 1#1 ↔ y < x := by
  unfold Ideal.cmp
  by_cases h : y < x <;> simp [h]

/-! ## Floors and the validity bit -/

theorem floor_coe (a : ℝ) : FloatOps.floor (F := Ideal) (φ := .f32) ((a : ℝ) : EReal) = (((⌊a⌋ : ℤ) : ℝ) : EReal) := rfl
theorem hfloor_coe (a : ℝ) :
    FloatOps.hostUnary (F := Ideal) (φ := .f32) .floor ((a : ℝ) : EReal) = (((⌊a⌋ : ℤ) : ℝ) : EReal) := rfl

/-- The two programs' validity bits are one function on the extended reals. -/
theorem validH_eq_valid (x y : EReal) : validH (F := Ideal) x y = valid (F := Ideal) x y := rfl

theorem le_int_iff (k : ℤ) (c : ℤ) : (((k : ℤ) : ℝ) : EReal) + ((1 : ℝ) : EReal) ≤ (((c : ℤ) : ℝ) : EReal) ↔ k + 1 ≤ c := by
  rw [← EReal.coe_add, EReal.coe_le_coe_iff]
  exact_mod_cast Iff.rfl
theorem zero_le_int_iff (k : ℤ) : ((0 : ℝ) : EReal) ≤ (((k : ℤ) : ℝ) : EReal) ↔ 0 ≤ k := by
  rw [EReal.coe_le_coe_iff]
  exact_mod_cast Iff.rfl

/-- A query point with real coordinates is valid exactly when both floors are in [0, 4094]. -/
theorem valid_iff (a b : ℝ) : valid (F := Ideal) ((a : ℝ) : EReal) ((b : ℝ) : EReal) = 1#1
    ↔ ((0 ≤ ⌊a⌋ ∧ ⌊a⌋ + 1 ≤ 4095) ∧ 0 ≤ ⌊b⌋) ∧ ⌊b⌋ + 1 ≤ 4095 := by
  unfold valid
  rw [IntOp.andi_eq_one, IntOp.andi_eq_one, IntOp.andi_eq_one]
  simp only [Ideal.cmpf_def, cmp_oge_iff, cmp_ole_iff, floor_coe, Ideal.ofBits_def, word_zero, word_one, word_4095,
    Ideal.addf_def]
  have e : ((4095 : ℝ) : EReal) = (((4095 : ℤ) : ℝ) : EReal) := by norm_num
  rw [e, le_int_iff, le_int_iff, zero_le_int_iff, zero_le_int_iff]

/-! ## Conversions of small integers -/

theorem fptosi_int (k : ℤ) (h0 : 0 ≤ k) (h1 : k ≤ 4095) :
    FloatOps.fptosi (F := Ideal) (φ := .f32) 32 (((k : ℤ) : ℝ) : EReal) = BitVec.ofInt 32 k := by
  show Ideal.fptosi 32 (((k : ℤ) : ℝ) : EReal) = _
  unfold Ideal.fptosi
  rw [Ideal.toIntClamped_coe]
  have hk : (0 : ℝ) ≤ ((k : ℤ) : ℝ) := by exact_mod_cast h0
  rw [if_pos hk, Int.floor_intCast]
  congr 1
  simp only [Nat.reducePow, Nat.reduceSub, Nat.cast_ofNat]
  omega

/-- The first program's clamp into [0, 4094] leaves an integer in that range unchanged. -/
theorem clamp4094_int (k : ℤ) (h0 : 0 ≤ k) (h1 : k ≤ 4094) :
    FloatOps.minimumf (F := Ideal) (φ := .f32) (FloatOps.ofBits .f32 0x457FE000#32)
      (FloatOps.maximumf (FloatOps.ofBits .f32 0x00000000#32) (((k : ℤ) : ℝ) : EReal)) = (((k : ℤ) : ℝ) : EReal) := by
  simp only [Ideal.minimumf_def, Ideal.maximumf_def, Ideal.ofBits_def, word_zero, word_4094]
  have e0 : ((0 : ℝ) : EReal) ≤ (((k : ℤ) : ℝ) : EReal) := (zero_le_int_iff k).mpr h0
  have e1 : (((k : ℤ) : ℝ) : EReal) ≤ ((4094 : ℝ) : EReal) := by
    rw [EReal.coe_le_coe_iff]; exact_mod_cast h1
  rw [max_eq_right e0, min_eq_right e1]

/-- The second program's clamp into [0, 4095] leaves an integer in that range unchanged. -/
theorem clipH_int (k : ℤ) (h0 : 0 ≤ k) (h1 : k ≤ 4095) :
    clipH (F := Ideal) (((k : ℤ) : ℝ) : EReal) = (((k : ℤ) : ℝ) : EReal) := by
  unfold clipH
  simp only [Ideal.minimumf_def, Ideal.maximumf_def]
  show min (((((4095#32 : BitVec 32).toInt : ℤ) : ℝ)) : EReal) (max (((((0#32 : BitVec 32).toInt : ℤ) : ℝ)) : EReal) _) = _
  have t1 : (4095#32 : BitVec 32).toInt = 4095 := by decide
  have t0 : (0#32 : BitVec 32).toInt = 0 := by decide
  rw [t1, t0]
  have e0 : ((((0 : ℤ) : ℝ)) : EReal) ≤ (((k : ℤ) : ℝ) : EReal) := by
    rw [EReal.coe_le_coe_iff]; exact_mod_cast h0
  have e1 : (((k : ℤ) : ℝ) : EReal) ≤ ((((4095 : ℤ) : ℝ)) : EReal) := by
    rw [EReal.coe_le_coe_iff]; exact_mod_cast h1
  rw [max_eq_right e0, min_eq_right e1]

/-! ## The mask as a float, compared against one half, is the bit -/

theorem mask_bit (v : BitVec 1) :
    FloatOps.cmpf (F := Ideal) (φ := .f32) .ogt (FloatOps.sitofp .f32 (v.setWidth 32)) (FloatOps.ofBits .f32 0x3F000000#32) = v := by
  rw [Ideal.cmpf_def, Ideal.ofBits_def, word_half]
  show Ideal.cmp .ogt (((((v.setWidth 32).toInt : ℤ) : ℝ)) : EReal) _ = v
  rcases BitVec.eq_zero_or_eq_one v with rfl | rfl
  · have t : ((0#1 : BitVec 1).setWidth 32).toInt = 0 := by decide
    rw [t]
    have hn : ¬ (((1 / 2 : ℝ)) : EReal) < ((((0 : ℤ) : ℝ)) : EReal) := by
      rw [EReal.coe_lt_coe_iff]; norm_num
    rcases BitVec.eq_zero_or_eq_one (Ideal.cmp .ogt ((((0 : ℤ) : ℝ)) : EReal) (((1 / 2 : ℝ)) : EReal)) with h | h
    · exact h
    · exact absurd ((cmp_ogt_iff _ _).mp h) hn
  · have t : ((1#1 : BitVec 1).setWidth 32).toInt = 1 := by decide
    rw [t]
    exact (cmp_ogt_iff _ _).mpr (by rw [EReal.coe_lt_coe_iff]; norm_num)

/-! ## Index words -/

theorem toInt_ofInt_small (k : ℤ) (h0 : 0 ≤ k) (h1 : k < 2147483648) : (BitVec.ofInt 32 k).toInt = k := by
  rw [BitVec.toInt_ofInt, Int.bmod_def]
  simp only [Nat.reducePow, Nat.cast_ofNat]
  split_ifs <;> omega

/-- y·4096 + x in 32-bit arithmetic is the word of the integer y·4096 + x. -/
theorem idx_words (ky kx : ℤ) :
    IntOp.addi (IntOp.muli (BitVec.ofInt 32 ky) 4096#32) (BitVec.ofInt 32 kx) = BitVec.ofInt 32 (ky * 4096 + kx) := by
  show BitVec.ofInt 32 ky * 4096#32 + BitVec.ofInt 32 kx = _
  rw [BitVec.ofInt_add, BitVec.ofInt_mul]
  rfl

theorem add_word (K d : ℤ) (w : BitVec 32) (hw : w = BitVec.ofInt 32 d) :
    IntOp.addi (BitVec.ofInt 32 K) w = BitVec.ofInt 32 (K + d) := by
  show BitVec.ofInt 32 K + w = _
  rw [BitVec.ofInt_add, hw]

/-- A word of an integer in [0, 16777215] is not wrapped … -/
theorem wrap_small (K : ℤ) (h0 : 0 ≤ K) (h1 : K ≤ 16777215) : wrap (BitVec.ofInt 32 K) = BitVec.ofInt 32 K := by
  unfold wrap
  exact normalise_of_nonneg _ _ (by rw [toInt_ofInt_small K h0 (by omega)]; exact h0)

/-- … and is in range, so a take at it is the plain entry. -/
theorem take_small (flat : (⟨1, ![NN]⟩ : Shape).Idx → Ideal .f32) (K : ℤ) (h0 : 0 ≤ K) (h1 : K ≤ 16777215) :
    takeAt (F := Ideal) flat (BitVec.ofInt 32 K) = entryAt (F := Ideal) flat (BitVec.ofInt 32 K) := by
  unfold takeAt
  rw [wrap_small K h0 h1]
  have ht := toInt_ofInt_small K h0 (by omega)
  have hr : inRange (BitVec.ofInt 32 K) = 1#1 := by
    unfold inRange
    rw [IntOp.andi_eq_one, IntOp.cmpi_sge, IntOp.cmpi_sle, ht]
    have t0 : (0#32 : BitVec 32).toInt = 0 := by decide
    have t1 : (16777215#32 : BitVec 32).toInt = 16777215 := by decide
    rw [t0, t1]
    exact ⟨h0, h1⟩
  rw [hr]
  exact select_one _ _

theorem succ_coe (k : ℤ) :
    FloatOps.addf (F := Ideal) (φ := .f32) (((k : ℤ) : ℝ) : EReal) (FloatOps.ofBits .f32 0x3F800000#32)
      = ((((k + 1 : ℤ)) : ℝ) : EReal) := by
  rw [Ideal.addf_def, Ideal.ofBits_def, word_one, ← EReal.coe_add]
  push_cast
  rfl

/-- The first program's base index at a valid point. -/
theorem cornerIdx_valid (a b : ℝ) (hx0 : 0 ≤ ⌊a⌋) (hx1 : ⌊a⌋ ≤ 4094) (hy0 : 0 ≤ ⌊b⌋) (hy1 : ⌊b⌋ ≤ 4094) :
    cornerIdx (F := Ideal) ((a : ℝ) : EReal) ((b : ℝ) : EReal) = BitVec.ofInt 32 (⌊b⌋ * 4096 + ⌊a⌋) := by
  unfold cornerIdx
  rw [floor_coe, floor_coe, clamp4094_int _ hy0 hy1, clamp4094_int _ hx0 hx1,
    fptosi_int _ hy0 (by omega), fptosi_int _ hx0 (by omega), idx_words]

/-- The second program's index of an integer corner inside the image. -/
theorem refIdx_int (ky kx : ℤ) (hy0 : 0 ≤ ky) (hy1 : ky ≤ 4095) (hx0 : 0 ≤ kx) (hx1 : kx ≤ 4095) :
    refIdx (F := Ideal) (((ky : ℤ) : ℝ) : EReal) (((kx : ℤ) : ℝ) : EReal) = BitVec.ofInt 32 (ky * 4096 + kx) := by
  unfold refIdx
  rw [clipH_int _ hy0 hy1, clipH_int _ hx0 hx1, fptosi_int _ hy0 hy1, fptosi_int _ hx0 hx1, idx_words]

/-- The weight of the base corner along one axis: 1 − (a − ⌊a⌋) = (⌊a⌋ + 1) − a. -/
theorem weight_eq (a : ℝ) :
    FloatOps.subf (F := Ideal) (φ := .f32) (FloatOps.ofBits .f32 0x3F800000#32) (frac (F := Ideal) ((a : ℝ) : EReal))
      = FloatOps.subf (FloatOps.addf (FloatOps.hostUnary (F := Ideal) (φ := .f32) .floor ((a : ℝ) : EReal))
          (FloatOps.ofBits .f32 0x3F800000#32)) ((a : ℝ) : EReal) := by
  unfold frac
  rw [floor_coe, hfloor_coe]
  simp only [Ideal.subf_def, Ideal.addf_def, Ideal.ofBits_def, word_one]
  rw [← EReal.coe_sub, ← EReal.coe_sub, ← EReal.coe_add, ← EReal.coe_sub]
  congr 1
  ring

/-- The weight of the far corner along one axis is the same term in both programs. -/
theorem frac_eq (a : ℝ) :
    frac (F := Ideal) ((a : ℝ) : EReal)
      = FloatOps.subf ((a : ℝ) : EReal) (FloatOps.hostUnary (F := Ideal) (φ := .f32) .floor ((a : ℝ) : EReal)) := rfl

/-! ## The two programs at one query point -/

/-- At real coordinates the two programs' values at a query point are equal. -/
theorem lane_eq (flat : (⟨1, ![NN]⟩ : Shape).Idx → Ideal .f32) (a b : ℝ) :
    kernelLane (F := Ideal) flat ((a : ℝ) : EReal) ((b : ℝ) : EReal)
      = refLane (F := Ideal) flat ((a : ℝ) : EReal) ((b : ℝ) : EReal) := by
  unfold kernelLane refLane blend
  rw [validH_eq_valid]
  have hm : FloatOps.cmpf (F := Ideal) (φ := .f32) .ogt (validF (F := Ideal) ((a : ℝ) : EReal) ((b : ℝ) : EReal))
      (FloatOps.ofBits .f32 0x3F000000#32) = valid (F := Ideal) ((a : ℝ) : EReal) ((b : ℝ) : EReal) := by
    unfold validF
    exact mask_bit _
  rw [hm]
  rcases BitVec.eq_zero_or_eq_one (valid (F := Ideal) ((a : ℝ) : EReal) ((b : ℝ) : EReal)) with hv | hv
  · rw [hv, select_zero, select_zero]
  · rw [hv, select_one, select_one]
    obtain ⟨⟨⟨hx0, hx1⟩, hy0⟩, hy1⟩ := (valid_iff a b).mp hv
    have hx1' : ⌊a⌋ ≤ 4094 := by omega
    have hy1' : ⌊b⌋ ≤ 4094 := by omega
    have hK0 : 0 ≤ ⌊b⌋ * 4096 + ⌊a⌋ := by omega
    have hK1 : ⌊b⌋ * 4096 + ⌊a⌋ + 4097 ≤ 16777215 := by omega
    unfold refSum
    rw [cornerIdx_valid a b hx0 hx1' hy0 hy1']
    rw [add_word _ 1 1#32 rfl, add_word _ 4096 4096#32 rfl, add_word _ 1 1#32 rfl]
    rw [take_small flat _ hK0 (by omega), take_small flat _ (by omega) (by omega),
      take_small flat _ (by omega) (by omega), take_small flat _ (by omega) (by omega)]
    rw [weight_eq a, weight_eq b, frac_eq a, frac_eq b]
    rw [hfloor_coe a, hfloor_coe b, succ_coe, succ_coe]
    rw [refIdx_int _ _ hy0 (by omega) hx0 (by omega), refIdx_int _ _ hy0 (by omega) (by omega) (by omega),
      refIdx_int _ _ (by omega) (by omega) hx0 (by omega), refIdx_int _ _ (by omega) (by omega) (by omega) (by omega)]
    rw [wrap_small _ hK0 (by omega), wrap_small _ (by omega) (by omega), wrap_small _ (by omega) (by omega),
      wrap_small _ (by omega) (by omega)]
    have e1 : ⌊b⌋ * 4096 + (⌊a⌋ + 1) = ⌊b⌋ * 4096 + ⌊a⌋ + 1 := by ring
    have e2 : (⌊b⌋ + 1) * 4096 + ⌊a⌋ = ⌊b⌋ * 4096 + ⌊a⌋ + 4096 := by ring
    have e3 : (⌊b⌋ + 1) * 4096 + (⌊a⌋ + 1) = ⌊b⌋ * 4096 + ⌊a⌋ + 4096 + 1 := by ring
    rw [e1, e2, e3]

/-- The two programs' masks at a query point are equal, whatever the coordinates. -/
theorem mask_eq (x y : EReal) : kernelMask (F := Ideal) x y = validH (F := Ideal) x y := by
  unfold kernelMask validF
  rw [validH_eq_valid]
  exact mask_bit _

end Bilinear

end
-- ==== Proof.Finite.lean ====
/-
  Under the precondition every entry of the coordinate array is a real number.

  The precondition is the conjunction of two tests, one per argument array: every entry x satisfies |x| < +∞.
  On the extended reals |x| is max(x, −x), which is +∞ at both infinities, so an entry passing the test is a real.
-/
import proofs.«108337_j6347961663932_1_alg».proof.Pre_finite_inputs
import Idealize.ShloMosaic.PureOps.Ideal.Laws
import Idealize.ShloMosaic.Lib.Affine
import Idealize.ShloMosaic.Lib.ReduceAll
import Idealize.ShloMosaic.Lib.ValueIdx
import Mathlib.Tactic

noncomputable section

namespace Cert.Pre_finite_inputs.Hand

open Idealize.ShloMosaic Idealize.ShloMosaic.ValueIdx
open Cert.Pre_finite_inputs

instance : Subsingleton S_.Idx := ⟨fun a b => funext fun d => d.elim0⟩

theorem word_inf : Ideal.ofBits .f32 0x7F800000#32 = (⊤ : EReal) := by
  simp [Ideal.ofBits, Ideal.ieee]

/-- An extended real whose absolute value is below +∞ is a real number. -/
theorem real_of_abs_lt_top (x : EReal) (h : Ideal.cmp .olt (max x (-x)) (⊤ : EReal) = 1#1) : ∃ r : ℝ, x = ((r : ℝ) : EReal) := by
  have hlt : max x (-x) < (⊤ : EReal) := by
    unfold Ideal.cmp at h
    by_contra hc
    simp [hc] at h
  induction x using EReal.rec with
  | bot => simp at hlt
  | top => simp at hlt
  | coe r => exact ⟨r, rfl⟩

variable [Facts]

/-- Under the precondition every entry of the second argument array is a real number. -/
theorem coords_real (x0 : FVec Ideal S4096x4096 .f32) (x1 : FVec Ideal S2x16777216 .f32)
    (h : fn (F := Ideal) x0 x1 = fun _ => 1#1) (k : S2x16777216.Idx) : ∃ r : ℝ, x1 k = ((r : ℝ) : EReal) := by
  have h0 := congrFun h ix0
  dsimp only [fn] at h0
  have h1 := (IntOp.andi_eq_one.mp h0).2
  have h2 := Host.reduce_andi_all _ _ _ _ ix0 h1 k
  have h3 : Ideal.cmp .olt (max (x1 k) (-(x1 k))) (Ideal.ofBits .f32 0x7F800000#32) = 1#1 := h2
  rw [word_inf] at h3
  exact real_of_abs_lt_top _ h3

end Cert.Pre_finite_inputs.Hand

end
-- ==== Proof.lean ====
/-
  A masked bilinear interpolation of a 4096 × 4096 image at 16777216 query points, computed two ways.

  Both programs take the image and a 2 × 16777216 array of query coordinates (row 0 the x coordinates, row 1 the y
  coordinates) and return, per query point, the bilinear blend of the four pixels around it, replaced by zero where
  one of those pixels would fall outside the image, together with the bit that says whether it does.

  The first program computes, in one kernel over 64 blocks of 262144 points, the flat index y₀·4096 + x₀ of the base
  corner (x₀, y₀) = (⌊x⌋, ⌊y⌋) clamped into [0, 4094]², the fractions x − x₀ and y − y₀ and the validity bit as a
  float; takes the flattened image at that index, at +1, at +4096 and at +4097; and blends in a second kernel with
  the weights (1 − fx)(1 − fy), fx(1 − fy), (1 − fx)fy, fx·fy.  The second program clamps each of the four corner
  coordinates into [0, 4095], gathers at y·4096 + x for each corner, and blends with the weights
  (x₁ − x)(y₁ − y), (x − x₀)(y₁ − y), (x₁ − x)(y − y₀), (x − x₀)(y − y₀), x₁ = x₀ + 1, y₁ = y₀ + 1.

  On the extended reals, at real coordinates: a point is valid exactly when 0 ≤ x₀ ≤ 4094 and 0 ≤ y₀ ≤ 4094; there
  neither clamp moves a corner, the four flat indices agree and lie inside the flattened image, and
  1 − (x − x₀) = (x₀ + 1) − x; elsewhere both programs give zero.  The validity bits agree at every coordinate.
  The coordinates are real because the precondition makes every input entry finite.
-/
import proofs.«108337_j6347961663932_1_alg».proof.Defs
import proofs.«108337_j6347961663932_1_alg».proof.Proof.Gen.Kernel
import proofs.«108337_j6347961663932_1_alg».proof.Proof.Gen.Kernel.Skeleton
import proofs.«108337_j6347961663932_1_alg».proof.Proof.Gen.Kernel.Launch
import proofs.«108337_j6347961663932_1_alg».proof.Proof.Gen.Kernel.Points
import proofs.«108337_j6347961663932_1_alg».proof.Proof.Gen.Kernel.Frame
import proofs.«108337_j6347961663932_1_alg».proof.Proof.Gen.KernelIdeal
import proofs.«108337_j6347961663932_1_alg».proof.Proof.Gen.KernelIdeal.Skeleton
import proofs.«108337_j6347961663932_1_alg».proof.Proof.Gen.KernelIdeal.Launch
import proofs.«108337_j6347961663932_1_alg».proof.Proof.Gen.KernelIdeal.Points
import proofs.«108337_j6347961663932_1_alg».proof.Proof.Gen.KernelIdeal.Frame
import proofs.«108337_j6347961663932_1_alg».proof.Proof.Gen.ReferenceIdeal
import proofs.«108337_j6347961663932_1_alg».proof.Proof.Gen.Pre_finite_inputs
import proofs.«108337_j6347961663932_1_alg».proof.Proof.Gen.ReferenceIdeal.Run
import proofs.«108337_j6347961663932_1_alg».proof.Proof.Gen.ReferenceIdeal.Read
import proofs.«108337_j6347961663932_1_alg».proof.Proof.Bridge
import proofs.«108337_j6347961663932_1_alg».proof.Proof.Ref
import proofs.«108337_j6347961663932_1_alg».proof.Proof.LaneIdeal
import proofs.«108337_j6347961663932_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The idealization rewrote nothing. -/
theorem preserves : Cert.preserves_Kernel_KernelIdeal := trivial

/-- At coordinates that are real numbers the two programs' values at a query point agree. -/
theorem lane_eq_of_real (flat : (⟨1, ![Bilinear.NN]⟩ : Shape).Idx → Ideal .f32) (x y : EReal)
    (hx : ∃ a : ℝ, x = ((a : ℝ) : EReal)) (hy : ∃ b : ℝ, y = ((b : ℝ) : EReal)) :
    Bilinear.refLane (F := Ideal) flat x y = Bilinear.kernelLane (F := Ideal) flat x y := by
  obtain ⟨a, rfl⟩ := hx
  obtain ⟨b, rfl⟩ := hy
  exact (Bilinear.lane_eq flat a b).symm

set_option maxHeartbeats 2000000 in
/-- Both idealized programs end with the same values and the same mask. -/
theorem algebraic : Cert.algebraic_KernelIdeal_ReferenceIdeal := by
  intro m ρ m' ρ' hpre hagree
  refine ⟨fun c => Cert.KernelIdeal.Hand.valuesArr m c, fun c => Cert.KernelIdeal.Hand.maskOutArr m c,
    Cert.KernelIdeal.Hand.run_values (F := Ideal) m ρ, ?_⟩
  refine (θ_run Cert.ReferenceIdeal.defs _ _).mono
    (fun r h c => ⟨(h c).1.trans ?_, (h c).2.1.trans ?_, (h c).2.2.1, (h c).2.2.2⟩)
    (Cert.ReferenceIdeal.Value.run (F := Ideal) m' ρ')
  · rw [Cert.ReferenceIdeal.Read.val_main_v85_eq, (hagree c).1, (hagree c).2]
    funext i
    obtain ⟨n, rfl⟩ : ∃ n : Fin 16777216, i = ix1 n := ⟨i 0, eq_ix1 i⟩
    rw [Cert.ReferenceIdeal.Hand.value_at]
    refine Eq.trans ?_ (Cert.KernelIdeal.Hand.valuesArr_at m c n).symm
    exact lane_eq_of_real _ _ _ (Cert.Pre_finite_inputs.Hand.coords_real _ _ (hpre c) (ix2 0 n))
      (Cert.Pre_finite_inputs.Hand.coords_real _ _ (hpre c) (ix2 1 n))
  · rw [Cert.ReferenceIdeal.Read.val_main_v20_eq, (hagree c).2]
    funext i
    obtain ⟨n, rfl⟩ : ∃ n : Fin 16777216, i = ix1 n := ⟨i 0, eq_ix1 i⟩
    rw [Cert.ReferenceIdeal.Hand.mask_at]
    exact (Bilinear.mask_eq _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
